-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x16x3 : Shape := ⟨3, ![50000, 16, 3]⟩
abbrev S2x800000 : Shape := ⟨2, ![2, 800000]⟩
abbrev S800000x32 : Shape := ⟨2, ![800000, 32]⟩
abbrev S800000x1x3 : Shape := ⟨3, ![800000, 1, 3]⟩
abbrev S128 : Shape := ⟨1, ![128]⟩
abbrev S128x32 : Shape := ⟨2, ![128, 32]⟩
abbrev S48x3 : Shape := ⟨2, ![48, 3]⟩
abbrev S48 : Shape := ⟨1, ![48]⟩
abbrev S128x128 : Shape := ⟨2, ![128, 128]⟩
abbrev S48x48 : Shape := ⟨2, ![48, 48]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x16x3 : S_.BroadcastsInDim S50000x16x3 (![] : Fin 0 → Fin S50000x16x3.rank)
  reducesTo_S50000x16x3_S_d0_1_2 : S50000x16x3.ReducesTo [0, 1, 2] S_
  bcast_S_S800000x32 : S_.BroadcastsInDim S800000x32 (![] : Fin 0 → Fin S800000x32.rank)
  reducesTo_S800000x32_S_d0_1 : S800000x32.ReducesTo [0, 1] S_
  bcast_S_S800000x1x3 : S_.BroadcastsInDim S800000x1x3 (![] : Fin 0 → Fin S800000x1x3.rank)
  reducesTo_S800000x1x3_S_d0_1_2 : S800000x1x3.ReducesTo [0, 1, 2] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S48x3 : S_.BroadcastsInDim S48x3 (![] : Fin 0 → Fin S48x3.rank)
  reducesTo_S48x3_S_d0_1 : S48x3.ReducesTo [0, 1] S_
  bcast_S_S48 : S_.BroadcastsInDim S48 (![] : Fin 0 → Fin S48.rank)
  reducesTo_S48_S_d0 : S48.ReducesTo [0] S_
  bcast_S_S128x128 : S_.BroadcastsInDim S128x128 (![] : Fin 0 → Fin S128x128.rank)
  reducesTo_S128x128_S_d0_1 : S128x128.ReducesTo [0, 1] S_
  bcast_S_S48x48 : S_.BroadcastsInDim S48x48 (![] : Fin 0 → Fin S48x48.rank)
  reducesTo_S48x48_S_d0_1 : S48x48.ReducesTo [0, 1] S_

variable [Facts]

def fn_part5 {F : FTy → Type} [FloatOps F] (main_v83 : IVec S_ 1) (main_v84 : FVec F S48 .f32) (main_cst_32 : FVec F S_ .f32) : IVec S_ 1 :=
  let main_v85 : FVec F S48 .f32 := broadcastInDim S48 ![] bcast_S_S48 main_cst_32
  let main_v86 : IVec S48 1 := cmpf .olt main_v84 main_v85
  let main_c_33 : IVec S_ 1 := constantI S_ 1 1#1
  let main_v87 : IVec S_ 1 := (fun x v => Host.reduce IntOp.andi x v reducesTo_S48_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S48x48 .f32) (main_arg18 : FVec F S48 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S48x48 .f32 := Host.absf main_arg17
  let main_cst_30 : FVec F S_ .f32 := constant S_ .f32 0x7F800000#32
  let main_v80 : FVec F S48x48 .f32 := broadcastInDim S48x48 ![] bcast_S_S48x48 main_cst_30
  let main_v81 : IVec S48x48 1 := cmpf .olt main_v79 main_v80
  let main_c_31 : IVec S_ 1 := constantI S_ 1 1#1
  let main_v82 : IVec S_ 1 := (fun x v => Host.reduce IntOp.andi x v reducesTo_S48x48_S_d0_1 h_S_) main_v81 main_c_31
  let main_v83 : IVec S_ 1 := andi main_v78 main_v82
  let main_v84 : FVec F S48 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S48x48 .f32) (main_arg14 : FVec F S48 .f32) (main_arg15 : FVec F S128x128 .f32) (main_arg16 : FVec F S128 .f32) (main_arg17 : FVec F S48x48 .f32) (main_arg18 : FVec F S48 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S48x48 .f32 := Host.absf main_arg13
  let main_cst_22 : FVec F S_ .f32 := constant S_ .f32 0x7F800000#32
  let main_v60 : FVec F S48x48 .f32 := broadcastInDim S48x48 ![] bcast_S_S48x48 main_cst_22
  let main_v61 : IVec S48x48 1 := cmpf .olt main_v59 main_v60
  let main_c_23 : IVec S_ 1 := constantI S_ 1 1#1
  let main_v62 : IVec S_ 1 := (fun x v => Host.reduce IntOp.andi x v reducesTo_S48x48_S_d0_1 h_S_) main_v61 main_c_23
  let main_v63 : IVec S_ 1 := andi main_v58 main_v62
  let main_v64 : FVec F S48 .f32 := Host.absf main_arg14
  let main_cst_24 : FVec F S_ .f32 := constant S_ .f32 0x7F800000#32
  let main_v65 : FVec F S48 .f32 := broadcastInDim S48 ![] bcast_S_S48 main_cst_24
  let main_v66 : IVec S48 1 := cmpf .olt main_v64 main_v65
  let main_c_25 : IVec S_ 1 := constantI S_ 1 1#1
  let main_v67 : IVec S_ 1 := (fun x v => Host.reduce IntOp.andi x v reducesTo_S48_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S48x3 .f32) (main_arg10 : FVec F S48 .f32) (main_arg11 : FVec F S128x128 .f32) (main_arg12 : FVec F S128 .f32) (main_arg13 : FVec F S48x48 .f32) (main_arg14 : FVec F S48 .f32) (main_arg15 : FVec F S128x128 .f32) (main_arg16 : FVec F S128 .f32) (main_arg17 : FVec F S48x48 .f32) (main_arg18 : FVec F S48 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S48x3 .f32 := Host.absf main_arg9
  let main_cst_14 : FVec F S_ .f32 := constant S_ .f32 0x7F800000#32
  let main_v40 : FVec F S48x3 .f32 := broadcastInDim S48x3 ![] bcast_S_S48x3 main_cst_14
  let main_v41 : IVec S48x3 1 := cmpf .olt main_v39 main_v40
  let main_c_15 : IVec S_ 1 := constantI S_ 1 1#1
  let main_v42 : IVec S_ 1 := (fun x v => Host.reduce IntOp.andi x v reducesTo_S48x3_S_d0_1 h_S_) main_v41 main_c_15
  let main_v43 : IVec S_ 1 := andi main_v38 main_v42
  let main_v44 : FVec F S48 .f32 := Host.absf main_arg10
  let main_cst_16 : FVec F S_ .f32 := constant S_ .f32 0x7F800000#32
  let main_v45 : FVec F S48 .f32 := broadcastInDim S48 ![] bcast_S_S48 main_cst_16
  let main_v46 : IVec S48 1 := cmpf .olt main_v44 main_v45
  let main_c_17 : IVec S_ 1 := constantI S_ 1 1#1
  let main_v47 : IVec S_ 1 := (fun x v => Host.reduce IntOp.andi x v reducesTo_S48_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128 .f32) (main_arg6 : FVec F S128 .f32) (main_arg7 : FVec F S128x32 .f32) (main_arg8 : FVec F S128 .f32) (main_arg9 : FVec F S48x3 .f32) (main_arg10 : FVec F S48 .f32) (main_arg11 : FVec F S128x128 .f32) (main_arg12 : FVec F S128 .f32) (main_arg13 : FVec F S48x48 .f32) (main_arg14 : FVec F S48 .f32) (main_arg15 : FVec F S128x128 .f32) (main_arg16 : FVec F S128 .f32) (main_arg17 : FVec F S48x48 .f32) (main_arg18 : FVec F S48 .f32) (main_v13 : IVec S_ 1) (main_v16 : IVec S800000x1x3 1) : IVec S_ 1 :=
  let main_c_5 : IVec S_ 1 := constantI S_ 1 1#1
  let main_v17 : IVec S_ 1 := (fun x v => Host.reduce IntOp.andi x v reducesTo_S800000x1x3_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x128 .f32) (main_arg1 : FVec F S50000x16x3 .f32) (main_arg2 : IVec S2x800000 32) (main_arg3 : FVec F S800000x32 .f32) (main_arg4 : FVec F S800000x1x3 .f32) (main_arg5 : FVec F S128 .f32) (main_arg6 : FVec F S128 .f32) (main_arg7 : FVec F S128x32 .f32) (main_arg8 : FVec F S128 .f32) (main_arg9 : FVec F S48x3 .f32) (main_arg10 : FVec F S48 .f32) (main_arg11 : FVec F S128x128 .f32) (main_arg12 : FVec F S128 .f32) (main_arg13 : FVec F S48x48 .f32) (main_arg14 : FVec F S48 .f32) (main_arg15 : FVec F S128x128 .f32) (main_arg16 : FVec F S128 .f32) (main_arg17 : FVec F S48x48 .f32) (main_arg18 : FVec F S48 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x16x3 .f32 := Host.absf main_arg1
  let main_cst_0 : FVec F S_ .f32 := constant S_ .f32 0x7F800000#32
  let main_v5 : FVec F S50000x16x3 .f32 := broadcastInDim S50000x16x3 ![] bcast_S_S50000x16x3 main_cst_0
  let main_v6 : IVec S50000x16x3 1 := cmpf .olt main_v4 main_v5
  let main_c_1 : IVec S_ 1 := constantI S_ 1 1#1
  let main_v7 : IVec S_ 1 := (fun x v => Host.reduce IntOp.andi x v reducesTo_S50000x16x3_S_d0_1_2 h_S_) main_v6 main_c_1
  let main_v8 : IVec S_ 1 := andi main_v3 main_v7
  let main_v9 : FVec F S800000x32 .f32 := Host.absf main_arg3
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S800000x1x3 .f32 := Host.absf main_arg4
  let main_cst_4 : FVec F S_ .f32 := constant S_ .f32 0x7F800000#32
  let main_v15 : FVec F S800000x1x3 .f32 := broadcastInDim S800000x1x3 ![] bcast_S_S800000x1x3 main_cst_4
  let main_v16 : IVec S800000x1x3 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S50000x16x3 : Shape := ⟨3, ![50000, 16, 3]⟩
abbrev S2x800000 : Shape := ⟨2, ![2, 800000]⟩
abbrev S800000x32 : Shape := ⟨2, ![800000, 32]⟩
abbrev S800000x1x3 : Shape := ⟨3, ![800000, 1, 3]⟩
abbrev S128 : Shape := ⟨1, ![128]⟩
abbrev S128x32 : Shape := ⟨2, ![128, 32]⟩
abbrev S48x3 : Shape := ⟨2, ![48, 3]⟩
abbrev S48 : Shape := ⟨1, ![48]⟩
abbrev S128x128 : Shape := ⟨2, ![128, 128]⟩
abbrev S48x48 : Shape := ⟨2, ![48, 48]⟩
abbrev S16x48 : Shape := ⟨2, ![16, 48]⟩
abbrev S800000x3 : Shape := ⟨2, ![800000, 3]⟩
abbrev S50000x48 : Shape := ⟨2, ![50000, 48]⟩
abbrev S32x128 : Shape := ⟨2, ![32, 128]⟩
abbrev S3x48 : Shape := ⟨2, ![3, 48]⟩
abbrev S800000x128 : Shape := ⟨2, ![800000, 128]⟩
abbrev S800000x48 : Shape := ⟨2, ![800000, 48]⟩
abbrev S4000x32 : Shape := ⟨2, ![4000, 32]⟩
abbrev S4000x3 : Shape := ⟨2, ![4000, 3]⟩
abbrev S4000x128 : Shape := ⟨2, ![4000, 128]⟩
abbrev S4000x48 : Shape := ⟨2, ![4000, 48]⟩
abbrev S1x128 : Shape := ⟨2, ![1, 128]⟩
abbrev S1x48 : Shape := ⟨2, ![1, 48]⟩
abbrev S4000x16 : Shape := ⟨2, ![4000, 16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S2000x48 : Shape := ⟨2, ![2000, 48]⟩
abbrev S2000 : Shape := ⟨1, ![2000]⟩
abbrev S2000x1 : Shape := ⟨2, ![2000, 1]⟩
abbrev S2000x16 : Shape := ⟨2, ![2000, 16]⟩

abbrev nBuf : Space → Nat
  | .hbm => 58
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S50000x16x3, .f32⟩
  | .hbm, ⟨2, _⟩ => ⟨S2x800000, .i32⟩
  | .hbm, ⟨3, _⟩ => ⟨S800000x32, .f32⟩
  | .hbm, ⟨4, _⟩ => ⟨S800000x1x3, .f32⟩
  | .hbm, ⟨5, _⟩ => ⟨S128, .f32⟩
  | .hbm, ⟨6, _⟩ => ⟨S128, .f32⟩
  | .hbm, ⟨7, _⟩ => ⟨S128x32, .f32⟩
  | .hbm, ⟨8, _⟩ => ⟨S128, .f32⟩
  | .hbm, ⟨9, _⟩ => ⟨S48x3, .f32⟩
  | .hbm, ⟨10, _⟩ => ⟨S48, .f32⟩
  | .hbm, ⟨11, _⟩ => ⟨S128x128, .f32⟩
  | .hbm, ⟨12, _⟩ => ⟨S128, .f32⟩
  | .hbm, ⟨13, _⟩ => ⟨S48x48, .f32⟩
  | .hbm, ⟨14, _⟩ => ⟨S48, .f32⟩
  | .hbm, ⟨15, _⟩ => ⟨S128x128, .f32⟩
  | .hbm, ⟨16, _⟩ => ⟨S128, .f32⟩
  | .hbm, ⟨17, _⟩ => ⟨S48x48, .f32⟩
  | .hbm, ⟨18, _⟩ => ⟨S48, .f32⟩
  | .hbm, ⟨19, _⟩ => ⟨S16x48, .f32⟩
  | .hbm, ⟨20, _⟩ => ⟨S800000x3, .f32⟩
  | .hbm, ⟨21, _⟩ => ⟨S50000x48, .f32⟩
  | .hbm, ⟨22, _⟩ => ⟨S32x128, .f32⟩
  | .hbm, ⟨23, _⟩ => ⟨S3x48, .f32⟩
  | .hbm, ⟨24, _⟩ => ⟨S128x128, .f32⟩
  | .hbm, ⟨25, _⟩ => ⟨S48x48, .f32⟩
  | .hbm, ⟨26, _⟩ => ⟨S128x128, .f32⟩
  | .hbm, ⟨27, _⟩ => ⟨S48x48, .f32⟩
  | .hbm, ⟨28, _⟩ => ⟨S800000x128, .f32⟩
  | .hbm, ⟨29, _⟩ => ⟨S800000x48, .f32⟩
  | .hbm, ⟨30, _⟩ => ⟨S1x800000, .i32⟩
  | .hbm, ⟨31, _⟩ => ⟨S800000, .i32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x48, .f32⟩
  | .hbm, ⟨50, _⟩ => ⟨S800000x1, .i32⟩
  | .hbm, ⟨51, _⟩ => ⟨S50000x48, .f32⟩
  | .hbm, ⟨52, _⟩ => ⟨S50000x1, .f32⟩
  | .hbm, ⟨53, _⟩ => ⟨S50000x48, .f32⟩
  | .hbm, ⟨54, _⟩ => ⟨S50000x48, .f32⟩
  | .hbm, ⟨55, _⟩ => ⟨S50000x128, .f32⟩
  | .hbm, ⟨56, _⟩ => ⟨S50000x48, .f32⟩
  | .hbm, ⟨57, _⟩ => ⟨S50000x16x3, .f32⟩
  | .local _ .vmem, ⟨0, _⟩ => ⟨S4000x32, .f32⟩
  | .local _ .vmem, ⟨1, _⟩ => ⟨S4000x32, .f32⟩
  | .local _ .vmem, ⟨2, _⟩ => ⟨S4000x3, .f32⟩
  | .local _ .vmem, ⟨3, _⟩ => ⟨S4000x3, .f32⟩
  | .local _ .vmem, ⟨4, _⟩ => ⟨S32x128, .f32⟩
  | .local _ .vmem, ⟨5, _⟩ => ⟨S128, .f32⟩
  | .local _ .vmem, ⟨6, _⟩ => ⟨S3x48, .f32⟩
  | .local _ .vmem, ⟨7, _⟩ => ⟨S48, .f32⟩
  | .local _ .vmem, ⟨8, _⟩ => ⟨S16x48, .f32⟩
  | .local _ .vmem, ⟨9, _⟩ => ⟨S4000x128, .f32⟩
  | .local _ .vmem, ⟨10, _⟩ => ⟨S4000x128, .f32⟩
  | .local _ .vmem, ⟨11, _⟩ => ⟨S4000x48, .f32⟩
  | .local _ .vmem, ⟨12, _⟩ => ⟨S4000x48, .f32⟩
  | .local _ .vmem, ⟨13, _⟩ => ⟨S2000x128, .f32⟩
  | .local _ .vmem, ⟨14, _⟩ => ⟨S2000x128, .f32⟩
  | .local _ .vmem, ⟨15, _⟩ => ⟨S2000x48, .f32⟩
  | .local _ .vmem, ⟨16, _⟩ => ⟨S2000x48, .f32⟩
  | .local _ .vmem, ⟨17, _⟩ => ⟨S2000x128, .f32⟩
  | .local _ .vmem, ⟨18, _⟩ => ⟨S2000x128, .f32⟩
  | .local _ .vmem, ⟨19, _⟩ => ⟨S2000x48, .f32⟩
  | .local _ .vmem, ⟨20, _⟩ => ⟨S2000x48, .f32⟩
  | .local _ .vmem, ⟨21, _⟩ => ⟨S128, .f32⟩
  | .local _ .vmem, ⟨22, _⟩ => ⟨S128, .f32⟩
  | .local _ .vmem, ⟨23, _⟩ => ⟨S128x128, .f32⟩
  | .local _ .vmem, ⟨24, _⟩ => ⟨S128, .f32⟩
  | .local _ .vmem, ⟨25, _⟩ => ⟨S48x48, .f32⟩
  | .local _ .vmem, ⟨26, _⟩ => ⟨S48, .f32⟩
  | .local _ .vmem, ⟨27, _⟩ => ⟨S128x128, .f32⟩
  | .local _ .vmem, ⟨28, _⟩ => ⟨S128, .f32⟩
  | .local _ .vmem, ⟨29, _⟩ => ⟨S48x48, .f32⟩
  | .local _ .vmem, ⟨30, _⟩ => ⟨S48, .f32⟩
  | .local _ .vmem, ⟨31, _⟩ => ⟨S16x48, .f32⟩
  | .local _ .vmem, ⟨32, _⟩ => ⟨S2000x128, .f32⟩
  | .local _ .vmem, ⟨33, _⟩ => ⟨S2000x128, .f32⟩
  | .local _ .vmem, ⟨34, _⟩ => ⟨S2000x48, .f32⟩
  | .local _ .vmem, ⟨35, _⟩ => ⟨S2000x48, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29_0 : Ref sig .tc := ⟨.hbm, 55, rfl⟩
abbrev main_v29_1 : Ref sig .tc := ⟨.hbm, 56, rfl⟩
abbrev main_v30 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg15_0 : Ref sig .tc := ⟨.vmem, 32, rfl⟩
abbrev cc1_stg15_1 : Ref sig .tc := ⟨.vmem, 33, rfl⟩
abbrev cc1_stg16_0 : Ref sig .tc := ⟨.vmem, 34, rfl⟩
abbrev cc1_stg16_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem15_0 : DmaSem sig := 32
abbrev cc1_sem15_1 : DmaSem sig := 33
abbrev cc1_sem16_0 : DmaSem sig := 34
abbrev cc1_sem16_1 : DmaSem sig := 35

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x48 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S48x48 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S48 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S48x48 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S48 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S16x48 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S2000x48 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  shapeCasts_S800000x1x3_S800000x3 : S800000x1x3.ShapeCasts S800000x3
  shapeCasts_S50000x16x3_S50000x48 : S50000x16x3.ShapeCasts S50000x48
  transposes_S128x32_S32x128_1_0 : S128x32.Transposes [1, 0] S32x128
  transposes_S48x3_S3x48_1_0 : S48x3.Transposes [1, 0] S3x48
  transposes_S128x128_S128x128_1_0 : S128x128.Transposes [1, 0] S128x128
  transposes_S48x48_S48x48_1_0 : S48x48.Transposes [1, 0] S48x48
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S3x48_S3x48_0_0 : ∀ a, (![0, 0] : Fin 2 → Nat) a + S3x48.size a ≤ S3x48.size a
  h_S3x48 : 0 < S3x48.numel
  shapeCasts_S3x48_S3x48 : S3x48.ShapeCasts S3x48
  inb_S48_S48_0 : ∀ a, (![0] : Fin 1 → Nat) a + S48.size a ≤ S48.size a
  h_S48 : 0 < S48.numel
  shapeCasts_S48_S1x48 : S48.ShapeCasts S1x48
  broadcasts_S1x48_S4000x48 : S1x48.Broadcasts S4000x48
  slices_S4000x128_o0_0_S4000x16 : S4000x128.Slices ![0, 0] S4000x16
  inb_S16x48_S16x48_0_0 : ∀ a, (![0, 0] : Fin 2 → Nat) a + S16x48.size a ≤ S16x48.size a
  h_S16x48 : 0 < S16x48.numel
  inb_S4000x128_S4000x128_0_0 : ∀ a, (![0, 0] : Fin 2 → Nat) a + S4000x128.size a ≤ S4000x128.size a
  h_S4000x128 : 0 < S4000x128.numel
  inb_S4000x48_S4000x48_0_0 : ∀ a, (![0, 0] : Fin 2 → Nat) a + S4000x48.size a ≤ S4000x48.size a
  h_S4000x48 : 0 < S4000x48.numel
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x48 : S_.BroadcastsInDim S50000x48 (![] : Fin 0 → Fin S50000x48.rank)
  bcast_S50000x1_S50000x48_0_1 : S50000x1.BroadcastsInDim S50000x48 (![0, 1] : Fin 2 → Fin S50000x48.rank)
  inb_S2000x128_S2000x128_0_0 : ∀ a, (![0, 0] : Fin 2 → Nat) a + S2000x128.size a ≤ S2000x128.size a
  h_S2000x128 : 0 < S2000x128.numel
  inb_S2000x48_S2000x48_0_0 : ∀ a, (![0, 0] : Fin 2 → Nat) a + S2000x48.size a ≤ S2000x48.size a
  h_S2000x48 : 0 < S2000x48.numel
  shapeCasts_S2000x48_S2000x48 : S2000x48.ShapeCasts S2000x48
  reduces_S2000x128_S2000 : S2000x128.Reduces [1] S2000
  shapeCasts_S2000_S2000x1 : S2000.ShapeCasts S2000x1
  broadcasts_S2000x1_S2000x128 : S2000x1.Broadcasts S2000x128
  broadcasts_S1x128_S2000x128 : S1x128.Broadcasts S2000x128
  reduces_S2000x48_S2000 : S2000x48.Reduces [1] S2000
  broadcasts_S2000x1_S2000x48 : S2000x1.Broadcasts S2000x48
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S48x48_S48x48_0_0 : ∀ a, (![0, 0] : Fin 2 → Nat) a + S48x48.size a ≤ S48x48.size a
  h_S48x48 : 0 < S48x48.numel
  shapeCasts_S48x48_S48x48 : S48x48.ShapeCasts S48x48
  broadcasts_S1x48_S2000x48 : S1x48.Broadcasts S2000x48
  slices_S2000x128_o0_0_S2000x16 : S2000x128.Slices ![0, 0] S2000x16
  shapeCasts_S50000x48_S50000x16x3 : S50000x48.ShapeCasts S50000x16x3
  dot_S4000x32_S32x128_S4000x128_1_0_0_1_n_n_wf : DotDims.WF S4000x32 S32x128 S4000x128 [1] [0] [0] [1] [] []
  dot_S4000x3_S3x48_S4000x48_1_0_0_1_n_n_wf : DotDims.WF S4000x3 S3x48 S4000x48 [1] [0] [0] [1] [] []
  dot_S4000x16_S16x48_S4000x48_1_0_0_1_n_n_wf : DotDims.WF S4000x16 S16x48 S4000x48 [1] [0] [0] [1] [] []
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  scatter_S50000x48_S800000x1_S800000x48_1_0_0_1_wf : ScatterDims.WF S50000x48 S800000x1 S800000x48 [1] [0] [0] 1
  dot_S2000x128_S128x128_S2000x128_1_0_0_1_n_n_wf : DotDims.WF S2000x128 S128x128 S2000x128 [1] [0] [0] [1] [] []
  dot_S2000x48_S48x48_S2000x48_1_0_0_1_n_n_wf : DotDims.WF S2000x48 S48x48 S2000x48 [1] [0] [0] [1] [] []
  dot_S2000x16_S16x48_S2000x48_1_0_0_1_n_n_wf : DotDims.WF S2000x16 S16x48 S2000x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S800000x32.size a
  hwx0_0 : ∀ i : grid0.Coords, EltTy.bits .f32 = 32 ∨ (Rect.block (s := S800000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S800000x3.size a
  hwx0_1 : ∀ i : grid0.Coords, EltTy.bits .f32 = 32 ∨ (Rect.block (s := S800000x3) S4000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x48.size a ≤ S3x48.size a
  hwx0_4 : ∀ i : grid0.Coords, EltTy.bits .f32 = 32 ∨ (Rect.block (s := S3x48) S3x48.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S48.size a ≤ S48.size a
  hwx0_5 : ∀ i : grid0.Coords, EltTy.bits .f32 = 32 ∨ (Rect.block (s := S48) S48.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x48.size a ≤ S16x48.size a
  hwx0_6 : ∀ i : grid0.Coords, EltTy.bits .f32 = 32 ∨ (Rect.block (s := S16x48) S16x48.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S800000x128.size a
  hwx0_7 : ∀ i : grid0.Coords, EltTy.bits .f32 = 32 ∨ (Rect.block (s := S800000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x48.size a ≤ S800000x48.size a
  hwx0_8 : ∀ i : grid0.Coords, EltTy.bits .f32 = 32 ∨ (Rect.block (s := S800000x48) S4000x48.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x48.size a ≤ S50000x48.size a
  hwx1_1 : ∀ i : grid1.Coords, EltTy.bits .f32 = 32 ∨ (Rect.block (s := S50000x48) S2000x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x48.size a ≤ S50000x48.size a
  hwx1_3 : ∀ i : grid1.Coords, EltTy.bits .f32 = 32 ∨ (Rect.block (s := S50000x48) S2000x48.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S48x48.size a ≤ S48x48.size a
  hwx1_8 : ∀ i : grid1.Coords, EltTy.bits .f32 = 32 ∨ (Rect.block (s := S48x48) S48x48.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S48.size a ≤ S48.size a
  hwx1_9 : ∀ i : grid1.Coords, EltTy.bits .f32 = 32 ∨ (Rect.block (s := S48) S48.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S48x48.size a ≤ S48x48.size a
  hwx1_12 : ∀ i : grid1.Coords, EltTy.bits .f32 = 32 ∨ (Rect.block (s := S48x48) S48x48.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S48.size a ≤ S48.size a
  hwx1_13 : ∀ i : grid1.Coords, EltTy.bits .f32 = 32 ∨ (Rect.block (s := S48) S48.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S16x48.size a ≤ S16x48.size a
  hwx1_14 : ∀ i : grid1.Coords, EltTy.bits .f32 = 32 ∨ (Rect.block (s := S16x48) S16x48.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x128.size a ≤ S50000x128.size a
  hwx1_15 : ∀ i : grid1.Coords, EltTy.bits .f32 = 32 ∨ (Rect.block (s := S50000x128) S2000x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S2000x48.size a ≤ S50000x48.size a
  hwx1_16 : ∀ i : grid1.Coords, EltTy.bits .f32 = 32 ∨ (Rect.block (s := S50000x48) S2000x48.size (cc1_transform_16 i) (hinb1_16 i)).WholeWords (EltTy.packing .f32)

variable [Facts₀]

def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x3_S3x48_S4000x48_1_0_0_1_n_n : DotDims S4000x3 S3x48 S4000x48 where
  lhsContracting := [1]
  rhsContracting := [0]
  lhsNonContracting := [0]
  rhsNonContracting := [1]
  lhsBatch := []
  rhsBatch := []
  wf := dot_S4000x3_S3x48_S4000x48_1_0_0_1_n_n_wf
def dot_S4000x16_S16x48_S4000x48_1_0_0_1_n_n : DotDims S4000x16 S16x48 S4000x48 where
  lhsContracting := [1]
  rhsContracting := [0]
  lhsNonContracting := [0]
  rhsNonContracting := [1]
  lhsBatch := []
  rhsBatch := []
  wf := dot_S4000x16_S16x48_S4000x48_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x48_S800000x1_S800000x48_1_0_0_1 : ScatterDims S50000x48 S800000x1 S800000x48 where
  updateWindowDims := [1]
  insertedWindowDims := [0]
  scatterDimsToOperandDims := [0]
  indexVectorDim := 1
  wf := scatter_S50000x48_S800000x1_S800000x48_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x48_S48x48_S2000x48_1_0_0_1_n_n : DotDims S2000x48 S48x48 S2000x48 where
  lhsContracting := [1]
  rhsContracting := [0]
  lhsNonContracting := [0]
  rhsNonContracting := [1]
  lhsBatch := []
  rhsBatch := []
  wf := dot_S2000x48_S48x48_S2000x48_1_0_0_1_n_n_wf
def dot_S2000x16_S16x48_S2000x48_1_0_0_1_n_n : DotDims S2000x16 S16x48 S2000x48 where
  lhsContracting := [1]
  rhsContracting := [0]
  lhsNonContracting := [0]
  rhsNonContracting := [1]
  lhsBatch := []
  rhsBatch := []
  wf := dot_S2000x16_S16x48_S2000x48_1_0_0_1_n_n_wf

abbrev win0_0 : Pipeline.Window sig grid0 :=
  Pipeline.Window.ofSpec (Memref.whole main_arg3) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3x48.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S48.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst) S16x48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S4000x48.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x48.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S48x48.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S48.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v6) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg16) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v7) S48x48.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg18) S48.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_cst) S16x48.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v29_0) S2000x128.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v29_1) S2000x48.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x16x3 : Shape := ⟨3, ![50000, 16, 3]⟩
abbrev S2x800000 : Shape := ⟨2, ![2, 800000]⟩
abbrev S800000x32 : Shape := ⟨2, ![800000, 32]⟩
abbrev S800000x1x3 : Shape := ⟨3, ![800000, 1, 3]⟩
abbrev S128 : Shape := ⟨1, ![128]⟩
abbrev S128x32 : Shape := ⟨2, ![128, 32]⟩
abbrev S48x3 : Shape := ⟨2, ![48, 3]⟩
abbrev S48 : Shape := ⟨1, ![48]⟩
abbrev S128x128 : Shape := ⟨2, ![128, 128]⟩
abbrev S48x48 : Shape := ⟨2, ![48, 48]⟩
abbrev S_ : Shape := ⟨0, ![]⟩
abbrev S50000 : Shape := ⟨1, ![50000]⟩
abbrev S50000x1 : Shape := ⟨2, ![50000, 1]⟩
abbrev S1x128 : Shape := ⟨2, ![1, 128]⟩
abbrev S50000x16 : Shape := ⟨2, ![50000, 16]⟩
abbrev S50000x16x1 : Shape := ⟨3, ![50000, 16, 1]⟩
abbrev S50000x1x1 : Shape := ⟨3, ![50000, 1, 1]⟩
abbrev S32x128 : Shape := ⟨2, ![32, 128]⟩
abbrev S800000x128 : Shape := ⟨2, ![800000, 128]⟩
abbrev S800000x3 : Shape := ⟨2, ![800000, 3]⟩
abbrev S3x48 : Shape := ⟨2, ![3, 48]⟩
abbrev S800000x48 : Shape := ⟨2, ![800000, 48]⟩
abbrev S1x48 : Shape := ⟨2, ![1, 48]⟩
abbrev S800000x16x3 : Shape := ⟨3, ![800000, 16, 3]⟩
abbrev S800000x16 : Shape := ⟨2, ![800000, 16]⟩
abbrev S800000x16x1 : Shape := ⟨3, ![800000, 16, 1]⟩
abbrev S1x800000 : Shape := ⟨2, ![1, 800000]⟩
abbrev S800000 : Shape := ⟨1, ![800000]⟩
abbrev S800000x1 : Shape := ⟨2, ![800000, 1]⟩
abbrev S50000x48 : Shape := ⟨2, ![50000, 48]⟩

abbrev nBuf : Space → Nat
  | .hbm => 171
  | .vmem => 0
  | .smem => 0
  | _ => 0

abbrev hbmTy0_0 (i : Nat) : BufTy := match i % 128 with
  | 0 => ⟨S50000x128, .f32⟩
  | 1 => ⟨S50000x16x3, .f32⟩
  | 2 => ⟨S2x800000, .i32⟩
  | 3 => ⟨S800000x32, .f32⟩
  | 4 => ⟨S800000x1x3, .f32⟩
  | 5 => ⟨S128, .f32⟩
  | 6 => ⟨S128, .f32⟩
  | 7 => ⟨S128x32, .f32⟩
  | 8 => ⟨S128, .f32⟩
  | 9 => ⟨S48x3, .f32⟩
  | 10 => ⟨S48, .f32⟩
  | 11 => ⟨S128x128, .f32⟩
  | 12 => ⟨S128, .f32⟩
  | 13 => ⟨S48x48, .f32⟩
  | 14 => ⟨S48, .f32⟩
  | 15 => ⟨S128x128, .f32⟩
  | 16 => ⟨S128, .f32⟩
  | 17 => ⟨S48x48, .f32⟩
  | 18 => ⟨S48, .f32⟩
  | 19 => ⟨S_, .f32⟩
  | 20 => ⟨S50000, .f32⟩
  | 21 => ⟨S50000x1, .f32⟩
  | 22 => ⟨S_, .f32⟩
  | 23 => ⟨S50000x1, .f32⟩
  | 24 => ⟨S50000x1, .f32⟩
  | 25 => ⟨S50000x128, .f32⟩
  | 26 => ⟨S50000x128, .f32⟩
  | 27 => ⟨S50000x128, .f32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S50000x128, .f32⟩
  | 35 => ⟨S50000x128, .f32⟩
  | 36 => ⟨S_, .f32⟩
  | 37 => ⟨S50000x1, .f32⟩
  | 38 => ⟨S50000x1, .f32⟩
  | 39 => ⟨S50000x1, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S50000x16x3, .f32⟩
  | 49 => ⟨S_, .f32⟩
  | 50 => ⟨S50000x16, .f32⟩
  | 51 => ⟨S50000x16x1, .f32⟩
  | 52 => ⟨S_, .f32⟩
  | 53 => ⟨S50000x1, .f32⟩
  | 54 => ⟨S50000x1x1, .f32⟩
  | 55 => ⟨S_, .f32⟩
  | 56 => ⟨S50000x1x1, .f32⟩
  | 57 => ⟨S50000x1x1, .f32⟩
  | 58 => ⟨S_, .f32⟩
  | 59 => ⟨S50000x1x1, .f32⟩
  | 60 => ⟨S50000x1x1, .f32⟩
  | 61 => ⟨S50000x1x1, .f32⟩
  | 62 => ⟨S50000x16x3, .f32⟩
  | 63 => ⟨S50000x16x3, .f32⟩
  | 64 => ⟨S32x128, .f32⟩
  | 65 => ⟨S800000x128, .f32⟩
  | 66 => ⟨S1x128, .f32⟩
  | 67 => ⟨S800000x128, .f32⟩
  | 68 => ⟨S800000x128, .f32⟩
  | 69 => ⟨S800000x128, .f32⟩
  | 70 => ⟨S800000x128, .f32⟩
  | 71 => ⟨S_, .f32⟩
  | 72 => ⟨S800000x128, .f32⟩
  | 73 => ⟨S800000x128, .f32⟩
  | 74 => ⟨S_, .f32⟩
  | 75 => ⟨S800000x128, .f32⟩
  | 76 => ⟨S800000x128, .f32⟩
  | 77 => ⟨S800000x128, .f32⟩
  | 78 => ⟨S800000x3, .f32⟩
  | 79 => ⟨S3x48, .f32⟩
  | 80 => ⟨S800000x48, .f32⟩
  | 81 => ⟨S1x48, .f32⟩
  | 82 => ⟨S800000x48, .f32⟩
  | 83 => ⟨S800000x48, .f32⟩
  | 84 => ⟨S800000x16x3, .f32⟩
  | 85 => ⟨S800000x16, .f32⟩
  | 86 => ⟨S800000x16, .f32⟩
  | 87 => ⟨S800000x16, .f32⟩
  | 88 => ⟨S_, .f32⟩
  | 89 => ⟨S800000x16, .f32⟩
  | 90 => ⟨S800000x16, .f32⟩
  | 91 => ⟨S_, .f32⟩
  | 92 => ⟨S800000x16, .f32⟩
  | 93 => ⟨S800000x16, .f32⟩
  | 94 => ⟨S800000x16x1, .f32⟩
  | 95 => ⟨S800000x16x3, .f32⟩
  | 96 => ⟨S800000x16x3, .f32⟩
  | 97 => ⟨S1x800000, .i32⟩
  | 98 => ⟨S800000, .i32⟩
  | 99 => ⟨S_, .f32⟩
  | 100 => ⟨S800000, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000, .f32⟩
  | 107 => ⟨S50000, .f32⟩
  | 108 => ⟨S_, .f32⟩
  | 109 => ⟨S50000x128, .f32⟩
  | 110 => ⟨S800000x1, .i32⟩
  | 111 => ⟨S50000x128, .f32⟩
  | 112 => ⟨S50000x1, .f32⟩
  | 113 => ⟨S50000x128, .f32⟩
  | 114 => ⟨S50000x128, .f32⟩
  | 115 => ⟨S_, .f32⟩
  | 116 => ⟨S50000x16x3, .f32⟩
  | 117 => ⟨S800000x1, .i32⟩
  | 118 => ⟨S50000x16x3, .f32⟩
  | 119 => ⟨S50000x1x1, .f32⟩
  | 120 => ⟨S50000x16x3, .f32⟩
  | 121 => ⟨S50000x16x3, .f32⟩
  | 122 => ⟨S50000x128, .f32⟩
  | 123 => ⟨S50000x16x3, .f32⟩
  | 124 => ⟨S128x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S50000x48, .f32⟩
  | 11 => ⟨S48x48, .f32⟩
  | 12 => ⟨S50000x48, .f32⟩
  | 13 => ⟨S1x48, .f32⟩
  | 14 => ⟨S50000x48, .f32⟩
  | 15 => ⟨S50000x48, .f32⟩
  | 16 => ⟨S50000x16x3, .f32⟩
  | 17 => ⟨S50000x16, .f32⟩
  | 18 => ⟨S50000x16, .f32⟩
  | 19 => ⟨S50000x16, .f32⟩
  | 20 => ⟨S_, .f32⟩
  | 21 => ⟨S50000x16, .f32⟩
  | 22 => ⟨S50000x16, .f32⟩
  | 23 => ⟨S_, .f32⟩
  | 24 => ⟨S50000x16, .f32⟩
  | 25 => ⟨S50000x16, .f32⟩
  | 26 => ⟨S50000x16x1, .f32⟩
  | 27 => ⟨S50000x16x3, .f32⟩
  | 28 => ⟨S50000x16x3, .f32⟩
  | 29 => ⟨S128x128, .f32⟩
  | 30 => ⟨S50000x128, .f32⟩
  | 31 => ⟨S1x128, .f32⟩
  | 32 => ⟨S50000x128, .f32⟩
  | 33 => ⟨S50000x128, .f32⟩
  | 34 => ⟨S50000x48, .f32⟩
  | 35 => ⟨S48x48, .f32⟩
  | 36 => ⟨S50000x48, .f32⟩
  | 37 => ⟨S1x48, .f32⟩
  | 38 => ⟨S50000x48, .f32⟩
  | 39 => ⟨S50000x48, .f32⟩
  | 40 => ⟨S50000x16x3, .f32⟩
  | 41 => ⟨S50000x128, .f32⟩
  | 42 => ⟨S50000x16x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_8 : Ref sig .tc := ⟨.hbm, 88, rfl⟩
abbrev main_v52 : Ref sig .tc := ⟨.hbm, 89, rfl⟩
abbrev main_v53 : Ref sig .tc := ⟨.hbm, 90, rfl⟩
abbrev main_cst_9 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_10 : Ref sig .tc := ⟨.hbm, 99, rfl⟩
abbrev main_v61 : Ref sig .tc := ⟨.hbm, 100, rfl⟩
abbrev main_cst_11 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_12 : Ref sig .tc := ⟨.hbm, 105, rfl⟩
abbrev main_v65 : Ref sig .tc := ⟨.hbm, 106, rfl⟩
abbrev main_v66 : Ref sig .tc := ⟨.hbm, 107, rfl⟩
abbrev main_cst_13 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_14 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_call1_v0 : Ref sig .tc := ⟨.hbm, 129, rfl⟩
abbrev main_call1_v1 : Ref sig .tc := ⟨.hbm, 130, rfl⟩
abbrev main_call1_cst : Ref sig .tc := ⟨.hbm, 131, rfl⟩
abbrev main_call1_v2 : Ref sig .tc := ⟨.hbm, 132, rfl⟩
abbrev main_call1_v3 : Ref sig .tc := ⟨.hbm, 133, rfl⟩
abbrev main_call1_cst_0 : Ref sig .tc := ⟨.hbm, 134, rfl⟩
abbrev main_call1_v4 : Ref sig .tc := ⟨.hbm, 135, rfl⟩
abbrev main_call1_v5 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_15 : Ref sig .tc := ⟨.hbm, 148, rfl⟩
abbrev main_v97 : Ref sig .tc := ⟨.hbm, 149, rfl⟩
abbrev main_v98 : Ref sig .tc := ⟨.hbm, 150, rfl⟩
abbrev main_cst_16 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩

abbrev nD : Nat := 1
abbrev τ : Topo := Topo.v7x

variable {F : FTy → Type} [FloatOps F]

class Facts₀ : Prop where
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x16x3_S50000x16_d2 : S50000x16x3.ReducesTo [2] S50000x16
  bcast_S50000x16_S50000x16x1_0_1 : S50000x16.BroadcastsInDim S50000x16x1 (![0, 1] : Fin 2 → Fin S50000x16x1.rank)
  reducesTo_S50000x16x1_S50000x1_d1 : S50000x16x1.ReducesTo [1] S50000x1
  bcast_S50000x1_S50000x1x1_0_2 : S50000x1.BroadcastsInDim S50000x1x1 (![0, 2] : Fin 2 → Fin S50000x1x1.rank)
  bcast_S_S50000x1x1 : S_.BroadcastsInDim S50000x1x1 (![] : Fin 0 → Fin S50000x1x1.rank)
  bcast_S50000x1x1_S50000x16x3_0_1_2 : S50000x1x1.BroadcastsInDim S50000x16x3 (![0, 1, 2] : Fin 3 → Fin S50000x16x3.rank)
  transposes_S128x32_S32x128_1_0 : S128x32.Transposes [1, 0] S32x128
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  shapeCasts_S800000x1x3_S800000x3 : S800000x1x3.ShapeCasts S800000x3
  transposes_S48x3_S3x48_1_0 : S48x3.Transposes [1, 0] S3x48
  bcast_S48_S1x48_1 : S48.BroadcastsInDim S1x48 (![1] : Fin 1 → Fin S1x48.rank)
  bcast_S1x48_S800000x48_0_1 : S1x48.BroadcastsInDim S800000x48 (![0, 1] : Fin 2 → Fin S800000x48.rank)
  shapeCasts_S800000x48_S800000x16x3 : S800000x48.ShapeCasts S800000x16x3
  slices_S800000x128_S800000x16_0_0 : S800000x128.Slices ![0, 0] S800000x16
  bcast_S_S800000x16 : S_.BroadcastsInDim S800000x16 (![] : Fin 0 → Fin S800000x16.rank)
  bcast_S800000x16_S800000x16x1_0_1 : S800000x16.BroadcastsInDim S800000x16x1 (![0, 1] : Fin 2 → Fin S800000x16x1.rank)
  bcast_S800000x16x1_S800000x16x3_0_1_2 : S800000x16x1.BroadcastsInDim S800000x16x3 (![0, 1, 2] : Fin 3 → Fin S800000x16x3.rank)
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000x16x3 : S_.BroadcastsInDim S50000x16x3 (![] : Fin 0 → Fin S50000x16x3.rank)
  bcast_S50000_S50000x1x1_0 : S50000.BroadcastsInDim S50000x1x1 (![0] : Fin 1 → Fin S50000x1x1.rank)
  transposes_S128x128_S128x128_1_0 : S128x128.Transposes [1, 0] S128x128
  shapeCasts_S50000x16x3_S50000x48 : S50000x16x3.ShapeCasts S50000x48
  transposes_S48x48_S48x48_1_0 : S48x48.Transposes [1, 0] S48x48
  bcast_S1x48_S50000x48_0_1 : S1x48.BroadcastsInDim S50000x48 (![0, 1] : Fin 2 → Fin S50000x48.rank)
  shapeCasts_S50000x48_S50000x16x3 : S50000x48.ShapeCasts S50000x16x3
  slices_S50000x128_S50000x16_0_0 : S50000x128.Slices ![0, 0] S50000x16
  bcast_S_S50000x16 : S_.BroadcastsInDim S50000x16 (![] : Fin 0 → Fin S50000x16.rank)
  bcast_S50000x16x1_S50000x16x3_0_1_2 : S50000x16x1.BroadcastsInDim S50000x16x3 (![0, 1, 2] : Fin 3 → Fin S50000x16x3.rank)
  dot_S800000x32_S32x128_S800000x128_1_0_0_1_n_n_wf : DotDims.WF S800000x32 S32x128 S800000x128 [1] [0] [0] [1] [] []
  dot_S800000x3_S3x48_S800000x48_1_0_0_1_n_n_wf : DotDims.WF S800000x3 S3x48 S800000x48 [1] [0] [0] [1] [] []
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  scatter_S50000x16x3_S800000x1_S800000x16x3_12_0_0_1_wf : ScatterDims.WF S50000x16x3 S800000x1 S800000x16x3 [1, 2] [0] [0] 1
  dot_S50000x128_S128x128_S50000x128_1_0_0_1_n_n_wf : DotDims.WF S50000x128 S128x128 S50000x128 [1] [0] [0] [1] [] []
  dot_S50000x48_S48x48_S50000x48_1_0_0_1_n_n_wf : DotDims.WF S50000x48 S48x48 S50000x48 [1] [0] [0] [1] [] []

variable [Facts₀]

def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def dot_S800000x3_S3x48_S800000x48_1_0_0_1_n_n : DotDims S800000x3 S3x48 S800000x48 where
  lhsContracting := [1]
  rhsContracting := [0]
  lhsNonContracting := [0]
  rhsNonContracting := [1]
  lhsBatch := []
  rhsBatch := []
  wf := dot_S800000x3_S3x48_S800000x48_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x16x3_S800000x1_S800000x16x3_12_0_0_1 : ScatterDims S50000x16x3 S800000x1 S800000x16x3 where
  updateWindowDims := [1, 2]
  insertedWindowDims := [0]
  scatterDimsToOperandDims := [0]
  indexVectorDim := 1
  wf := scatter_S50000x16x3_S800000x1_S800000x16x3_12_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x48_S48x48_S50000x48_1_0_0_1_n_n : DotDims S50000x48 S48x48 S50000x48 where
  lhsContracting := [1]
  rhsContracting := [0]
  lhsNonContracting := [0]
  rhsNonContracting := [1]
  lhsBatch := []
  rhsBatch := []
  wf := dot_S50000x48_S48x48_S50000x48_1_0_0_1_n_n_wf

class Facts : Prop extends Facts₀ where

variable [Facts]
-- ==== Proof.HostValue.lean ====
/-
  The buffers the two launches are entered with, and the results, read through the host operations.

  Before the edge-message launch the host has flattened the edge vectors [800000,1,3] to [800000,3] and the node
  vectors [50000,16,3] to [50000,48], transposed the six weight matrices and written the constant 16 x 48 table.
  Between the launches it scatter-adds a vector of ones and the two message arrays over the destination indices
  (row 1 of the index argument) and divides by the count clamped below at one. After the node-update launch it
  reshapes the vector result [50000,48] to [50000,16,3]. No host operation and no launch writes an argument.
-/
import proofs.«150730_j75419625718340_1_alg».proof.Proof.Gen.KernelIdeal.Frame
import Idealize.ShloMosaic.Lib.StableHlo.Run
import Idealize.ShloMosaic.Lib.Pipeline.Value

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Entering the edge-message launch -/

/-- Before the edge launch argument `main_arg3` is as launched. -/
theorem V1_arg3 (c : Dev nD) : V1 m ρ c main_arg3 = m ((c : Thread nD τ).loc main_arg3) := by
  show StableHlo.after hostOps0 (W0 m ρ c) (Proc.devRef .tc main_arg3) = _
  after_results

/-- Before the edge launch argument `main_arg8` is as launched. -/
theorem V1_arg8 (c : Dev nD) : V1 m ρ c main_arg8 = m ((c : Thread nD τ).loc main_arg8) := by
  show StableHlo.after hostOps0 (W0 m ρ c) (Proc.devRef .tc main_arg8) = _
  after_results

/-- Before the edge launch argument `main_arg10` is as launched. -/
theorem V1_arg10 (c : Dev nD) : V1 m ρ c main_arg10 = m ((c : Thread nD τ).loc main_arg10) := by
  show StableHlo.after hostOps0 (W0 m ρ c) (Proc.devRef .tc main_arg10) = _
  after_results

/-- Before the edge launch `main_v2` is the transpose of argument `main_arg7`. -/
theorem V1_v2 (c : Dev nD) : V1 m ρ c main_v2 = transpose S32x128 [1, 0] (m ((c : Thread nD τ).loc main_arg7)) transposes_S128x32_S32x128_1_0 := by
  show StableHlo.after hostOps0 (W0 m ρ c) (Proc.devRef .tc main_v2) = _
  after_results

/-- Before the edge launch `main_v3` is the transpose of argument `main_arg9`. -/
theorem V1_v3 (c : Dev nD) : V1 m ρ c main_v3 = transpose S3x48 [1, 0] (m ((c : Thread nD τ).loc main_arg9)) transposes_S48x3_S3x48_1_0 := by
  show StableHlo.after hostOps0 (W0 m ρ c) (Proc.devRef .tc main_v3) = _
  after_results

/-- Before the edge launch `main_v0` is the edge vectors flattened. -/
theorem V1_v0 (c : Dev nD) : V1 m ρ c main_v0 = shapeCast S800000x3 (m ((c : Thread nD τ).loc main_arg4)) shapeCasts_S800000x1x3_S800000x3 := by
  show StableHlo.after hostOps0 (W0 m ρ c) (Proc.devRef .tc main_v0) = _
  after_results
  rfl

/-- Before the edge launch `main_cst` is the constant table. -/
theorem V1_cst (c : Dev nD) : V1 m ρ c main_cst = fun i => FloatOps.ofBits .f32 (lit0 (S16x48.rowMajor i)) := by
  show StableHlo.after hostOps0 (W0 m ρ c) (Proc.devRef .tc main_cst) = _
  after_results
  rfl

/-! ## Entering the node-update launch -/

/-- Before the node launch argument `main_arg0` is as launched. -/
theorem V3_arg0 (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-- Before the node launch argument `main_arg5` is as launched. -/
theorem V3_arg5 (c : Dev nD) : V3 m ρ c main_arg5 = m ((c : Thread nD τ).loc main_arg5) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results

/-- Before the node launch argument `main_arg6` is as launched. -/
theorem V3_arg6 (c : Dev nD) : V3 m ρ c main_arg6 = m ((c : Thread nD τ).loc main_arg6) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results

/-- Before the node launch argument `main_arg12` is as launched. -/
theorem V3_arg12 (c : Dev nD) : V3 m ρ c main_arg12 = m ((c : Thread nD τ).loc main_arg12) := by
  show StableHlo.after hostOps1 (W2 m ρ c) (Proc.devRef .tc main_arg12) = _
  after_results
  rw [W2_of_ne m ρ c main_arg12 (by decide)]
  show StableHlo.after hostOps0 (W0 m ρ c) (Proc.devRef .tc main_arg12) = _
  after_results

/-- Before the node launch argument `main_arg14` is as launched. -/
theorem V3_arg14 (c : Dev nD) : V3 m ρ c main_arg14 = m ((c : Thread nD τ).loc main_arg14) := by
  show StableHlo.after hostOps1 (W2 m ρ c) (Proc.devRef .tc main_arg14) = _
  after_results
  rw [W2_of_ne m ρ c main_arg14 (by decide)]
  show StableHlo.after hostOps0 (W0 m ρ c) (Proc.devRef .tc main_arg14) = _
  after_results

/-- Before the node launch argument `main_arg16` is as launched. -/
theorem V3_arg16 (c : Dev nD) : V3 m ρ c main_arg16 = m ((c : Thread nD τ).loc main_arg16) := by
  show StableHlo.after hostOps1 (W2 m ρ c) (Proc.devRef .tc main_arg16) = _
  after_results
  rw [W2_of_ne m ρ c main_arg16 (by decide)]
  show StableHlo.after hostOps0 (W0 m ρ c) (Proc.devRef .tc main_arg16) = _
  after_results

/-- Before the node launch argument `main_arg18` is as launched. -/
theorem V3_arg18 (c : Dev nD) : V3 m ρ c main_arg18 = m ((c : Thread nD τ).loc main_arg18) := by
  show StableHlo.after hostOps1 (W2 m ρ c) (Proc.devRef .tc main_arg18) = _
  after_results
  rw [W2_of_ne m ρ c main_arg18 (by decide)]
  show StableHlo.after hostOps0 (W0 m ρ c) (Proc.devRef .tc main_arg18) = _
  after_results

/-- Before the node launch `main_v4` is the transpose of argument `main_arg11`. -/
theorem V3_v4 (c : Dev nD) : V3 m ρ c main_v4 = transpose S128x128 [1, 0] (m ((c : Thread nD τ).loc main_arg11)) transposes_S128x128_S128x128_1_0 := by
  show StableHlo.after hostOps1 (W2 m ρ c) (Proc.devRef .tc main_v4) = _
  after_results
  rw [W2_of_ne m ρ c main_v4 (by decide)]
  show StableHlo.after hostOps0 (W0 m ρ c) (Proc.devRef .tc main_v4) = _
  after_results

/-- Before the node launch `main_v5` is the transpose of argument `main_arg13`. -/
theorem V3_v5 (c : Dev nD) : V3 m ρ c main_v5 = transpose S48x48 [1, 0] (m ((c : Thread nD τ).loc main_arg13)) transposes_S48x48_S48x48_1_0 := by
  show StableHlo.after hostOps1 (W2 m ρ c) (Proc.devRef .tc main_v5) = _
  after_results
  rw [W2_of_ne m ρ c main_v5 (by decide)]
  show StableHlo.after hostOps0 (W0 m ρ c) (Proc.devRef .tc main_v5) = _
  after_results

/-- Before the node launch `main_v6` is the transpose of argument `main_arg15`. -/
theorem V3_v6 (c : Dev nD) : V3 m ρ c main_v6 = transpose S128x128 [1, 0] (m ((c : Thread nD τ).loc main_arg15)) transposes_S128x128_S128x128_1_0 := by
  show StableHlo.after hostOps1 (W2 m ρ c) (Proc.devRef .tc main_v6) = _
  after_results
  rw [W2_of_ne m ρ c main_v6 (by decide)]
  show StableHlo.after hostOps0 (W0 m ρ c) (Proc.devRef .tc main_v6) = _
  after_results

/-- Before the node launch `main_v7` is the transpose of argument `main_arg17`. -/
theorem V3_v7 (c : Dev nD) : V3 m ρ c main_v7 = transpose S48x48 [1, 0] (m ((c : Thread nD τ).loc main_arg17)) transposes_S48x48_S48x48_1_0 := by
  show StableHlo.after hostOps1 (W2 m ρ c) (Proc.devRef .tc main_v7) = _
  after_results
  rw [W2_of_ne m ρ c main_v7 (by decide)]
  show StableHlo.after hostOps0 (W0 m ρ c) (Proc.devRef .tc main_v7) = _
  after_results

/-- Before the node launch `main_v1` is the node vectors flattened. -/
theorem V3_v1 (c : Dev nD) : V3 m ρ c main_v1 = shapeCast S50000x48 (m ((c : Thread nD τ).loc main_arg1)) shapeCasts_S50000x16x3_S50000x48 := by
  show StableHlo.after hostOps1 (W2 m ρ c) (Proc.devRef .tc main_v1) = _
  after_results
  rw [W2_of_ne m ρ c main_v1 (by decide)]
  show StableHlo.after hostOps0 (W0 m ρ c) (Proc.devRef .tc main_v1) = _
  after_results
  rfl

/-- The constant table is an input of the edge launch, which leaves it in place. -/
theorem V3_cst (c : Dev nD) : V3 m ρ c main_cst = fun i => FloatOps.ofBits .f32 (lit0 (S16x48.rowMajor i)) := by
  show StableHlo.after hostOps1 (W2 m ρ c) (Proc.devRef .tc main_cst) = _
  after_results
  exact ((W2_arr m ρ c 6).trans (((dat0 (V1 m ρ) c).arrAt_in 6 rfl _).trans (A_eq0 (V1 m ρ) c 6))).trans (V1_cst m ρ c)

/-- Before the edge launch the index argument is as launched. -/
theorem W1_arg2 (c : Dev nD) : W1 m ρ c (Proc.devRef .tc main_arg2) = m ((c : Thread nD τ).loc main_arg2) := by
  show StableHlo.after hostOps0 (W0 m ρ c) (Proc.devRef .tc main_arg2) = _
  after_results

/-- The destination index column between the launches: row 1 of the index argument, as an [800000, 1] column. -/
def dstCol (c : Dev nD) : (⟨S800000x1, .i32⟩ : BufTy).Contents (Elt F) :=
  broadcastInDim S800000x1 ![0] bcast_S800000_S800000x1_0
    (shapeCast S800000 (extractStridedSlice S1x800000 ![1, 0] (m ((c : Thread nD τ).loc main_arg2)) slices_S2x800000_S1x800000_1_0)
      shapeCasts_S1x800000_S800000)

/-- The in-degree of every node clamped below at one. -/
def denom (c : Dev nD) : (⟨S50000, .f32⟩ : BufTy).Contents (Elt F) :=
  maximumf
    (Host.scatterAdd scatter_S50000_S800000x1_S800000_n_0_0_1
      (broadcastInDim S50000 ![] bcast_S_S50000 (constant S_ .f32 0x00000000#32)) (dstCol m c)
      (broadcastInDim S800000 ![] bcast_S_S800000 (constant S_ .f32 0x3F800000#32)))
    (broadcastInDim S50000 ![] bcast_S_S50000 (constant S_ .f32 0x3F800000#32))

/-- Before the node launch `main_v22` is the scatter-mean of the edge launch's scalar output. -/
theorem V3_v22 (c : Dev nD) : V3 m ρ c main_v22 =
    Host.divf
      (Host.scatterAdd scatter_S50000x128_S800000x1_S800000x128_1_0_0_1
        (broadcastInDim S50000x128 ![] bcast_S_S50000x128 (constant S_ .f32 0x00000000#32)) (dstCol m c)
        ((dat0 (V1 m ρ) c).arrAt 7 cfg0.N))
      (broadcastInDim S50000x128 ![0, 1] bcast_S50000x1_S50000x128_0_1
        (broadcastInDim S50000x1 ![0] bcast_S50000_S50000x1_0 (denom m c))) := by
  show StableHlo.after hostOps1 (W2 m ρ c) (Proc.devRef .tc main_v22) = _
  unfold denom dstCol
  after_results_simp
  have e7 : W2 m ρ c (Proc.devRef .tc main_v8_0) = (dat0 (V1 m ρ) c).arrAt 7 cfg0.N := W2_arr m ρ c 7
  rw [e7, W2_of_ne m ρ c main_arg2 (by decide), W1_arg2 m ρ c]
  generalize (dat0 (V1 m ρ) c).arrAt 7 cfg0.N = U
  generalize m ((c : Thread nD τ).loc main_arg2) = x2
  rfl

/-- Before the node launch `main_v28` is the scatter-mean of the edge launch's vector output. -/
theorem V3_v28 (c : Dev nD) : V3 m ρ c main_v28 =
    Host.divf
      (Host.scatterAdd scatter_S50000x48_S800000x1_S800000x48_1_0_0_1
        (broadcastInDim S50000x48 ![] bcast_S_S50000x48 (constant S_ .f32 0x00000000#32)) (dstCol m c)
        ((dat0 (V1 m ρ) c).arrAt 8 cfg0.N))
      (broadcastInDim S50000x48 ![0, 1] bcast_S50000x1_S50000x48_0_1
        (broadcastInDim S50000x1 ![0] bcast_S50000_S50000x1_0 (denom m c))) := by
  show StableHlo.after hostOps1 (W2 m ρ c) (Proc.devRef .tc main_v28) = _
  unfold denom dstCol
  after_results_simp
  have e8 : W2 m ρ c (Proc.devRef .tc main_v8_1) = (dat0 (V1 m ρ) c).arrAt 8 cfg0.N := W2_arr m ρ c 8
  rw [e8, W2_of_ne m ρ c main_arg2 (by decide), W1_arg2 m ρ c]
  generalize (dat0 (V1 m ρ) c).arrAt 8 cfg0.N = U
  generalize m ((c : Thread nD τ).loc main_arg2) = x2
  rfl

/-! ## The results -/

/-- The scalar result is what the node launch leaves in its first output array. -/
theorem W5_v29_0 (c : Dev nD) : W5 m ρ c (Proc.devRef .tc main_v29_0) = (dat1 (V3 m ρ) c).arrAt 15 cfg1.N := by
  show StableHlo.after hostOps2 (W4 m ρ c) (Proc.devRef .tc main_v29_0) = _
  after_results
  exact W4_arr m ρ c 15

/-- The vector result is the node launch's second output array reshaped to [50000, 16, 3]. -/
theorem W5_v30 (c : Dev nD) : W5 m ρ c (Proc.devRef .tc main_v30) =
    shapeCast S50000x16x3 ((dat1 (V3 m ρ) c).arrAt 16 cfg1.N) shapeCasts_S50000x48_S50000x16x3 := by
  show StableHlo.after hostOps2 (W4 m ρ c) (Proc.devRef .tc main_v30) = _
  after_results
  have e16 : W4 m ρ c (Proc.devRef .tc main_v29_1) = (dat1 (V3 m ρ) c).arrAt 16 cfg1.N := W4_arr m ρ c 16
  rw [e16]
  rfl

end Cert.KernelIdeal.HostValue

end
-- ==== Proof.Spec.lean ====
/-
  One message-passing layer of a geometric vector perceptron network, row by row, on the extended reals.

  Every quantity of the layer is a function of ROWS: a row of an [n, K] array is the family `k ↦ x (r, k)`, a weight
  is a whole matrix `[K, d]` and a bias a vector `[d]`. A dense map sends a row `x` to `j ↦ (∑ k, x k · w (k, j)) + b j`;
  silu is `x · logistic x`; the vector channel `j` of the 48 flattened coordinates (16 channels of 3 coordinates,
  row-major) is gated by the logistic of scalar channel `j / 3`.
  * the edge message: `s = silu (es · W + b)` and `v = (ev · W' + b') ⊙ logistic (s at j / 3)`;
  * the scalar normalisation of a node row (mean, variance, reciprocal square root, scale and shift) and the vector
    normalisation (the row divided by the root of one sixteenth of its sum of squares plus a small word);
  * the node update: `silu ((sn + aggS) · W + b) + (sn · Wr + br)` and its vector twin with the same gate.
  A finite sum on the extended reals is a sum in a commutative monoid, so nothing here needs finiteness.
-/
import Idealize.ShloMosaic.PureOps.Ideal
import Idealize.ShloMosaic.PureOps.Ideal.Laws
import Idealize.ShloMosaic.Lib.ValueIdx

noncomputable section

open scoped BigOperators

namespace Cert.Gvp

open Idealize.ShloMosaic Idealize.ShloMosaic.ValueIdx

/-- An `[n, d]` array and a `[d]` vector of extended reals. -/
abbrev Arr2 (n d : ℕ) : Type := (⟨2, ![n, d]⟩ : Shape).Idx → EReal
abbrev Arr1 (d : ℕ) : Type := (⟨1, ![d]⟩ : Shape).Idx → EReal

/-- An `[n, a, b]` array of extended reals. -/
abbrev Arr3 (n a b : ℕ) : Type := (⟨3, ![n, a, b]⟩ : Shape).Idx → EReal

/-- The flattened position of coordinate `d` of vector channel `a`: `3 a + d` (row-major). -/
def fl (a : Fin 16) (d : Fin 3) : Fin 48 := ⟨3 * a.val + d.val, by have := a.isLt; have := d.isLt; omega⟩

/-- Row `r` of an `[n, 16, 3]` array, flattened row-major to 48 coordinates: position `j` is channel `j / 3`,
    coordinate `j % 3`. -/
def flatRow {n : ℕ} (x : Arr3 n 16 3) (r : Fin n) : Fin 48 → EReal :=
  fun j => x (ix3 r ⟨j.val / 3, by have := j.isLt; omega⟩ ⟨j.val % 3, Nat.mod_lt _ (by decide)⟩)

/-- Row `r` of an `[n, 1, 3]` array as its three coordinates. -/
def row13 {n : ℕ} (x : Arr3 n 1 3) (r : Fin n) : Fin 3 → EReal := fun k => x (ix3 r 0 k)

/-- Row `r` of an `[n, K]` array. -/
def row {n K : ℕ} (x : Arr2 n K) (r : Fin n) : Fin K → EReal := fun k => x (ix2 r k)

/-- `x · logistic x`. -/
def silu (x : EReal) : EReal := x * Ideal.logistic x

/-- A row against column `j` of a weight matrix. -/
def dotRow {K d : ℕ} (x : Fin K → EReal) (w : Arr2 K d) (j : Fin d) : EReal := ∑ k : Fin K, x k * w (ix2 k j)

/-- The dense map of a row: the product with the weight plus the bias. -/
def linRow {K d : ℕ} (x : Fin K → EReal) (w : Arr2 K d) (b : Arr1 d) (j : Fin d) : EReal := dotRow x w j + b (ix1 j)

/-- The scalar channel that gates flattened vector coordinate `j`: `j / 3`. -/
def gcol (j : Fin 48) : Fin 128 := ⟨j.val / 3, by have := j.isLt; omega⟩

/-! ## The edge message -/

/-- The scalar message of an edge row. -/
def edgeS (es : Fin 32 → EReal) (w : Arr2 32 128) (b : Arr1 128) : Fin 128 → EReal := fun j => silu (linRow es w b j)

/-- The vector message of an edge row, gated by the logistic of the scalar message `s`. -/
def edgeV (s : Fin 128 → EReal) (ev : Fin 3 → EReal) (w : Arr2 3 48) (b : Arr1 48) : Fin 48 → EReal :=
  fun j => linRow ev w b j * Ideal.logistic (s (gcol j))

/-! ## The normalisations of a node row -/

/-- The mean of a 128-row: its sum divided by the word of 128. -/
def mean128 (x : Fin 128 → EReal) : EReal := Ideal.div (∑ k : Fin 128, x k) (Ideal.ofBits .f32 0x43000000#32)

/-- The scalar normalisation: centred, scaled by the reciprocal root of the variance plus a small word, then the
    learnt scale and shift. -/
def lnorm (x : Fin 128 → EReal) (g b : Arr1 128) : Fin 128 → EReal := fun j =>
  ((x j - mean128 x) * Ideal.rsqrt (mean128 (fun k => (x k - mean128 x) * (x k - mean128 x)) + Ideal.ofBits .f32 0x3727C5AC#32))
    * g (ix1 j) + b (ix1 j)

/-- The vector norm of a flattened 48-row: the root of its sum of squares times the word of 1/16, plus a small word. -/
def vnorm (v : Fin 48 → EReal) : EReal :=
  Ideal.sqrt ((∑ j : Fin 48, v j * v j) * Ideal.ofBits .f32 0x3D800000#32 + Ideal.ofBits .f32 0x322BCC77#32)

/-- The vector normalisation: the row divided by its norm. -/
def vnormed (v : Fin 48 → EReal) : Fin 48 → EReal := fun j => Ideal.div (v j) (vnorm v)

/-! ## The node update -/

/-- The gated scalar part: silu of the dense map of the normalised row plus the aggregate. -/
def nodeG (sn ag : Fin 128 → EReal) (w : Arr2 128 128) (b : Arr1 128) : Fin 128 → EReal :=
  fun j => silu (linRow (fun k => sn k + ag k) w b j)

/-- The scalar output: the gated part plus the residual dense map of the normalised row. -/
def nodeS (sn ag : Fin 128 → EReal) (w : Arr2 128 128) (b : Arr1 128) (wr : Arr2 128 128) (br : Arr1 128) :
    Fin 128 → EReal := fun j => nodeG sn ag w b j + linRow sn wr br j

/-- The vector output: the dense map of the normalised vector row plus the aggregate, gated by the logistic of the
    gated scalar part `sg`, plus the residual dense map of the normalised vector row. -/
def nodeV (sg : Fin 128 → EReal) (vn ag : Fin 48 → EReal) (w : Arr2 48 48) (b : Arr1 48) (wr : Arr2 48 48) (br : Arr1 48) :
    Fin 48 → EReal := fun j => linRow (fun k => vn k + ag k) w b j * Ideal.logistic (sg (gcol j)) + linRow vn wr br j

end Cert.Gvp

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.EdgeValue.lean ====
/-
  What the edge-message launch leaves in its two output arrays, for any contents `V` the launch is entered with.

  The launch cuts the 800000 edges into 200 bands of 4000 rows; band `t` of each output is computed from band `t` of
  the edge scalars and of the flattened edge vectors and from the whole weights. Row `e` of the scalar output is the
  edge's scalar message and row `e` of the vector output its gated vector message (Spec.lean), each a function of row
  `e` of the inputs alone, so the bands assemble into one function of the whole arrays.

  The proof has two layers. First each payload of the body is read at an entry (p, q) of a band: a matrix product into
  a zero accumulator is the plain sum over the contracted index, a bias cast to one row and broadcast is the bias at
  column q, and the product of the gate's first 16 columns with a 0/1 table whose column q has its single one in row
  q / 3 is the gate at column q / 3 (all other terms of the sum are a value times zero). Then the bands are put
  together: entry (p, q) of band t is entry (4000 t + p, q) of the array, the weight windows hold their whole arrays at
  every point, what point t writes back is band t of the row-by-row function, and every row r lies in band r / 4000.
-/
import proofs.«150730_j75419625718340_1_alg».proof.Proof.Gen.KernelIdeal.Frame
import proofs.«150730_j75419625718340_1_alg».proof.Proof.Spec
import proofs.«150730_j75419625718340_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.EdgeValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gvp

/-! ## The two payloads at an entry -/

/-- Entry (p, q) of a product, with the two coordinates named. -/
theorem prod_ix2 {n K d : ℕ} (a : (⟨2, ![n, K]⟩ : Shape).Idx → EReal) (w : (⟨2, ![K, d]⟩ : Shape).Idx → EReal)
    (p : Fin n) (q : Fin d) : LibDense.prod a w (ix2 p q) = ∑ k : Fin K, a (ix2 p k) * w (ix2 k q) := rfl

/-- The scalar payload at row `p`, column `q`: the product of the row with the weight (a plain sum over the 32
    input channels) plus the bias, times its logistic. -/
theorem pay1_apply (x0 : Vec Ideal S4000x32 .f32) (x2 : Vec Ideal S32x128 .f32) (x3 : Vec Ideal S128 .f32)
    (p : Fin 4000) (q : Fin 128) :
    k0_pay1 x0 x2 x3 (ix2 p q) = edgeS (row x0 p) x2 x3 q := by
  unfold k0_pay1
  show (FloatOps.matmul (DotDims.plain 4000 32 128) none _ _ (constant (F := Ideal) ⟨2, ![4000, 128]⟩ .f32 0x00000000#32) (ix2 p q)
      + broadcastTo ⟨2, ![4000, 128]⟩ (shapeCast ⟨2, ![1, 128]⟩ x3 _) _ (ix2 p q))
    * Ideal.logistic (FloatOps.matmul (DotDims.plain 4000 32 128) none _ _ (constant (F := Ideal) ⟨2, ![4000, 128]⟩ .f32 0x00000000#32) (ix2 p q)
      + broadcastTo ⟨2, ![4000, 128]⟩ (shapeCast ⟨2, ![1, 128]⟩ x3 _) _ (ix2 p q)) = _
  rw [LibDense.matmul_plain, LibDense.bias_row, shapeCast_self]
  rfl

/-- A row of gates against a 0/1 table whose column `q` has its single one in row `q / 3`: the sum over the 16
    rows keeps the one term of row `q / 3`. -/
theorem gate_sum (g : Fin 16 → EReal) (T : Arr2 16 48)
    (hT : ∀ (a : Fin 16) (j : Fin 48), T (ix2 a j) = if j.val / 3 = a.val then (1 : EReal) else 0) (q : Fin 48) :
    ∑ a : Fin 16, g a * T (ix2 a q) = g ⟨q.val / 3, by have := q.isLt; omega⟩ := by
  rw [Finset.sum_eq_single (⟨q.val / 3, by have := q.isLt; omega⟩ : Fin 16)]
  · rw [hT, if_pos rfl, mul_one]
  · intro a _ ha
    rw [hT, if_neg (fun h => ha (Fin.ext h.symm)), mul_zero]
  · intro h; exact absurd (Finset.mem_univ _) h

/-- The gate product at an entry: the logistic of the first 16 columns of a [4000,128] array `s` against the 0/1
    table of the channels is, at row `p` and column `q`, the logistic of `s` at row `p`, column `q / 3`. -/
theorem gate_apply (s : FVec Ideal S4000x128 .f32) (x6 : FVec Ideal S16x48 .f32)
    (hT : ∀ (a : Fin 16) (j : Fin 48), (x6 : Arr2 16 48) (ix2 a j) = if j.val / 3 = a.val then (1 : EReal) else 0)
    (p : Fin 4000) (q : Fin 48) :
    LibDense.prod (n := 4000) (K := 16) (d := 48)
        (truncf (F := Ideal) .bf16 (logistic (extractStridedSlice S4000x16 ![0, 0] s slices_S4000x128_o0_0_S4000x16)) bitsLt_bf16_f32)
        (truncf (F := Ideal) .bf16 x6 bitsLt_bf16_f32) (ix2 p q)
      = Ideal.logistic (s (ix2 p (gcol q))) := by
  have h := gate_sum (fun a => Ideal.logistic (extractStridedSlice S4000x16 ![0, 0] s
    slices_S4000x128_o0_0_S4000x16 (ix2 p a))) x6 hT q
  have h2 : Ideal.logistic (extractStridedSlice S4000x16 ![0, 0] s slices_S4000x128_o0_0_S4000x16 (ix2 p ⟨q.val / 3, by have := q.isLt; omega⟩))
      = Ideal.logistic (s (ix2 p (gcol q))) :=
    congrArg Ideal.logistic (slice2_axis1_apply 0 s slices_S4000x128_o0_0_S4000x16 p
      ⟨q.val / 3, by have := q.isLt; omega⟩ (gcol q) (Nat.zero_add _).symm)
  refine (prod_ix2 _ _ p q).trans ?_
  exact h.trans h2

/-- The vector payload at row `p`, column `q`: the dense map of the edge's vector row times the logistic of the
    scalar payload at column `q / 3`, the table operand being the 0/1 table of the channels. -/
theorem pay2_apply (x0 : Vec Ideal S4000x32 .f32) (x2 : Vec Ideal S32x128 .f32) (x3 : Vec Ideal S128 .f32)
    (x1 : Vec Ideal S4000x3 .f32) (x4 : Vec Ideal S3x48 .f32) (x5 : Vec Ideal S48 .f32) (x6 : Vec Ideal S16x48 .f32)
    (hT : ∀ (a : Fin 16) (j : Fin 48), (x6 : Arr2 16 48) (ix2 a j) = if j.val / 3 = a.val then (1 : EReal) else 0)
    (p : Fin 4000) (q : Fin 48) :
    k0_pay2 x0 x2 x3 x1 x4 x5 x6 (ix2 p q) = edgeV (edgeS (row x0 p) x2 x3) (row x1 p) x4 x5 q := by
  unfold k0_pay2
  show (FloatOps.matmul (DotDims.plain 4000 3 48) none _ _ (constant (F := Ideal) ⟨2, ![4000, 48]⟩ .f32 0x00000000#32) (ix2 p q)
      + broadcastTo ⟨2, ![4000, 48]⟩ (shapeCast ⟨2, ![1, 48]⟩ x5 _) _ (ix2 p q))
    * FloatOps.matmul (DotDims.plain 4000 16 48) none _ _ (constant (F := Ideal) ⟨2, ![4000, 48]⟩ .f32 0x00000000#32) (ix2 p q) = _
  rw [LibDense.matmul_plain, LibDense.matmul_plain, LibDense.bias_row, shapeCast_self, shapeCast_self,
    gate_apply (k0_pay1 x0 x2 x3) x6 hT p q, pay1_apply]
  rfl

/-! ## The launch's blocks

Band `t` of a banded window is rows `4000 t … 4000 t + 3999` of its array, all columns; the weight windows hold
their whole arrays at every point. -/

theorem hz2 : (![0, 0] : Fin 2 → Nat) = fun _ => 0 := funext fun a => by fin_cases a <;> rfl

theorem hz1 : (![0] : Fin 1 → Nat) = fun _ => 0 := funext fun a => by fin_cases a; rfl

/-- The printed index maps over the 200 points: the banded windows are at block `(t, 0)`, the others at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

variable (V : (c : Dev nD) → (b : Ref sig .tc) → Buf (Elt Ideal) ((c : Thread nD τ).loc b))

/-- Band `t` of the edge scalars at (p, k) is the array at row `4000 t + p`. -/
theorem iblk0_0_apply (c : Dev nD) (t : Fin cfg0.N) (p : Fin 4000) (k : Fin 32) (r : Fin 800000)
    (hr : r.val = t.val * 4000 + p.val) :
    (iblk0 V c 0 t : Vec Ideal S4000x32 .f32) (ix2 p k) = (V c main_arg3 : Arr2 800000 32) (ix2 r k) := by
  obtain ⟨e0, e1, -⟩ := idx_facts t
  unfold iblk0
  rw [View.read_apply]
  show V c main_arg3 _ = V c main_arg3 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 32 + 1 * k.val = k.val; rw [e1]; omega

/-- Band `t` of the flattened edge vectors at (p, k) is the array at row `4000 t + p`. -/
theorem iblk0_1_apply (c : Dev nD) (t : Fin cfg0.N) (p : Fin 4000) (k : Fin 3) (r : Fin 800000)
    (hr : r.val = t.val * 4000 + p.val) :
    (iblk0 V c 1 t : Vec Ideal S4000x3 .f32) (ix2 p k) = (V c main_v0 : Arr2 800000 3) (ix2 r k) := by
  obtain ⟨-, -, e0, e1, -⟩ := idx_facts t
  unfold iblk0
  rw [View.read_apply]
  show V c main_v0 _ = V c main_v0 _
  congr 1
  funext a
  apply Fin.ext
  match a with
  | ⟨0, _⟩ => show win0_1.index t (0 : Fin 2) * 4000 + 1 * p.val = r.val; rw [e0, hr]; omega
  | ⟨1, _⟩ => show win0_1.index t (1 : Fin 2) * 3 + 1 * k.val = k.val; rw [e1]; omega

/-- The scalar weight's window holds the whole weight at every point. -/
theorem iblk0_2_eq (c : Dev nD) (t : Fin cfg0.N) :
    (iblk0 V c 2 t : Vec Ideal S32x128 .f32) = (V c main_v2 : Arr2 32 128) := by
  obtain ⟨-, -, -, -, e0, e1, -⟩ := idx_facts t
  funext j
  unfold iblk0
  rw [View.read_apply]
  show V c main_v2 _ = V c main_v2 _
  congr 1
  funext a
  apply Fin.ext
  match a with
  | ⟨0, _⟩ => show win0_2.index t (0 : Fin 2) * 32 + 1 * (j 0).val = (j 0).val; rw [e0]; omega
  | ⟨1, _⟩ => show win0_2.index t (1 : Fin 2) * 128 + 1 * (j 1).val = (j 1).val; rw [e1]; omega

/-- The scalar bias's window holds the whole bias at every point. -/
theorem iblk0_3_eq (c : Dev nD) (t : Fin cfg0.N) :
    (iblk0 V c 3 t : Vec Ideal S128 .f32) = (V c main_arg8 : Arr1 128) := by
  obtain ⟨-, -, -, -, -, -, e0, -⟩ := idx_facts t
  funext j
  unfold iblk0
  rw [View.read_apply]
  show V c main_arg8 _ = V c main_arg8 _
  congr 1
  funext a
  apply Fin.ext
  match a with
  | ⟨0, _⟩ => show win0_3.index t (0 : Fin 1) * 128 + 1 * (j 0).val = (j 0).val; rw [e0]; omega

/-- The vector weight's window holds the whole weight at every point. -/
theorem iblk0_4_eq (c : Dev nD) (t : Fin cfg0.N) :
    (iblk0 V c 4 t : Vec Ideal S3x48 .f32) = (V c main_v3 : Arr2 3 48) := by
  obtain ⟨-, -, -, -, -, -, -, e0, e1, -⟩ := idx_facts t
  funext j
  unfold iblk0
  rw [View.read_apply]
  show V c main_v3 _ = V c main_v3 _
  congr 1
  funext a
  apply Fin.ext
  match a with
  | ⟨0, _⟩ => show win0_4.index t (0 : Fin 2) * 3 + 1 * (j 0).val = (j 0).val; rw [e0]; omega
  | ⟨1, _⟩ => show win0_4.index t (1 : Fin 2) * 48 + 1 * (j 1).val = (j 1).val; rw [e1]; omega

/-- The vector bias's window holds the whole bias at every point. -/
theorem iblk0_5_eq (c : Dev nD) (t : Fin cfg0.N) :
    (iblk0 V c 5 t : Vec Ideal S48 .f32) = (V c main_arg10 : Arr1 48) := by
  obtain ⟨-, -, -, -, -, -, -, -, -, e0, -⟩ := idx_facts t
  funext j
  unfold iblk0
  rw [View.read_apply]
  show V c main_arg10 _ = V c main_arg10 _
  congr 1
  funext a
  apply Fin.ext
  match a with
  | ⟨0, _⟩ => show win0_5.index t (0 : Fin 1) * 48 + 1 * (j 0).val = (j 0).val; rw [e0]; omega

/-- The table's window holds the whole table at every point. -/
theorem iblk0_6_eq (c : Dev nD) (t : Fin cfg0.N) :
    (iblk0 V c 6 t : Vec Ideal S16x48 .f32) = (V c main_cst : Arr2 16 48) := by
  obtain ⟨-, -, -, -, -, -, -, -, -, -, e0, e1, -⟩ := idx_facts t
  funext j
  unfold iblk0
  rw [View.read_apply]
  show V c main_cst _ = V c main_cst _
  congr 1
  funext a
  apply Fin.ext
  match a with
  | ⟨0, _⟩ => show win0_6.index t (0 : Fin 2) * 16 + 1 * (j 0).val = (j 0).val; rw [e0]; omega
  | ⟨1, _⟩ => show win0_6.index t (1 : Fin 2) * 48 + 1 * (j 1).val = (j 1).val; rw [e1]; omega

/-! ## The scalar output -/

/-- The scalar messages of all edges: row `e` from row `e` of the edge scalars and the whole weight and bias. -/
def msgS (c : Dev nD) : S800000x128.Idx → EReal := fun i =>
  edgeS (row (V c main_arg3 : Arr2 800000 32) (i 0)) (V c main_v2 : Arr2 32 128) (V c main_arg8 : Arr1 128) (i 1)

theorem msgS_ix2 (c : Dev nD) (r : Fin 800000) (q : Fin 128) :
    msgS V c (ix2 r q) = edgeS (row (V c main_arg3 : Arr2 800000 32) r) (V c main_v2 : Arr2 32 128) (V c main_arg8 : Arr1 128) q := rfl

/-- Row `p` of band `t` of the edge scalars is row `4000 t + p` of the array. -/
theorem row0_0 (c : Dev nD) (t : Fin cfg0.N) (p : Fin 4000) (r : Fin 800000) (hr : r.val = t.val * 4000 + p.val) :
    row (iblk0 V c 0 t : Vec Ideal S4000x32 .f32) p = row (V c main_arg3 : Arr2 800000 32) r :=
  funext fun k => iblk0_0_apply V c t p k r hr

/-- What point `t` writes back to the scalar output is band `t` of the scalar messages. -/
theorem flushed7_eq (c : Dev nD) (t : Fin cfg0.N) :
    (dat0 (F := Ideal) V c).flushed 7 t = ((cfg0.win 7).blk t).view.read (Elt Ideal) (msgS V c) := by
  show (cfg0.win 7).cut (grid0.coords t) ((dat0 V c).after 7 t) = _
  rw [after0_7]
  unfold out0_7
  rw [View.canon_unit_zero hz2]
  simp only [View.ld_unit_zero (S := S4000x32) hz2, View.ld_unit_zero (S := S32x128) hz2, View.ld_unit_zero (S := S128) hz1]
  obtain ⟨-, -, -, -, -, -, -, -, -, -, -, -, e0, e1, -⟩ := idx_facts t
  funext j
  have hp : (j 0).val < 4000 := (j 0).isLt
  have hq : (j 1).val < 128 := (j 1).isLt
  have ht : t.val < 200 := N_0 ▸ t.isLt
  have hx : (cfg0.win 7).xinj (grid0.coords t) j = ix2 (⟨(j 0).val, hp⟩ : Fin 4000) (⟨(j 1).val, hq⟩ : Fin 128) :=
    funext fun a => by
      match a with
      | ⟨0, _⟩ => rfl
      | ⟨1, _⟩ => rfl
  have hemb : ((cfg0.win 7).blk t).view.emb j
      = ix2 (⟨t.val * 4000 + (j 0).val, by omega⟩ : Fin 800000) (⟨(j 1).val, hq⟩ : Fin 128) := by
    funext a
    apply Fin.ext
    match a with
    | ⟨0, _⟩ => show win0_7.index t (0 : Fin 2) * 4000 + 1 * (j 0).val = t.val * 4000 + (j 0).val; rw [e0]; omega
    | ⟨1, _⟩ => show win0_7.index t (1 : Fin 2) * 128 + 1 * (j 1).val = (j 1).val; rw [e1]; omega
  show k0_pay1 (iblk0 V c 0 t) (iblk0 V c 2 t) (iblk0 V c 3 t) ((cfg0.win 7).xinj (grid0.coords t) j)
    = msgS V c (((cfg0.win 7).blk t).view.emb j)
  rw [hx, hemb, pay1_apply, msgS_ix2, iblk0_2_eq, iblk0_3_eq, row0_0 V c t ⟨(j 0).val, hp⟩ ⟨t.val * 4000 + (j 0).val, by omega⟩ rfl]

/-- An index of the scalar output is in point `t`'s block iff each coordinate is in the block's range on its axis. -/
theorem mem_blk7 (t : Fin cfg0.N) (i : S800000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v8_0).slice (win0_7.rect t)).set ↔ _
  rw [View.set_slice_whole, Rect.mem_set_unit]
  exact Iff.rfl

/-- Every row of the scalar output lies in the band of point `row / 4000`. -/
theorem cover7 (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  have hN : cfg0.N = 200 := N_0
  obtain ⟨-, -, -, -, -, -, -, -, -, -, -, -, e0, e1, -⟩ :=
    idx_facts (⟨(i 0).val / 4000, by rw [hN]; omega⟩ : Fin cfg0.N)
  refine ⟨⟨(i 0).val / 4000, by rw [hN]; omega⟩, flush0_7 _, ?_⟩
  rw [mem_blk7]
  intro a
  match a with
  | ⟨0, _⟩ =>
    show win0_7.index _ (0 : Fin 2) * 4000 ≤ (i 0).val ∧ (i 0).val < win0_7.index _ (0 : Fin 2) * 4000 + 4000
    rw [e0]
    show (i 0).val / 4000 * 4000 ≤ (i 0).val ∧ (i 0).val < (i 0).val / 4000 * 4000 + 4000
    omega
  | ⟨1, _⟩ =>
    show win0_7.index _ (1 : Fin 2) * 128 ≤ (i 1).val ∧ (i 1).val < win0_7.index _ (1 : Fin 2) * 128 + 128
    rw [e1]
    omega

/-- The scalar output array after the launch: row `e` is the scalar message of edge row `e`. -/
theorem edge_s (c : Dev nD) :
    (dat0 (F := Ideal) V c).arrAt 7 cfg0.N = fun i : S800000x128.Idx =>
      edgeS (row (V c main_arg3 : Arr2 800000 32) (i 0)) (V c main_v2 : Arr2 32 128) (V c main_arg8 : Arr1 128) (i 1) :=
  (dat0 (F := Ideal) V c).arrAt_eq_of_cover 7 (msgS V c) (fun t _ => flushed7_eq V c t) cover7

/-! ## The vector output -/

/-- The gated vector messages of all edges: row `e` from row `e` of the edge scalars and of the flattened edge
    vectors and the whole weights and biases. -/
def msgV (c : Dev nD) : S800000x48.Idx → EReal := fun i =>
  edgeV (edgeS (row (V c main_arg3 : Arr2 800000 32) (i 0)) (V c main_v2 : Arr2 32 128) (V c main_arg8 : Arr1 128))
    (row (V c main_v0 : Arr2 800000 3) (i 0)) (V c main_v3 : Arr2 3 48) (V c main_arg10 : Arr1 48) (i 1)

theorem msgV_ix2 (c : Dev nD) (r : Fin 800000) (q : Fin 48) :
    msgV V c (ix2 r q) = edgeV (edgeS (row (V c main_arg3 : Arr2 800000 32) r) (V c main_v2 : Arr2 32 128) (V c main_arg8 : Arr1 128))
      (row (V c main_v0 : Arr2 800000 3) r) (V c main_v3 : Arr2 3 48) (V c main_arg10 : Arr1 48) q := rfl

/-- Row `p` of band `t` of the flattened edge vectors is row `4000 t + p` of the array. -/
theorem row0_1 (c : Dev nD) (t : Fin cfg0.N) (p : Fin 4000) (r : Fin 800000) (hr : r.val = t.val * 4000 + p.val) :
    row (iblk0 V c 1 t : Vec Ideal S4000x3 .f32) p = row (V c main_v0 : Arr2 800000 3) r :=
  funext fun k => iblk0_1_apply V c t p k r hr

/-- What point `t` writes back to the vector output is band `t` of the gated vector messages, when the table
    operand is the 0/1 table of the channels. -/
theorem flushed8_eq (c : Dev nD)
    (hR : ∀ (a : Fin 16) (j : Fin 48), (V c main_cst : Arr2 16 48) (ix2 a j) = if j.val / 3 = a.val then (1 : EReal) else 0)
    (t : Fin cfg0.N) :
    (dat0 (F := Ideal) V c).flushed 8 t = ((cfg0.win 8).blk t).view.read (Elt Ideal) (msgV V c) := by
  show (cfg0.win 8).cut (grid0.coords t) ((dat0 V c).after 8 t) = _
  rw [after0_8]
  unfold out0_8
  rw [View.canon_unit_zero hz2]
  simp only [View.ld_unit_zero (S := S4000x32) hz2, View.ld_unit_zero (S := S32x128) hz2, View.ld_unit_zero (S := S128) hz1,
    View.ld_unit_zero (S := S4000x3) hz2, View.ld_unit_zero (S := S3x48) hz2, View.ld_unit_zero (S := S48) hz1,
    View.ld_unit_zero (S := S16x48) hz2]
  obtain ⟨-, -, -, -, -, -, -, -, -, -, -, -, -, -, e0, e1⟩ := idx_facts t
  have hT : ∀ (a : Fin 16) (j : Fin 48), ((iblk0 V c 6 t : Vec Ideal S16x48 .f32) : Arr2 16 48) (ix2 a j)
      = if j.val / 3 = a.val then (1 : EReal) else 0 :=
    fun a j => (congrFun (iblk0_6_eq V c t) (ix2 a j)).trans (hR a j)
  funext j
  have hp : (j 0).val < 4000 := (j 0).isLt
  have hq : (j 1).val < 48 := (j 1).isLt
  have ht : t.val < 200 := N_0 ▸ t.isLt
  have hx : (cfg0.win 8).xinj (grid0.coords t) j = ix2 (⟨(j 0).val, hp⟩ : Fin 4000) (⟨(j 1).val, hq⟩ : Fin 48) :=
    funext fun a => by
      match a with
      | ⟨0, _⟩ => rfl
      | ⟨1, _⟩ => rfl
  have hemb : ((cfg0.win 8).blk t).view.emb j
      = ix2 (⟨t.val * 4000 + (j 0).val, by omega⟩ : Fin 800000) (⟨(j 1).val, hq⟩ : Fin 48) := by
    funext a
    apply Fin.ext
    match a with
    | ⟨0, _⟩ => show win0_8.index t (0 : Fin 2) * 4000 + 1 * (j 0).val = t.val * 4000 + (j 0).val; rw [e0]; omega
    | ⟨1, _⟩ => show win0_8.index t (1 : Fin 2) * 48 + 1 * (j 1).val = (j 1).val; rw [e1]; omega
  show k0_pay2 (iblk0 V c 0 t) (iblk0 V c 2 t) (iblk0 V c 3 t) (iblk0 V c 1 t) (iblk0 V c 4 t) (iblk0 V c 5 t) (iblk0 V c 6 t)
      ((cfg0.win 8).xinj (grid0.coords t) j)
    = msgV V c (((cfg0.win 8).blk t).view.emb j)
  rw [hx, hemb, pay2_apply (iblk0 V c 0 t) (iblk0 V c 2 t) (iblk0 V c 3 t) (iblk0 V c 1 t) (iblk0 V c 4 t) (iblk0 V c 5 t)
      (iblk0 V c 6 t) hT ⟨(j 0).val, hp⟩ ⟨(j 1).val, hq⟩,
    msgV_ix2, iblk0_2_eq, iblk0_3_eq, iblk0_4_eq, iblk0_5_eq,
    row0_0 V c t ⟨(j 0).val, hp⟩ ⟨t.val * 4000 + (j 0).val, by omega⟩ rfl,
    row0_1 V c t ⟨(j 0).val, hp⟩ ⟨t.val * 4000 + (j 0).val, by omega⟩ rfl]

/-- An index of the vector output is in point `t`'s block iff each coordinate is in the block's range on its axis. -/
theorem mem_blk8 (t : Fin cfg0.N) (i : S800000x48.Idx) :
    i ∈ ((cfg0.win 8).blk t).view.set ↔ ∀ a : Fin 2, win0_8.index t a * S4000x48.size a ≤ (i a).val
      ∧ (i a).val < win0_8.index t a * S4000x48.size a + S4000x48.size a := by
  show i ∈ ((View.whole main_v8_1).slice (win0_8.rect t)).set ↔ _
  rw [View.set_slice_whole, Rect.mem_set_unit]
  exact Iff.rfl

/-- Every row of the vector output lies in the band of point `row / 4000`. -/
theorem cover8 (i : S800000x48.Idx) :
    ∃ t : Fin cfg0.N, (cfg0.win 8).flush t = true ∧ i ∈ ((cfg0.win 8).blk t).view.set := by
  have hi0 : (i 0).val < 800000 := (i 0).isLt
  have hi1 : (i 1).val < 48 := (i 1).isLt
  have hN : cfg0.N = 200 := N_0
  obtain ⟨-, -, -, -, -, -, -, -, -, -, -, -, -, -, e0, e1⟩ :=
    idx_facts (⟨(i 0).val / 4000, by rw [hN]; omega⟩ : Fin cfg0.N)
  refine ⟨⟨(i 0).val / 4000, by rw [hN]; omega⟩, flush0_8 _, ?_⟩
  rw [mem_blk8]
  intro a
  match a with
  | ⟨0, _⟩ =>
    show win0_8.index _ (0 : Fin 2) * 4000 ≤ (i 0).val ∧ (i 0).val < win0_8.index _ (0 : Fin 2) * 4000 + 4000
    rw [e0]
    show (i 0).val / 4000 * 4000 ≤ (i 0).val ∧ (i 0).val < (i 0).val / 4000 * 4000 + 4000
    omega
  | ⟨1, _⟩ =>
    show win0_8.index _ (1 : Fin 2) * 48 ≤ (i 1).val ∧ (i 1).val < win0_8.index _ (1 : Fin 2) * 48 + 48
    rw [e1]
    omega

/-- The vector output array after the launch, when the 16 x 48 table operand holds a one exactly where column `j`
    belongs to channel `a` (`j / 3 = a`) and a zero elsewhere: row `e` is the gated vector message of edge row `e`. -/
theorem edge_v (c : Dev nD)
    (hR : ∀ (a : Fin 16) (j : Fin 48), (V c main_cst : Arr2 16 48) (ix2 a j) = if j.val / 3 = a.val then (1 : EReal) else 0) :
    (dat0 (F := Ideal) V c).arrAt 8 cfg0.N = fun i : S800000x48.Idx =>
      edgeV (edgeS (row (V c main_arg3 : Arr2 800000 32) (i 0)) (V c main_v2 : Arr2 32 128) (V c main_arg8 : Arr1 128))
        (row (V c main_v0 : Arr2 800000 3) (i 0)) (V c main_v3 : Arr2 3 48) (V c main_arg10 : Arr1 48) (i 1) :=
  (dat0 (F := Ideal) V c).arrAt_eq_of_cover 8 (msgV V c) (fun t _ => flushed8_eq V c hR t) cover8

end Cert.KernelIdeal.EdgeValue

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.NodeValue.lean ====
/-
  What the node-update launch leaves in its two output arrays, for any contents `V` the launch is entered with.

  The launch cuts the 50000 nodes into 25 bands of 2000 rows; band `t` of each output is computed from band `t` of
  the node scalars, the flattened node vectors and the two aggregates, and from the whole weights. Row `n` of each
  output is the node update of Spec.lean — a function of row `n` of the inputs alone — so the bands assemble into one
  function of the whole arrays.

  First, entry by entry of a block: the scalar normalisation of a row is its centred entries times the reciprocal
  root of the variance plus a small word, scaled and shifted; the vector normalisation divides a row by the root of one
  sixteenth of its sum of squares plus a small word; a dense map is a finite sum over the contracted index plus the bias
  of the column; the gate of flattened coordinate `j` is the logistic of scalar channel `j / 3`, because the sum over
  the 16 rows of a 0/1 table whose column `j` has its single one in row `j / 3` keeps exactly that term
  (`x * 0 = 0`, `x * 1 = x` and a sum with one non-zero term, on the extended reals). Then, from blocks to arrays:
  entry `(p, q)` of band `t` is entry `(2000 t + p, q)` of the array, the weights, biases and the table are read whole
  at every point, and row `n` of an output lies in band `n / 2000`, so the 25 write-backs cover each output.
-/
import proofs.«150730_j75419625718340_1_alg».proof.Proof.Gen.KernelIdeal.Frame
import proofs.«150730_j75419625718340_1_alg».proof.Proof.Spec
import proofs.«150730_j75419625718340_1_alg».proof.Proof.LibDense
import proofs.«150730_j75419625718340_1_alg».proof.Proof.LibAxisSum
import proofs.«150730_j75419625718340_1_alg».proof.Proof.LibSoftmaxRow
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.NodeValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gvp

variable (V : (c : Dev nD) → (b : Ref sig .tc) → Buf (Elt Ideal) ((c : Thread nD τ).loc b))

/-- The mean of row `p` of a block, kept as a column entry. -/
theorem mean_col (x : FVec Ideal S2000x128 .f32) (h : S2000x128.Reduces [1] S2000) (hacc : (0x00000000#32 : BitVec 32) = 0x00000000#32)
    (hc : S2000.ShapeCasts S2000x1) (p : Fin 2000) (u : Fin 1) :
    divf (shapeCast S2000x1 (multiReduction .add [1] S2000 x 0x00000000#32 h (.inl rfl) hacc) hc)
      (broadcast S2000x1 (Scalar.ofBits (F := Ideal) .f32 0x43000000#32)) (ix2 p u)
      = mean128 (fun k => x (ix2 p k)) := by
  show Ideal.div (shapeCast S2000x1 (multiReduction .add [1] S2000 x 0x00000000#32 h (.inl rfl) hacc) hc (ix2 p u)) _ = _
  refine congrArg (fun z => Ideal.div z _) ?_
  refine (LibSoftmaxRow.shapeCast_a_a1_apply _ hc p u).trans ?_
  exact LibAxisSum.sum_last x 0x00000000#32 h (.inl rfl) hacc p

/-- The same mean spread back over the row. -/
theorem mean_spread (x : FVec Ideal S2000x128 .f32) (h : S2000x128.Reduces [1] S2000) (hacc : (0x00000000#32 : BitVec 32) = 0x00000000#32)
    (hc : S2000.ShapeCasts S2000x1) (hb : S2000x1.Broadcasts S2000x128) (p : Fin 2000) (q : Fin 128) :
    broadcastTo S2000x128 (divf (shapeCast S2000x1 (multiReduction .add [1] S2000 x 0x00000000#32 h (.inl rfl) hacc) hc)
      (broadcast S2000x1 (Scalar.ofBits (F := Ideal) .f32 0x43000000#32))) hb (ix2 p q)
      = mean128 (fun k => x (ix2 p k)) :=
  (LibSoftmaxRow.broadcastTo_a1_ab_apply _ hb p q).trans (mean_col x h hacc hc p 0)

/-- The scalar normalisation payload at row `p`, column `q`. -/
theorem pay3_apply (x0 : Vec Ideal S2000x128 .f32) (g b : Vec Ideal S128 .f32) (p : Fin 2000) (q : Fin 128) :
    k1_pay3 (F := Ideal) x0 g b (ix2 p q) = lnorm (row (x0 : Arr2 2000 128) p) (g : Arr1 128) (b : Arr1 128) q := by
  unfold k1_pay3 lnorm
  refine congrArg₂ (· + ·) (congrArg₂ (· * ·) (congrArg₂ (· * ·) (congrArg₂ (· - ·) rfl ?_) ?_) ?_) ?_
  · exact mean_spread x0 _ _ _ _ p q
  · refine (LibSoftmaxRow.broadcastTo_a1_ab_apply _ _ p q).trans ?_
    refine congrArg (fun z => Ideal.rsqrt (z + _)) ?_
    refine (mean_col _ _ _ _ p 0).trans ?_
    refine congrArg mean128 (funext fun k => ?_)
    exact congrArg₂ (· * ·) (congrArg₂ (· - ·) rfl (mean_spread x0 _ _ _ _ p k)) (congrArg₂ (· - ·) rfl (mean_spread x0 _ _ _ _ p k))
  · exact LibDense.bias_row g _ _ (ix2 p q)
  · exact LibDense.bias_row b _ _ (ix2 p q)

/-- The vector norm of row `p` of a block of flattened vectors, kept as a column entry. -/
theorem vnorm_col (v : FVec Ideal S2000x48 .f32) (h : S2000x48.Reduces [1] S2000) (hacc : (0x00000000#32 : BitVec 32) = 0x00000000#32)
    (hc : S2000.ShapeCasts S2000x1) (p : Fin 2000) (u : Fin 1) :
    sqrt (addf (mulf (shapeCast S2000x1 (multiReduction .add [1] S2000 (mulf v v) 0x00000000#32 h (.inl rfl) hacc) hc)
        (broadcast S2000x1 (Scalar.ofBits (F := Ideal) .f32 0x3D800000#32)))
      (broadcast S2000x1 (Scalar.ofBits (F := Ideal) .f32 0x322BCC77#32))) (ix2 p u)
      = vnorm (fun k => v (ix2 p k)) := by
  unfold vnorm
  refine congrArg (fun z => Ideal.sqrt (z * _ + _)) ?_
  refine (LibSoftmaxRow.shapeCast_a_a1_apply _ hc p u).trans ?_
  exact LibAxisSum.sum_last (mulf v v) 0x00000000#32 h (.inl rfl) hacc p

/-- A block of flattened vectors divided by its rows' norms, at row `p`, column `q`. -/
theorem vnormed_core (v : FVec Ideal S2000x48 .f32) (h : S2000x48.Reduces [1] S2000) (hacc : (0x00000000#32 : BitVec 32) = 0x00000000#32)
    (hc : S2000.ShapeCasts S2000x1) (hb : S2000x1.Broadcasts S2000x48) (p : Fin 2000) (q : Fin 48) :
    divf v (broadcastTo S2000x48 (sqrt (addf (mulf (shapeCast S2000x1 (multiReduction .add [1] S2000 (mulf v v) 0x00000000#32 h (.inl rfl) hacc) hc)
        (broadcast S2000x1 (Scalar.ofBits (F := Ideal) .f32 0x3D800000#32)))
      (broadcast S2000x1 (Scalar.ofBits (F := Ideal) .f32 0x322BCC77#32)))) hb) (ix2 p q)
      = vnormed (fun k => v (ix2 p k)) q := by
  unfold vnormed
  refine congrArg (fun z => Ideal.div (v (ix2 p q)) z) ?_
  exact (LibSoftmaxRow.broadcastTo_a1_ab_apply _ hb p q).trans (vnorm_col v h hacc hc p 0)

/-- The vector normalisation payload at row `p`, column `q`. -/
theorem pay4_apply (x1 : Vec Ideal S2000x48 .f32) (p : Fin 2000) (q : Fin 48) :
    k1_pay4 (F := Ideal) x1 (ix2 p q) = vnormed (row (x1 : Arr2 2000 48) p) q := by
  unfold k1_pay4
  refine (vnormed_core (shapeCast S2000x48 x1 shapeCasts_S2000x48_S2000x48) _ _ _ _ p q).trans ?_
  exact congrArg (fun v : FVec Ideal S2000x48 .f32 => vnormed (fun k => v (ix2 p k)) q) (shapeCast_self x1 _)

/-- A dense map of a block of 128-rows: the product with the weight into the zero accumulator plus the bias row, at
    row `p`, column `q`, is the dense map of row `p`. -/
theorem dense128 (a : FVec Ideal S2000x128 .f32) (w : Vec Ideal S128x128 .f32) (bb : Vec Ideal S128 .f32)
    (hcw : S128x128.ShapeCasts S128x128) (hc1 : S128.ShapeCasts S1x128) (hb1 : S1x128.Broadcasts S2000x128) (p : Fin 2000) (q : Fin 128) :
    addf (matmul dot_S2000x128_S128x128_S2000x128_1_0_0_1_n_n none (truncf .bf16 a bitsLt_bf16_f32)
        (truncf .bf16 (shapeCast S128x128 w hcw) bitsLt_bf16_f32) (constant (F := Ideal) S2000x128 .f32 0x00000000#32))
      (broadcastTo S2000x128 (shapeCast S1x128 bb hc1) hb1) (ix2 p q)
      = linRow (fun k => a (ix2 p k)) (w : Arr2 128 128) (bb : Arr1 128) q := by
  unfold linRow dotRow
  refine congrArg₂ (· + ·) ?_ (LibDense.bias_row bb hc1 hb1 (ix2 p q))
  refine (LibDense.matmul_plain (M := 2000) (K := 128) (N := 128) (truncf .bf16 a bitsLt_bf16_f32)
    (truncf .bf16 (shapeCast S128x128 w hcw) bitsLt_bf16_f32) (ix2 p q)).trans ?_
  unfold LibDense.prod
  exact Finset.sum_congr rfl fun k _ => congrArg₂ (· * ·) rfl (congrFun (shapeCast_self w hcw) (ix2 k q))

/-- A dense map of a block of 48-rows. -/
theorem dense48 (a : FVec Ideal S2000x48 .bf16) (W : FVec Ideal S48x48 .f32) (bv : Vec Ideal S48 .f32)
    (hc1 : S48.ShapeCasts S1x48) (hb1 : S1x48.Broadcasts S2000x48) (p : Fin 2000) (q : Fin 48) :
    addf (matmul dot_S2000x48_S48x48_S2000x48_1_0_0_1_n_n none a
        (truncf .bf16 W bitsLt_bf16_f32) (constant (F := Ideal) S2000x48 .f32 0x00000000#32))
      (broadcastTo S2000x48 (shapeCast S1x48 bv hc1) hb1) (ix2 p q)
      = linRow (fun k => a (ix2 p k)) (W : Arr2 48 48) (bv : Arr1 48) q := by
  unfold linRow dotRow
  refine congrArg₂ (· + ·) ?_ (LibDense.bias_row bv hc1 hb1 (ix2 p q))
  exact LibDense.matmul_plain (M := 2000) (K := 48) (N := 48) a (truncf .bf16 W bitsLt_bf16_f32) (ix2 p q)

/-- A block of 16-rows against a 0/1 table whose column `j` has its single one in row `j / 3`: entry `(p, j)` of the
    product is entry `(p, j / 3)` of the block. -/
theorem table_pick (X : FVec Ideal S2000x16 .bf16) (R : Vec Ideal S16x48 .f32)
    (hR : ∀ (a : Fin 16) (j : Fin 48), (R : Arr2 16 48) (ix2 a j) = if j.val / 3 = a.val then (1 : EReal) else 0)
    (p : Fin 2000) (q : Fin 48) (hq : q.val / 3 < 16) :
    matmul dot_S2000x16_S16x48_S2000x48_1_0_0_1_n_n none X
      (truncf .bf16 R bitsLt_bf16_f32) (constant (F := Ideal) S2000x48 .f32 0x00000000#32) (ix2 p q)
      = X (ix2 p ⟨q.val / 3, hq⟩) := by
  have e : matmul dot_S2000x16_S16x48_S2000x48_1_0_0_1_n_n none X
      (truncf .bf16 R bitsLt_bf16_f32) (constant (F := Ideal) S2000x48 .f32 0x00000000#32) (ix2 p q)
      = ∑ k : Fin 16, (X (ix2 p k) : EReal) * (R : Arr2 16 48) (ix2 k q) :=
    LibDense.matmul_plain (M := 2000) (K := 16) (N := 48) X (truncf .bf16 R bitsLt_bf16_f32) (ix2 p q)
  refine e.trans ?_
  refine (Finset.sum_eq_single (⟨q.val / 3, hq⟩ : Fin 16) (fun k _ hk => ?_) (fun h => absurd (Finset.mem_univ _) h)).trans ?_
  · rw [hR k q, if_neg (fun e => hk (Fin.ext e.symm)), mul_zero]
  · rw [hR _ q, if_pos rfl, mul_one]

/-- The gate spread over the flattened coordinates: the logistic of the first 16 columns of `G` against the table is
    the logistic of `G` at column `j / 3`. -/
theorem gate_spread (G : FVec Ideal S2000x128 .f32) (R : Vec Ideal S16x48 .f32) (hs : S2000x128.Slices ![0, 0] S2000x16)
    (hR : ∀ (a : Fin 16) (j : Fin 48), (R : Arr2 16 48) (ix2 a j) = if j.val / 3 = a.val then (1 : EReal) else 0)
    (p : Fin 2000) (q : Fin 48) :
    matmul dot_S2000x16_S16x48_S2000x48_1_0_0_1_n_n none
      (truncf .bf16 (logistic (extractStridedSlice S2000x16 ![0, 0] G hs)) bitsLt_bf16_f32)
      (truncf .bf16 R bitsLt_bf16_f32) (constant (F := Ideal) S2000x48 .f32 0x00000000#32) (ix2 p q)
      = Ideal.logistic (G (ix2 p (gcol q))) := by
  have hq : q.val / 3 < 16 := by have := q.isLt; omega
  refine (table_pick _ R hR p q hq).trans ?_
  refine congrArg Ideal.logistic ?_
  refine extractStridedSlice_apply _ G hs _ (ix2 p (gcol q)) fun a => ?_
  match a with
  | ⟨0, _⟩ => show p.val = 0 + p.val; omega
  | ⟨1, _⟩ => show q.val / 3 = 0 + q.val / 3; omega

/-- The normalised scalar row plus the scalar aggregate. -/
theorem pay5_apply (x0 : Vec Ideal S2000x128 .f32) (g b : Vec Ideal S128 .f32) (ag : Vec Ideal S2000x128 .f32) (p : Fin 2000) (q : Fin 128) :
    k1_pay5 (F := Ideal) x0 g b ag (ix2 p q)
      = lnorm (row (x0 : Arr2 2000 128) p) (g : Arr1 128) (b : Arr1 128) q + row (ag : Arr2 2000 128) p q := by
  unfold k1_pay5
  exact congrArg₂ (· + ·) (pay3_apply x0 g b p q) (congrFun (shapeCast_self ag _) (ix2 p q))

/-- The gated scalar part: silu of the dense map of a row. -/
theorem pay6_apply (a : FVec Ideal S2000x128 .f32) (w : Vec Ideal S128x128 .f32) (bb : Vec Ideal S128 .f32) (p : Fin 2000) (q : Fin 128) :
    k1_pay6 (F := Ideal) a w bb (ix2 p q) = silu (linRow (fun k => a (ix2 p k)) (w : Arr2 128 128) (bb : Arr1 128) q) := by
  unfold k1_pay6 silu
  exact congrArg (fun z => z * Ideal.logistic z) (dense128 a w bb _ _ _ p q)

/-- The residual dense map of a row. -/
theorem pay8_apply (a : FVec Ideal S2000x128 .f32) (w : Vec Ideal S128x128 .f32) (bb : Vec Ideal S128 .f32) (p : Fin 2000) (q : Fin 128) :
    k1_pay8 (F := Ideal) a w bb (ix2 p q) = linRow (fun k => a (ix2 p k)) (w : Arr2 128 128) (bb : Arr1 128) q := by
  unfold k1_pay8
  exact dense128 a w bb _ _ _ p q

/-- The gated scalar part of the node update at row `p`. -/
theorem nodeG_block (x0 : Vec Ideal S2000x128 .f32) (g b : Vec Ideal S128 .f32) (ag : Vec Ideal S2000x128 .f32)
    (w : Vec Ideal S128x128 .f32) (bb : Vec Ideal S128 .f32) (p : Fin 2000) (q : Fin 128) :
    k1_pay6 (F := Ideal) (k1_pay5 x0 g b ag) w bb (ix2 p q)
      = nodeG (lnorm (row (x0 : Arr2 2000 128) p) (g : Arr1 128) (b : Arr1 128)) (row (ag : Arr2 2000 128) p) (w : Arr2 128 128) (bb : Arr1 128) q := by
  unfold nodeG
  refine (pay6_apply (k1_pay5 x0 g b ag) w bb p q).trans ?_
  exact congrArg (fun r : Fin 128 → EReal => silu (linRow r (w : Arr2 128 128) (bb : Arr1 128) q)) (funext fun k => pay5_apply x0 g b ag p k)

/-- THE SCALAR OUTPUT BLOCK at row `p`, column `q`: the scalar node update of row `p` of the input blocks. -/
theorem s_block (x0 : Vec Ideal S2000x128 .f32) (g b : Vec Ideal S128 .f32) (ag : Vec Ideal S2000x128 .f32)
    (w : Vec Ideal S128x128 .f32) (bb : Vec Ideal S128 .f32) (wr : Vec Ideal S128x128 .f32) (br : Vec Ideal S128 .f32) (p : Fin 2000) (q : Fin 128) :
    k1_pay1 (F := Ideal) (k1_pay6 (k1_pay5 x0 g b ag) w bb) (k1_pay8 (k1_pay3 x0 g b) wr br) (ix2 p q)
      = nodeS (lnorm (row (x0 : Arr2 2000 128) p) (g : Arr1 128) (b : Arr1 128)) (row (ag : Arr2 2000 128) p)
          (w : Arr2 128 128) (bb : Arr1 128) (wr : Arr2 128 128) (br : Arr1 128) q := by
  unfold k1_pay1 nodeS
  refine congrArg₂ (· + ·) (nodeG_block x0 g b ag w bb p q) ?_
  refine (pay8_apply (k1_pay3 x0 g b) wr br p q).trans ?_
  exact congrArg (fun r : Fin 128 → EReal => linRow r (wr : Arr2 128 128) (br : Arr1 128) q) (funext fun k => pay3_apply x0 g b p k)

/-- The gated vector part: the dense map of the normalised vector row plus the aggregate, times the gate. -/
theorem pay7_apply (vn : FVec Ideal S2000x48 .f32) (a : FVec Ideal S2000x128 .f32) (ag : Vec Ideal S2000x48 .f32)
    (w : Vec Ideal S128x128 .f32) (bb : Vec Ideal S128 .f32) (wv : Vec Ideal S48x48 .f32) (bv : Vec Ideal S48 .f32) (R : Vec Ideal S16x48 .f32)
    (hR : ∀ (a : Fin 16) (j : Fin 48), (R : Arr2 16 48) (ix2 a j) = if j.val / 3 = a.val then (1 : EReal) else 0)
    (p : Fin 2000) (q : Fin 48) :
    k1_pay7 (F := Ideal) vn a ag w bb wv bv R (ix2 p q)
      = linRow (fun k => vn (ix2 p k) + row (ag : Arr2 2000 48) p k) (wv : Arr2 48 48) (bv : Arr1 48) q
          * Ideal.logistic (k1_pay6 (F := Ideal) a w bb (ix2 p (gcol q))) := by
  unfold k1_pay7
  refine congrArg₂ (· * ·) ?_ (gate_spread (k1_pay6 a w bb) R _ hR p q)
  refine (dense48 _ (shapeCast S48x48 wv shapeCasts_S48x48_S48x48) bv _ _ p q).trans ?_
  refine congrArg₂ (fun (r : Fin 48 → EReal) (W : Arr2 48 48) => linRow r W (bv : Arr1 48) q) (funext fun k => ?_) (shapeCast_self wv _)
  exact congrArg (fun z => vn (ix2 p k) + z) (congrFun (shapeCast_self ag _) (ix2 p k))

/-- THE VECTOR OUTPUT BLOCK at row `p`, column `q`: the vector node update of row `p` of the input blocks. -/
theorem v_block (x0 : Vec Ideal S2000x128 .f32) (x1 : Vec Ideal S2000x48 .f32) (g b : Vec Ideal S128 .f32) (ag : Vec Ideal S2000x128 .f32)
    (agv : Vec Ideal S2000x48 .f32) (w : Vec Ideal S128x128 .f32) (bb : Vec Ideal S128 .f32) (wv : Vec Ideal S48x48 .f32) (bv : Vec Ideal S48 .f32)
    (R : Vec Ideal S16x48 .f32) (wvr : Vec Ideal S48x48 .f32) (bvr : Vec Ideal S48 .f32)
    (hR : ∀ (a : Fin 16) (j : Fin 48), (R : Arr2 16 48) (ix2 a j) = if j.val / 3 = a.val then (1 : EReal) else 0)
    (p : Fin 2000) (q : Fin 48) :
    k1_pay2 (F := Ideal) (k1_pay7 (k1_pay4 x1) (k1_pay5 x0 g b ag) agv w bb wv bv R) (k1_pay9 (k1_pay4 x1)) (k1_pay10 wvr) bvr (ix2 p q)
      = nodeV (nodeG (lnorm (row (x0 : Arr2 2000 128) p) (g : Arr1 128) (b : Arr1 128)) (row (ag : Arr2 2000 128) p) (w : Arr2 128 128) (bb : Arr1 128))
          (vnormed (row (x1 : Arr2 2000 48) p)) (row (agv : Arr2 2000 48) p)
          (wv : Arr2 48 48) (bv : Arr1 48) (wvr : Arr2 48 48) (bvr : Arr1 48) q := by
  unfold k1_pay2 nodeV
  refine congrArg₂ (· + ·) ?_ ?_
  · refine (pay7_apply (k1_pay4 x1) (k1_pay5 x0 g b ag) agv w bb wv bv R hR p q).trans ?_
    refine congrArg₂ (· * ·) ?_ (congrArg Ideal.logistic (nodeG_block x0 g b ag w bb p (gcol q)))
    exact congrArg (fun r : Fin 48 → EReal => linRow r (wv : Arr2 48 48) (bv : Arr1 48) q)
      (funext fun k => congrArg (fun z => z + row (agv : Arr2 2000 48) p k) (pay4_apply x1 p k))
  · refine (dense48 (k1_pay9 (k1_pay4 x1)) (k1_pay10 wvr) bvr _ _ p q).trans ?_
    refine congrArg₂ (fun (r : Fin 48 → EReal) (W : Arr2 48 48) => linRow r W (bvr : Arr1 48) q) (funext fun k => ?_) ?_
    · exact pay4_apply x1 p k
    · unfold k1_pay10
      exact shapeCast_self wvr _

theorem hz2 : (![0, 0] : Fin 2 → Nat) = fun _ => 0 := funext fun a => by fin_cases a <;> rfl
theorem hz1 : (![0] : Fin 1 → Nat) = fun _ => 0 := funext fun a => by fin_cases a; rfl

/-- What the body leaves in the scalar output's buffer, at row `p`, column `q`, from the input blocks. -/
theorem out15_apply (x0 : Vec Ideal S2000x128 .f32) (x1 : Vec Ideal S2000x48 .f32) (x2 : Vec Ideal S2000x128 .f32) (x3 : Vec Ideal S2000x48 .f32)
    (x4 : Vec Ideal S128 .f32) (x5 : Vec Ideal S128 .f32) (x6 : Vec Ideal S128x128 .f32) (x7 : Vec Ideal S128 .f32) (x8 : Vec Ideal S48x48 .f32)
    (x9 : Vec Ideal S48 .f32) (x10 : Vec Ideal S128x128 .f32) (x11 : Vec Ideal S128 .f32) (x12 : Vec Ideal S48x48 .f32) (x13 : Vec Ideal S48 .f32)
    (x14 : Vec Ideal S16x48 .f32) (p : Fin 2000) (q : Fin 128) :
    out1_15 (F := Ideal) x0 x1 x2 x3 x4 x5 x6 x7 x8 x9 x10 x11 x12 x13 x14 (ix2 p q)
      = nodeS (lnorm (row (x0 : Arr2 2000 128) p) (x4 : Arr1 128) (x5 : Arr1 128)) (row (x2 : Arr2 2000 128) p)
          (x6 : Arr2 128 128) (x7 : Arr1 128) (x10 : Arr2 128 128) (x11 : Arr1 128) q := by
  unfold out1_15
  rw [View.canon_unit_zero hz2]
  simp only [View.ld_unit_zero (S := S2000x128) hz2, View.ld_unit_zero (S := S128) hz1, View.ld_unit_zero (S := S128x128) hz2]
  exact s_block x0 x4 x5 x2 x6 x7 x10 x11 p q

/-- What the body leaves in the vector output's buffer, at row `p`, column `q`, from the input blocks. -/
theorem out16_apply (x0 : Vec Ideal S2000x128 .f32) (x1 : Vec Ideal S2000x48 .f32) (x2 : Vec Ideal S2000x128 .f32) (x3 : Vec Ideal S2000x48 .f32)
    (x4 : Vec Ideal S128 .f32) (x5 : Vec Ideal S128 .f32) (x6 : Vec Ideal S128x128 .f32) (x7 : Vec Ideal S128 .f32) (x8 : Vec Ideal S48x48 .f32)
    (x9 : Vec Ideal S48 .f32) (x10 : Vec Ideal S128x128 .f32) (x11 : Vec Ideal S128 .f32) (x12 : Vec Ideal S48x48 .f32) (x13 : Vec Ideal S48 .f32)
    (x14 : Vec Ideal S16x48 .f32)
    (hR : ∀ (a : Fin 16) (j : Fin 48), (x14 : Arr2 16 48) (ix2 a j) = if j.val / 3 = a.val then (1 : EReal) else 0)
    (p : Fin 2000) (q : Fin 48) :
    out1_16 (F := Ideal) x0 x1 x2 x3 x4 x5 x6 x7 x8 x9 x10 x11 x12 x13 x14 (ix2 p q)
      = nodeV (nodeG (lnorm (row (x0 : Arr2 2000 128) p) (x4 : Arr1 128) (x5 : Arr1 128)) (row (x2 : Arr2 2000 128) p) (x6 : Arr2 128 128) (x7 : Arr1 128))
          (vnormed (row (x1 : Arr2 2000 48) p)) (row (x3 : Arr2 2000 48) p)
          (x8 : Arr2 48 48) (x9 : Arr1 48) (x12 : Arr2 48 48) (x13 : Arr1 48) q := by
  unfold out1_16
  rw [View.canon_unit_zero hz2]
  simp only [View.ld_unit_zero (S := S2000x128) hz2, View.ld_unit_zero (S := S2000x48) hz2, View.ld_unit_zero (S := S128) hz1,
    View.ld_unit_zero (S := S128x128) hz2, View.ld_unit_zero (S := S48x48) hz2, View.ld_unit_zero (S := S48) hz1,
    View.ld_unit_zero (S := S16x48) hz2]
  exact v_block x0 x1 x4 x5 x2 x3 x6 x7 x8 x9 x14 x12 x13 hR p q

/-- The windows' index maps, decided over the 25 points: the four banded inputs and the two outputs are at band `t`. -/
theorem idx_band : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_15.index t (0 : Fin 2) = t.val ∧ win1_15.index t (1 : Fin 2) = 0
    ∧ win1_16.index t (0 : Fin 2) = t.val ∧ win1_16.index t (1 : Fin 2) = 0 :=
  (by decide +kernel : ∀ t : Fin grid1.N, _)

/-- The weights, biases and the table are whole arrays at every point. -/
theorem idx_whole : ∀ t : Fin cfg1.N,
    win1_4.index t (0 : Fin 1) = 0 ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = 0 ∧ win1_10.index t (1 : Fin 2) = 0
    ∧ win1_11.index t (0 : Fin 1) = 0
    ∧ win1_12.index t (0 : Fin 2) = 0 ∧ win1_12.index t (1 : Fin 2) = 0
    ∧ win1_13.index t (0 : Fin 1) = 0
    ∧ win1_14.index t (0 : Fin 2) = 0 ∧ win1_14.index t (1 : Fin 2) = 0 :=
  (by decide +kernel : ∀ t : Fin grid1.N, _)

/-- Row `p` of band `t` of the node scalars is row `2000 t + p` of the array. -/
theorem row_band0 (c : Dev nD) (t : Fin cfg1.N) (p : Fin 2000) (r : Fin 50000) (hr : r.val = 2000 * t.val + p.val) :
    row (iblk1 (F := Ideal) V c 0 t : Arr2 2000 128) p = row (V c main_arg0 : Arr2 50000 128) r := by
  obtain ⟨e0, e1, -⟩ := idx_band t
  funext k
  unfold row iblk1
  rw [View.read_apply]
  show V c main_arg0 _ = V c main_arg0 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row `p` of band `t` of the flattened node vectors. -/
theorem row_band1 (c : Dev nD) (t : Fin cfg1.N) (p : Fin 2000) (r : Fin 50000) (hr : r.val = 2000 * t.val + p.val) :
    row (iblk1 (F := Ideal) V c 1 t : Arr2 2000 48) p = row (V c main_v1 : Arr2 50000 48) r := by
  obtain ⟨-, -, e0, e1, -⟩ := idx_band t
  funext k
  unfold row iblk1
  rw [View.read_apply]
  show V c main_v1 _ = V c main_v1 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 48 + 1 * k.val = k.val; rw [e1]; omega

/-- Row `p` of band `t` of the scalar aggregate. -/
theorem row_band2 (c : Dev nD) (t : Fin cfg1.N) (p : Fin 2000) (r : Fin 50000) (hr : r.val = 2000 * t.val + p.val) :
    row (iblk1 (F := Ideal) V c 2 t : Arr2 2000 128) p = row (V c main_v22 : Arr2 50000 128) r := by
  obtain ⟨-, -, -, -, e0, e1, -⟩ := idx_band t
  funext k
  unfold row iblk1
  rw [View.read_apply]
  show V c main_v22 _ = V c main_v22 _
  congr 1
  funext a
  apply Fin.ext
  match a with
  | ⟨0, _⟩ => show win1_2.index t (0 : Fin 2) * 2000 + 1 * p.val = r.val; rw [e0, hr]; omega
  | ⟨1, _⟩ => show win1_2.index t (1 : Fin 2) * 128 + 1 * k.val = k.val; rw [e1]; omega

/-- Row `p` of band `t` of the vector aggregate. -/
theorem row_band3 (c : Dev nD) (t : Fin cfg1.N) (p : Fin 2000) (r : Fin 50000) (hr : r.val = 2000 * t.val + p.val) :
    row (iblk1 (F := Ideal) V c 3 t : Arr2 2000 48) p = row (V c main_v28 : Arr2 50000 48) r := by
  obtain ⟨-, -, -, -, -, -, e0, e1, -⟩ := idx_band t
  funext k
  unfold row iblk1
  rw [View.read_apply]
  show V c main_v28 _ = V c main_v28 _
  congr 1
  funext a
  apply Fin.ext
  match a with
  | ⟨0, _⟩ => show win1_3.index t (0 : Fin 2) * 2000 + 1 * p.val = r.val; rw [e0, hr]; omega
  | ⟨1, _⟩ => show win1_3.index t (1 : Fin 2) * 48 + 1 * k.val = k.val; rw [e1]; omega

/-- The scale of the scalar normalisation is the whole array at every point. -/
theorem whole4 (c : Dev nD) (t : Fin cfg1.N) : (iblk1 (F := Ideal) V c 4 t : Arr1 128) = (V c main_arg5 : Arr1 128) := by
  obtain ⟨e, -⟩ := idx_whole t
  funext j
  unfold iblk1
  rw [View.read_apply]
  show V c main_arg5 _ = V c main_arg5 _
  congr 1
  funext a
  apply Fin.ext
  match a with
  | ⟨0, _⟩ => show win1_4.index t (0 : Fin 1) * 128 + 1 * (j 0).val = (j 0).val; rw [e]; omega

/-- The shift of the scalar normalisation. -/
theorem whole5 (c : Dev nD) (t : Fin cfg1.N) : (iblk1 (F := Ideal) V c 5 t : Arr1 128) = (V c main_arg6 : Arr1 128) := by
  obtain ⟨e4, e5, e6a, e6b, e7, e8a, e8b, e9, e10a, e10b, e11, e12a, e12b, e13, e14a, e14b⟩ := idx_whole t
  funext j
  unfold iblk1
  rw [View.read_apply]
  show V c main_arg6 _ = V c main_arg6 _
  congr 1
  funext a
  apply Fin.ext
  match a with
  | ⟨0, _⟩ => show win1_5.index t (0 : Fin 1) * 128 + 1 * (j 0).val = (j 0).val; rw [e5]; omega

/-- The weight of the gated scalar part. -/
theorem whole6 (c : Dev nD) (t : Fin cfg1.N) : (iblk1 (F := Ideal) V c 6 t : Arr2 128 128) = (V c main_v4 : Arr2 128 128) := by
  obtain ⟨e4, e5, e6a, e6b, e7, e8a, e8b, e9, e10a, e10b, e11, e12a, e12b, e13, e14a, e14b⟩ := idx_whole t
  funext j
  unfold iblk1
  rw [View.read_apply]
  show V c main_v4 _ = V c main_v4 _
  congr 1
  funext a
  apply Fin.ext
  match a with
  | ⟨0, _⟩ => show win1_6.index t (0 : Fin 2) * 128 + 1 * (j 0).val = (j 0).val; rw [e6a]; omega
  | ⟨1, _⟩ => show win1_6.index t (1 : Fin 2) * 128 + 1 * (j 1).val = (j 1).val; rw [e6b]; omega

/-- The bias of the gated scalar part. -/
theorem whole7 (c : Dev nD) (t : Fin cfg1.N) : (iblk1 (F := Ideal) V c 7 t : Arr1 128) = (V c main_arg12 : Arr1 128) := by
  obtain ⟨e4, e5, e6a, e6b, e7, e8a, e8b, e9, e10a, e10b, e11, e12a, e12b, e13, e14a, e14b⟩ := idx_whole t
  funext j
  unfold iblk1
  rw [View.read_apply]
  show V c main_arg12 _ = V c main_arg12 _
  congr 1
  funext a
  apply Fin.ext
  match a with
  | ⟨0, _⟩ => show win1_7.index t (0 : Fin 1) * 128 + 1 * (j 0).val = (j 0).val; rw [e7]; omega

/-- The weight of the gated vector part. -/
theorem whole8 (c : Dev nD) (t : Fin cfg1.N) : (iblk1 (F := Ideal) V c 8 t : Arr2 48 48) = (V c main_v5 : Arr2 48 48) := by
  obtain ⟨e4, e5, e6a, e6b, e7, e8a, e8b, e9, e10a, e10b, e11, e12a, e12b, e13, e14a, e14b⟩ := idx_whole t
  funext j
  unfold iblk1
  rw [View.read_apply]
  show V c main_v5 _ = V c main_v5 _
  congr 1
  funext a
  apply Fin.ext
  match a with
  | ⟨0, _⟩ => show win1_8.index t (0 : Fin 2) * 48 + 1 * (j 0).val = (j 0).val; rw [e8a]; omega
  | ⟨1, _⟩ => show win1_8.index t (1 : Fin 2) * 48 + 1 * (j 1).val = (j 1).val; rw [e8b]; omega

/-- The bias of the gated vector part. -/
theorem whole9 (c : Dev nD) (t : Fin cfg1.N) : (iblk1 (F := Ideal) V c 9 t : Arr1 48) = (V c main_arg14 : Arr1 48) := by
  obtain ⟨e4, e5, e6a, e6b, e7, e8a, e8b, e9, e10a, e10b, e11, e12a, e12b, e13, e14a, e14b⟩ := idx_whole t
  funext j
  unfold iblk1
  rw [View.read_apply]
  show V c main_arg14 _ = V c main_arg14 _
  congr 1
  funext a
  apply Fin.ext
  match a with
  | ⟨0, _⟩ => show win1_9.index t (0 : Fin 1) * 48 + 1 * (j 0).val = (j 0).val; rw [e9]; omega

/-- The weight of the scalar residual. -/
theorem whole10 (c : Dev nD) (t : Fin cfg1.N) : (iblk1 (F := Ideal) V c 10 t : Arr2 128 128) = (V c main_v6 : Arr2 128 128) := by
  obtain ⟨e4, e5, e6a, e6b, e7, e8a, e8b, e9, e10a, e10b, e11, e12a, e12b, e13, e14a, e14b⟩ := idx_whole t
  funext j
  unfold iblk1
  rw [View.read_apply]
  show V c main_v6 _ = V c main_v6 _
  congr 1
  funext a
  apply Fin.ext
  match a with
  | ⟨0, _⟩ => show win1_10.index t (0 : Fin 2) * 128 + 1 * (j 0).val = (j 0).val; rw [e10a]; omega
  | ⟨1, _⟩ => show win1_10.index t (1 : Fin 2) * 128 + 1 * (j 1).val = (j 1).val; rw [e10b]; omega

/-- The bias of the scalar residual. -/
theorem whole11 (c : Dev nD) (t : Fin cfg1.N) : (iblk1 (F := Ideal) V c 11 t : Arr1 128) = (V c main_arg16 : Arr1 128) := by
  obtain ⟨e4, e5, e6a, e6b, e7, e8a, e8b, e9, e10a, e10b, e11, e12a, e12b, e13, e14a, e14b⟩ := idx_whole t
  funext j
  unfold iblk1
  rw [View.read_apply]
  show V c main_arg16 _ = V c main_arg16 _
  congr 1
  funext a
  apply Fin.ext
  match a with
  | ⟨0, _⟩ => show win1_11.index t (0 : Fin 1) * 128 + 1 * (j 0).val = (j 0).val; rw [e11]; omega

/-- The weight of the vector residual. -/
theorem whole12 (c : Dev nD) (t : Fin cfg1.N) : (iblk1 (F := Ideal) V c 12 t : Arr2 48 48) = (V c main_v7 : Arr2 48 48) := by
  obtain ⟨e4, e5, e6a, e6b, e7, e8a, e8b, e9, e10a, e10b, e11, e12a, e12b, e13, e14a, e14b⟩ := idx_whole t
  funext j
  unfold iblk1
  rw [View.read_apply]
  show V c main_v7 _ = V c main_v7 _
  congr 1
  funext a
  apply Fin.ext
  match a with
  | ⟨0, _⟩ => show win1_12.index t (0 : Fin 2) * 48 + 1 * (j 0).val = (j 0).val; rw [e12a]; omega
  | ⟨1, _⟩ => show win1_12.index t (1 : Fin 2) * 48 + 1 * (j 1).val = (j 1).val; rw [e12b]; omega

/-- The bias of the vector residual. -/
theorem whole13 (c : Dev nD) (t : Fin cfg1.N) : (iblk1 (F := Ideal) V c 13 t : Arr1 48) = (V c main_arg18 : Arr1 48) := by
  obtain ⟨e4, e5, e6a, e6b, e7, e8a, e8b, e9, e10a, e10b, e11, e12a, e12b, e13, e14a, e14b⟩ := idx_whole t
  funext j
  unfold iblk1
  rw [View.read_apply]
  show V c main_arg18 _ = V c main_arg18 _
  congr 1
  funext a
  apply Fin.ext
  match a with
  | ⟨0, _⟩ => show win1_13.index t (0 : Fin 1) * 48 + 1 * (j 0).val = (j 0).val; rw [e13]; omega

/-- The 16 x 48 table. -/
theorem whole14 (c : Dev nD) (t : Fin cfg1.N) : (iblk1 (F := Ideal) V c 14 t : Arr2 16 48) = (V c main_cst : Arr2 16 48) := by
  obtain ⟨e4, e5, e6a, e6b, e7, e8a, e8b, e9, e10a, e10b, e11, e12a, e12b, e13, e14a, e14b⟩ := idx_whole t
  funext j
  unfold iblk1
  rw [View.read_apply]
  show V c main_cst _ = V c main_cst _
  congr 1
  funext a
  apply Fin.ext
  match a with
  | ⟨0, _⟩ => show win1_14.index t (0 : Fin 2) * 16 + 1 * (j 0).val = (j 0).val; rw [e14a]; omega
  | ⟨1, _⟩ => show win1_14.index t (1 : Fin 2) * 48 + 1 * (j 1).val = (j 1).val; rw [e14b]; omega

/-- The scalar output as ONE function of the arrays the launch is entered with: row `n` is the scalar node update of row `n`. -/
def outS (c : Dev nD) : S50000x128.Idx → EReal := fun i =>
  nodeS (lnorm (row (V c main_arg0 : Arr2 50000 128) (i 0)) (V c main_arg5 : Arr1 128) (V c main_arg6 : Arr1 128))
    (row (V c main_v22 : Arr2 50000 128) (i 0))
    (V c main_v4 : Arr2 128 128) (V c main_arg12 : Arr1 128) (V c main_v6 : Arr2 128 128) (V c main_arg16 : Arr1 128) (i 1)

theorem lt25 (t : Fin cfg1.N) : t.val < 25 := lt_of_lt_of_eq t.isLt (show cfg1.N = 25 from N_1)

/-- What the body leaves in the scalar output's buffer at point `t` is band `t` of `outS`: entry `(p, q)` of the buffer
    is entry `(2000 t + p, q)` of the array, and the node update of a row reads that row of each banded input. -/
theorem blk15 (c : Dev nD) (t : Fin cfg1.N) (j : S2000x128.Idx) :
    out1_15 (F := Ideal) (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t) (iblk1 V c 13 t) (iblk1 V c 14 t) j
      = outS V c (((cfg1.win 15).blk t).view.emb j) := by
  obtain ⟨p, q, rfl⟩ : ∃ (p : Fin 2000) (q : Fin 128), j = ix2 p q := ⟨j 0, j 1, eq_ix2 j⟩
  have ht : t.val < 25 := lt25 t
  obtain ⟨r, hr⟩ : ∃ r : Fin 50000, r.val = 2000 * t.val + p.val := ⟨⟨2000 * t.val + p.val, by have := p.isLt; omega⟩, rfl⟩
  obtain ⟨-, -, -, -, -, -, -, -, e0, e1, -⟩ := idx_band t
  have hemb : ((cfg1.win 15).blk t).view.emb (ix2 p q) = (ix2 r q : S50000x128.Idx) := by
    funext a
    apply Fin.ext
    match a with
    | ⟨0, _⟩ => show win1_15.index t (0 : Fin 2) * 2000 + 1 * p.val = r.val; rw [e0, hr]; omega
    | ⟨1, _⟩ => show win1_15.index t (1 : Fin 2) * 128 + 1 * q.val = q.val; rw [e1]; omega
  refine (out15_apply (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t) (iblk1 V c 13 t) (iblk1 V c 14 t) p q).trans ?_
  rw [hemb, row_band0 V c t p r hr, row_band2 V c t p r hr, whole4 V c t, whole5 V c t, whole6 V c t, whole7 V c t, whole10 V c t, whole11 V c t]
  rfl

/-- WHAT POINT `t` WRITES BACK to the scalar output is band `t` of `outS`. -/
theorem flushed15_eq (c : Dev nD) (t : Fin cfg1.N) :
    (dat1 (F := Ideal) V c).flushed 15 t = ((cfg1.win 15).blk t).view.read (Elt Ideal) (outS V c) := by
  show (cfg1.win 15).cut (grid1.coords t) ((dat1 (F := Ideal) V c).after 15 t) = _
  rw [after1_15]
  funext j
  exact blk15 V c t j

/-- An index of the scalar output is in point `t`'s block iff each coordinate is in the block's range on its axis. -/
theorem mem_blk15 (t : Fin cfg1.N) (i : S50000x128.Idx) :
    i ∈ ((cfg1.win 15).blk t).view.set ↔ ∀ a : Fin 2, win1_15.index t a * S2000x128.size a ≤ (i a).val ∧ (i a).val < win1_15.index t a * S2000x128.size a + S2000x128.size a := by
  show i ∈ ((View.whole main_v29_0).slice (win1_15.rect t)).set ↔ _
  rw [View.set_slice_whole, Rect.mem_set_unit]
  exact Iff.rfl

/-- Every row lies in band `row / 2000`. -/
theorem cover15 (i : S50000x128.Idx) : ∃ t : Fin cfg1.N, (cfg1.win 15).flush t = true ∧ i ∈ ((cfg1.win 15).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, e0, e1, -⟩ := idx_band t
  refine ⟨t, flush1_15 t, ?_⟩
  rw [mem_blk15]
  intro a
  match a with
  | ⟨0, _⟩ => show win1_15.index t (0 : Fin 2) * 2000 ≤ (i 0).val ∧ (i 0).val < win1_15.index t (0 : Fin 2) * 2000 + 2000; rw [e0, ht]; omega
  | ⟨1, _⟩ => show win1_15.index t (1 : Fin 2) * 128 ≤ (i 1).val ∧ (i 1).val < win1_15.index t (1 : Fin 2) * 128 + 128; rw [e1]; omega

/-- The scalar output array after the launch: row `n` is the scalar node update of row `n`. -/
theorem node_s (c : Dev nD) :
    (dat1 (F := Ideal) V c).arrAt 15 cfg1.N = fun i : S50000x128.Idx =>
      nodeS (lnorm (row (V c main_arg0 : Arr2 50000 128) (i 0)) (V c main_arg5 : Arr1 128) (V c main_arg6 : Arr1 128))
        (row (V c main_v22 : Arr2 50000 128) (i 0))
        (V c main_v4 : Arr2 128 128) (V c main_arg12 : Arr1 128) (V c main_v6 : Arr2 128 128) (V c main_arg16 : Arr1 128) (i 1) :=
  (dat1 (F := Ideal) V c).arrAt_eq_of_cover 15 (outS V c) (fun t _ => flushed15_eq V c t) cover15

/-- The vector output as ONE function of the arrays the launch is entered with: row `n` is the vector node update of row `n`. -/
def outV (c : Dev nD) : S50000x48.Idx → EReal := fun i =>
  nodeV (nodeG (lnorm (row (V c main_arg0 : Arr2 50000 128) (i 0)) (V c main_arg5 : Arr1 128) (V c main_arg6 : Arr1 128))
      (row (V c main_v22 : Arr2 50000 128) (i 0)) (V c main_v4 : Arr2 128 128) (V c main_arg12 : Arr1 128))
    (vnormed (row (V c main_v1 : Arr2 50000 48) (i 0))) (row (V c main_v28 : Arr2 50000 48) (i 0))
    (V c main_v5 : Arr2 48 48) (V c main_arg14 : Arr1 48) (V c main_v7 : Arr2 48 48) (V c main_arg18 : Arr1 48) (i 1)

/-- What the body leaves in the vector output's buffer at point `t` is band `t` of `outV`, when the table holds a one
    exactly where column `j` belongs to channel `a`. -/
theorem blk16 (c : Dev nD)
    (hR : ∀ (a : Fin 16) (j : Fin 48), (V c main_cst : Arr2 16 48) (ix2 a j) = if j.val / 3 = a.val then (1 : EReal) else 0)
    (t : Fin cfg1.N) (j : S2000x48.Idx) :
    out1_16 (F := Ideal) (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t) (iblk1 V c 13 t) (iblk1 V c 14 t) j
      = outV V c (((cfg1.win 16).blk t).view.emb j) := by
  obtain ⟨p, q, rfl⟩ : ∃ (p : Fin 2000) (q : Fin 48), j = ix2 p q := ⟨j 0, j 1, eq_ix2 j⟩
  have ht : t.val < 25 := lt25 t
  obtain ⟨r, hr⟩ : ∃ r : Fin 50000, r.val = 2000 * t.val + p.val := ⟨⟨2000 * t.val + p.val, by have := p.isLt; omega⟩, rfl⟩
  obtain ⟨-, -, -, -, -, -, -, -, -, -, e0, e1⟩ := idx_band t
  have hemb : ((cfg1.win 16).blk t).view.emb (ix2 p q) = (ix2 r q : S50000x48.Idx) := by
    funext a
    apply Fin.ext
    match a with
    | ⟨0, _⟩ => show win1_16.index t (0 : Fin 2) * 2000 + 1 * p.val = r.val; rw [e0, hr]; omega
    | ⟨1, _⟩ => show win1_16.index t (1 : Fin 2) * 48 + 1 * q.val = q.val; rw [e1]; omega
  have hR' : ∀ (a : Fin 16) (j : Fin 48), (iblk1 (F := Ideal) V c 14 t : Arr2 16 48) (ix2 a j) = if j.val / 3 = a.val then (1 : EReal) else 0 :=
    fun a j => (congrFun (whole14 V c t) (ix2 a j)).trans (hR a j)
  refine (out16_apply (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t) (iblk1 V c 13 t) (iblk1 V c 14 t) hR' p q).trans ?_
  rw [hemb, row_band0 V c t p r hr, row_band1 V c t p r hr, row_band2 V c t p r hr, row_band3 V c t p r hr, whole4 V c t, whole5 V c t,
    whole6 V c t, whole7 V c t, whole8 V c t, whole9 V c t, whole12 V c t, whole13 V c t]
  rfl

/-- WHAT POINT `t` WRITES BACK to the vector output is band `t` of `outV`. -/
theorem flushed16_eq (c : Dev nD)
    (hR : ∀ (a : Fin 16) (j : Fin 48), (V c main_cst : Arr2 16 48) (ix2 a j) = if j.val / 3 = a.val then (1 : EReal) else 0)
    (t : Fin cfg1.N) :
    (dat1 (F := Ideal) V c).flushed 16 t = ((cfg1.win 16).blk t).view.read (Elt Ideal) (outV V c) := by
  show (cfg1.win 16).cut (grid1.coords t) ((dat1 (F := Ideal) V c).after 16 t) = _
  rw [after1_16]
  funext j
  exact blk16 V c hR t j

/-- An index of the vector output is in point `t`'s block iff each coordinate is in the block's range on its axis. -/
theorem mem_blk16 (t : Fin cfg1.N) (i : S50000x48.Idx) :
    i ∈ ((cfg1.win 16).blk t).view.set ↔ ∀ a : Fin 2, win1_16.index t a * S2000x48.size a ≤ (i a).val ∧ (i a).val < win1_16.index t a * S2000x48.size a + S2000x48.size a := by
  show i ∈ ((View.whole main_v29_1).slice (win1_16.rect t)).set ↔ _
  rw [View.set_slice_whole, Rect.mem_set_unit]
  exact Iff.rfl

/-- Every row lies in band `row / 2000`. -/
theorem cover16 (i : S50000x48.Idx) : ∃ t : Fin cfg1.N, (cfg1.win 16).flush t = true ∧ i ∈ ((cfg1.win 16).blk t).view.set := by
  have hi0 : (i 0).val < 50000 := (i 0).isLt
  have hi1 : (i 1).val < 48 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, -, e0, e1⟩ := idx_band t
  refine ⟨t, flush1_16 t, ?_⟩
  rw [mem_blk16]
  intro a
  match a with
  | ⟨0, _⟩ => show win1_16.index t (0 : Fin 2) * 2000 ≤ (i 0).val ∧ (i 0).val < win1_16.index t (0 : Fin 2) * 2000 + 2000; rw [e0, ht]; omega
  | ⟨1, _⟩ => show win1_16.index t (1 : Fin 2) * 48 ≤ (i 1).val ∧ (i 1).val < win1_16.index t (1 : Fin 2) * 48 + 48; rw [e1]; omega

/-- The vector output array after the launch, when the 16 x 48 table operand holds a one exactly where column `j`
    belongs to channel `a` (`j / 3 = a`) and a zero elsewhere: row `n` is the vector node update of row `n`. -/
theorem node_v (c : Dev nD)
    (hR : ∀ (a : Fin 16) (j : Fin 48), (V c main_cst : Arr2 16 48) (ix2 a j) = if j.val / 3 = a.val then (1 : EReal) else 0) :
    (dat1 (F := Ideal) V c).arrAt 16 cfg1.N = fun i : S50000x48.Idx =>
      nodeV (nodeG (lnorm (row (V c main_arg0 : Arr2 50000 128) (i 0)) (V c main_arg5 : Arr1 128) (V c main_arg6 : Arr1 128))
          (row (V c main_v22 : Arr2 50000 128) (i 0)) (V c main_v4 : Arr2 128 128) (V c main_arg12 : Arr1 128))
        (vnormed (row (V c main_v1 : Arr2 50000 48) (i 0))) (row (V c main_v28 : Arr2 50000 48) (i 0))
        (V c main_v5 : Arr2 48 48) (V c main_arg14 : Arr1 48) (V c main_v7 : Arr2 48 48) (V c main_arg18 : Arr1 48) (i 1) :=
  (dat1 (F := Ideal) V c).arrAt_eq_of_cover 16 (outV V c) (fun t _ => flushed16_eq V c hR t) cover16

end Cert.KernelIdeal.NodeValue

end
-- ==== Proof.LibPlaneSum.lean ====
/-
  A rank-4 array [A, B, H, W] summed over its last two axes, and the logistic function spelt with words.

  * The indices of [A, B, H, W] whose first two coordinates are (a, b) are the H · W positions of one plane; numbered
    k = W · h + w they are h = k / W, w = k % W. A sum over that set of indices — what a reduction over the axes
    [2, 3] computes at (a, b), in any commutative additive monoid — is the sum over k : Fin (H · W) of the array at
    position k of the plane. The same numbering is the row-major re-laying [A, B, H, W] → [A, B, H · W].
  * The f32 word of 1.0 is the extended real 1, and 1 / (1 + exp (-x)) spelt with that word is the logistic function.
-/
import Idealize.ShloMosaic.PureOps.Ideal
import Idealize.ShloMosaic.PureOps.Ideal.Laws
import Idealize.ShloMosaic.Lib.ValueIdx

noncomputable section

namespace Cert.LibPlaneSum

open Idealize.ShloMosaic Idealize.ShloMosaic.ValueIdx

/-- Position k of the plane of (a, b): row k / W, column k % W. -/
def planeIdx {A B H W : ℕ} (a : Fin A) (b : Fin B) (k : Fin (H * W)) : (⟨4, ![A, B, H, W]⟩ : Shape).Idx :=
  have hW : 0 < W := Nat.pos_of_ne_zero fun h => by
    have hpos : 0 < H * W := Nat.lt_of_le_of_lt (Nat.zero_le _) k.isLt
    rw [h, Nat.mul_zero] at hpos; exact Nat.lt_irrefl _ hpos
  ix4 a b (⟨k.val / W, (Nat.div_lt_iff_lt_mul hW).mpr k.isLt⟩ : Fin H) (⟨k.val % W, Nat.mod_lt _ hW⟩ : Fin W)

theorem planeIdx_val0 {A B H W : ℕ} (a : Fin A) (b : Fin B) (k : Fin (H * W)) : (planeIdx a b k 0).val = a.val := rfl
theorem planeIdx_val1 {A B H W : ℕ} (a : Fin A) (b : Fin B) (k : Fin (H * W)) : (planeIdx a b k 1).val = b.val := rfl
theorem planeIdx_val2 {A B H W : ℕ} (a : Fin A) (b : Fin B) (k : Fin (H * W)) : (planeIdx a b k 2).val = k.val / W := rfl
theorem planeIdx_val3 {A B H W : ℕ} (a : Fin A) (b : Fin B) (k : Fin (H * W)) : (planeIdx a b k 3).val = k.val % W := rfl

/-- Position W · h + w of the plane is (h, w). -/
theorem pos_lt {H W : ℕ} (h : Fin H) (w : Fin W) : h.val * W + w.val < H * W := by
  have hh : h.val + 1 ≤ H := h.isLt
  calc h.val * W + w.val < h.val * W + W := Nat.add_lt_add_left w.isLt _
    _ = (h.val + 1) * W := (Nat.succ_mul _ _).symm
    _ ≤ H * W := Nat.mul_le_mul_right _ hh

theorem planeIdx_pos {A B H W : ℕ} (a : Fin A) (b : Fin B) (h : Fin H) (w : Fin W) :
    planeIdx a b (⟨h.val * W + w.val, pos_lt h w⟩ : Fin (H * W)) = ix4 a b h w := by
  have hW : 0 < W := Nat.lt_of_le_of_lt (Nat.zero_le _) w.isLt
  refine funext fun d => Fin.ext ?_
  match d with
  | ⟨0, _⟩ => rfl
  | ⟨1, _⟩ => rfl
  | ⟨2, _⟩ =>
    show (h.val * W + w.val) / W = h.val
    rw [Nat.mul_comm, Nat.mul_add_div hW, Nat.div_eq_of_lt w.isLt, Nat.add_zero]
  | ⟨3, _⟩ =>
    show (h.val * W + w.val) % W = w.val
    rw [Nat.mul_comm, Nat.mul_add_mod, Nat.mod_eq_of_lt w.isLt]

/-- A sum over the indices that a map keeping the first two coordinates sends to j is the sum over the plane of
    (j 0, j 1). `drop` is a reduction's index map over the axes [2, 3]. -/
theorem sum_plane {M : Type*} [AddCommMonoid M] {A B H W : ℕ} (X : (⟨4, ![A, B, H, W]⟩ : Shape).Idx → M)
    (drop : (⟨4, ![A, B, H, W]⟩ : Shape).Idx → (⟨2, ![A, B]⟩ : Shape).Idx)
    (h0 : ∀ i, (drop i 0).val = (i 0).val) (h1 : ∀ i, (drop i 1).val = (i 1).val)
    (j : (⟨2, ![A, B]⟩ : Shape).Idx) :
    ∑ i ∈ Finset.univ.filter (fun i => drop i = j), X i = ∑ k : Fin (H * W), X (planeIdx (j 0) (j 1) k) := by
  symm
  refine Finset.sum_bij (fun k _ => planeIdx (j 0) (j 1) k) (fun k _ => ?_) (fun k _ k' _ hk => ?_) (fun i hi => ?_)
    (fun _ _ => rfl)
  · refine Finset.mem_filter.mpr ⟨Finset.mem_univ _, funext fun d => Fin.ext ?_⟩
    match d with
    | ⟨0, _⟩ => exact h0 _
    | ⟨1, _⟩ => exact h1 _
  · have e2 : k.val / W = k'.val / W := congrArg (fun i => (i 2).val) hk
    have e3 : k.val % W = k'.val % W := congrArg (fun i => (i 3).val) hk
    refine Fin.ext ?_
    rw [← Nat.div_add_mod k.val W, ← Nat.div_add_mod k'.val W, e2, e3]
  · have hj : drop i = j := (Finset.mem_filter.mp hi).2
    have e0 : (j 0).val = (i 0).val := by rw [← hj]; exact h0 i
    have e1 : (j 1).val = (i 1).val := by rw [← hj]; exact h1 i
    have hi2 : i 2 = (⟨(i 2).val, (i 2).isLt⟩ : Fin H) := rfl
    refine ⟨(⟨(i 2).val * W + (i 3).val, pos_lt (⟨(i 2).val, (i 2).isLt⟩ : Fin H) (⟨(i 3).val, (i 3).isLt⟩ : Fin W)⟩ : Fin (H * W)),
      Finset.mem_univ _, ?_⟩
    refine (planeIdx_pos (j 0) (j 1) (⟨(i 2).val, (i 2).isLt⟩ : Fin H) (⟨(i 3).val, (i 3).isLt⟩ : Fin W)).trans
      (funext fun d => Fin.ext ?_)
    match d with
    | ⟨0, _⟩ => exact e0
    | ⟨1, _⟩ => exact e1
    | ⟨2, _⟩ => rfl
    | ⟨3, _⟩ => rfl

/-- The word of 1.0 is the extended real 1. -/
theorem ofBits_one_f32 : Ideal.ofBits .f32 0x3F800000#32 = 1 := by
  simp [Ideal.ofBits, Ideal.ieee, -EReal.coe_mul]; norm_num

/-- The logistic function spelt with the word of 1.0 for both ones, 1 / (1 + exp (-x)), is the logistic function. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.LibPlaneSum

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.RefValue.lean ====
/-
  The reference program's stages as the layer of Spec.lean, at the ideal values.

  The reference computes the same layer with whole-array host operations and keeps the vector channels in the
  [*, 16, 3] layout: flattened position `3 a + d` of a row is entry `(a, d)`. Its sigmoid is spelt
  `1 / (1 + exp (-x))`, which is the logistic function; its means divide by the words of 128 and of 16, the latter
  the same as multiplying by the word of 1/16; a sum over 16 channels of sums over 3 coordinates is the sum over the
  48 flattened coordinates. The two aggregates enter the node update as given arrays.
-/
import proofs.«150730_j75419625718340_1_alg».proof.Proof.Gen.ReferenceIdeal.Read
import proofs.«150730_j75419625718340_1_alg».proof.Proof.Spec
import proofs.«150730_j75419625718340_1_alg».proof.Proof.LibDense
import proofs.«150730_j75419625718340_1_alg».proof.Proof.LibPlaneSum
import proofs.«150730_j75419625718340_1_alg».proof.Proof.LibSumBlocks
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.Read Cert.Gvp

variable (x0 : Arr2 50000 128) (x1 : Arr3 50000 16 3) (x2 : (⟨S2x800000, .i32⟩ : BufTy).Contents (Elt Ideal))
  (x3 : Arr2 800000 32) (x4 : Arr3 800000 1 3) (x5 x6 : Arr1 128) (x7 : Arr2 128 32) (x8 : Arr1 128) (x9 : Arr2 48 3) (x10 : Arr1 48)
  (x11 : Arr2 128 128) (x12 : Arr1 128) (x13 : Arr2 48 48) (x14 : Arr1 48) (x15 : Arr2 128 128) (x16 : Arr1 128)
  (x17 : Arr2 48 48) (x18 : Arr1 48)

/-! ## The specification's functions, unfolded one step -/

/-- Entry `k` of row `r`. -/
theorem row_apply {n K : ℕ} (x : Arr2 n K) (r : Fin n) (k : Fin K) : row x r k = x (ix2 r k) := rfl

/-- A dense row: the sum of products plus the bias. -/
theorem linRow_eq {K d : ℕ} (x : Fin K → EReal) (w : Arr2 K d) (b : Arr1 d) (j : Fin d) :
    linRow x w b j = (∑ k : Fin K, x k * w (ix2 k j)) + b (ix1 j) := rfl

theorem nodeG_eq (sn ag : Fin 128 → EReal) (w : Arr2 128 128) (b : Arr1 128) (j : Fin 128) :
    nodeG sn ag w b j = silu (linRow (fun k => sn k + ag k) w b j) := rfl

theorem nodeS_eq (sn ag : Fin 128 → EReal) (w : Arr2 128 128) (b : Arr1 128) (wr : Arr2 128 128) (br : Arr1 128)
    (j : Fin 128) : nodeS sn ag w b wr br j = nodeG sn ag w b j + linRow sn wr br j := rfl

theorem nodeV_eq (sg : Fin 128 → EReal) (vn ag : Fin 48 → EReal) (w : Arr2 48 48) (b : Arr1 48) (wr : Arr2 48 48)
    (br : Arr1 48) (j : Fin 48) : nodeV sg vn ag w b wr br j
      = linRow (fun k => vn k + ag k) w b j * Ideal.logistic (sg (gcol j)) + linRow vn wr br j := rfl

/-! ## Small facts used by every stage -/

/-- `x · (1 / (1 + exp (-x)))`, both ones spelt by the word of 1.0, is `silu x`. -/
theorem silu_spelt (y : EReal) :
    y * Ideal.div (Ideal.ofBits .f32 0x3F800000#32) (Ideal.ofBits .f32 0x3F800000#32 + Ideal.exp (-y)) = silu y := by
  rw [LibPlaneSum.logistic_spelt]; rfl

/-! ## The edges' scalar messages -/

/-- The edge dense layer: row `i 0` of the scalar edge features against the transposed weight, plus the bias. -/
theorem edge_lin (i : S800000x128.Idx) : val_main_v40 (F := Ideal) x3 x7 x8 i
    = linRow (row x3 (i 0)) (val_main_v36 (F := Ideal) x7 : Arr2 32 128) x8 (i 1) := by
  rw [val_main_v40_apply, val_main_v37_apply, val_main_v39_apply, val_main_v38_apply]
  have el : ∀ k : Fin 32, lidx_main_v37 i k = ix2 (i 0) k := fun k =>
    funext fun a => Fin.ext (by match a with | ⟨0, _⟩ => rfl | ⟨1, _⟩ => rfl)
  have er : ∀ k : Fin 32, ridx_main_v37 i k = ix2 k (i 1) := fun k =>
    funext fun a => Fin.ext (by match a with | ⟨0, _⟩ => rfl | ⟨1, _⟩ => rfl)
  have eb : idx_main_v38 (idx_main_v39 i) = ix1 (i 1) :=
    funext fun a => Fin.ext (by match a with | ⟨0, _⟩ => rfl)
  simp only [el, er, eb, Ideal.addf_def]
  rfl

/-! ## The edges' vector messages -/

/-- The edge vector dense layer at flattened position `j`: the three coordinates of edge `e` against the transposed
    weight, plus the bias. -/
theorem edge_vlin (e : Fin 800000) (j : Fin 48) : val_main_v47 (F := Ideal) x4 x9 x10 (ix2 e j)
    = linRow (row13 x4 e) (val_main_v43 (F := Ideal) x9 : Arr2 3 48) x10 j := by
  rw [val_main_v47_apply, val_main_v44_apply, val_main_v46_apply, val_main_v45_apply]
  have el : ∀ k : Fin 3, idx_main_v42 (lidx_main_v44 (ix2 e j) k) = ix3 e 0 k := fun k =>
    funext fun a => Fin.ext (by
      have hk := k.isLt
      match a with
      | ⟨0, _⟩ => show (e.val * 3 + k.val) / 3 = e.val; omega
      | ⟨1, _⟩ => rfl
      | ⟨2, _⟩ => show (e.val * 3 + k.val) % 3 = k.val; omega)
  have er : ∀ k : Fin 3, ridx_main_v44 (ix2 e j) k = ix2 k j := fun k =>
    funext fun a => Fin.ext (by match a with | ⟨0, _⟩ => rfl | ⟨1, _⟩ => rfl)
  have eb : idx_main_v45 (idx_main_v46 (ix2 e j)) = ix1 j :=
    funext fun a => Fin.ext (by match a with | ⟨0, _⟩ => rfl)
  simp only [val_main_v42_apply, el, er, eb, Ideal.addf_def]
  rfl

/-- The edge gate: the logistic of the scalar message's channel `a`, one of the first sixteen. -/
theorem edge_gate (e : Fin 800000) (a : Fin 16) : val_main_v55 (F := Ideal) x3 x7 x8 (ix2 e a)
    = Ideal.logistic (val_main_v41 (F := Ideal) x3 x7 x8 (ix2 e (⟨a.val, by have := a.isLt; omega⟩ : Fin 128))) := by
  rw [val_main_v55_apply, val_main_v54_apply, val_main_cst_9_apply, val_main_v53_apply, val_main_v52_apply,
    val_main_cst_8_apply, val_main_v51_apply, val_main_v50_apply, val_main_v49_apply]
  have es : idx_main_v49 (ix2 e a) = ix2 e (⟨a.val, by have := a.isLt; omega⟩ : Fin 128) :=
    funext fun b => Fin.ext (by match b with | ⟨0, _⟩ => rfl | ⟨1, _⟩ => rfl)
  simp only [es, Ideal.hostDivf_def, Ideal.addf_def, Ideal.hostUnary_exp_def, Ideal.hostNegf_def, Ideal.negf_def,
    Ideal.ofBits_def]
  exact LibPlaneSum.logistic_spelt _

/-! ## The scalar normalisation of a node row -/

/-- The mean of row `n`, broadcast along the row (its first use). -/
theorem ln_mean (n : Fin 50000) (j : Fin 128) : val_main_v4 (F := Ideal) x0 (ix2 n j) = mean128 (row x0 n) := by
  rw [val_main_v4_apply, val_main_v3_apply, val_main_v1_apply, val_main_v0_apply, val_main_cst_apply,
    val_main_v2_apply, val_main_cst_0_apply]
  have e : ∀ k : Fin 128, idx_main_v0 (idx_main_v1 (idx_main_v4 (ix2 n j))) k = ix2 n k := fun k =>
    funext fun a => Fin.ext (by match a with | ⟨0, _⟩ => rfl | ⟨1, _⟩ => rfl)
  simp only [e, Ideal.hostDivf_def, Ideal.ofBits_def, Ideal.ofBits_zero_f32, zero_add]
  rfl

/-- The mean of row `n`, broadcast along the row (its second use). -/
theorem ln_mean' (n : Fin 50000) (j : Fin 128) : val_main_v11 (F := Ideal) x0 (ix2 n j) = mean128 (row x0 n) := by
  rw [val_main_v11_apply, val_main_v3_apply, val_main_v1_apply, val_main_v0_apply, val_main_cst_apply,
    val_main_v2_apply, val_main_cst_0_apply]
  have e : ∀ k : Fin 128, idx_main_v0 (idx_main_v1 (idx_main_v11 (ix2 n j))) k = ix2 n k := fun k =>
    funext fun a => Fin.ext (by match a with | ⟨0, _⟩ => rfl | ⟨1, _⟩ => rfl)
  simp only [e, Ideal.hostDivf_def, Ideal.ofBits_def, Ideal.ofBits_zero_f32, zero_add]
  rfl

/-- The reciprocal root of the variance of row `n` plus the small word, broadcast along the row. -/
theorem ln_rstd (n : Fin 50000) (j : Fin 128) : val_main_v16 (F := Ideal) x0 (ix2 n j)
    = Ideal.rsqrt (mean128 (fun k => (row x0 n k - mean128 (row x0 n)) * (row x0 n k - mean128 (row x0 n)))
        + Ideal.ofBits .f32 0x3727C5AC#32) := by
  rw [val_main_v16_apply, val_main_v15_apply, val_main_v14_apply, val_main_v10_apply, val_main_v8_apply,
    val_main_v7_apply, val_main_cst_1_apply, val_main_v9_apply, val_main_cst_2_apply, val_main_v13_apply,
    val_main_cst_3_apply]
  have e : ∀ k : Fin 128, idx_main_v7 (idx_main_v8 (idx_main_v16 (ix2 n j))) k = ix2 n k := fun k =>
    funext fun a => Fin.ext (by match a with | ⟨0, _⟩ => rfl | ⟨1, _⟩ => rfl)
  simp only [e, val_main_v6_apply, val_main_v5_apply, ln_mean, Ideal.hostDivf_def, Ideal.ofBits_def,
    Ideal.ofBits_zero_f32, zero_add, Ideal.addf_def, Ideal.mulf_def, Ideal.subf_def, Ideal.hostUnary_rsqrt_def]
  rfl

/-- The normalised scalar row of node `n` at channel `j`. -/
theorem ln_row (n : Fin 50000) (j : Fin 128) :
    val_main_v23 (F := Ideal) x0 x5 x6 (ix2 n j) = lnorm (row x0 n) x5 x6 j := by
  rw [val_main_v23_apply, val_main_v20_apply, val_main_v17_apply, val_main_v12_apply, ln_mean', ln_rstd,
    val_main_v19_apply, val_main_v18_apply, val_main_v22_apply, val_main_v21_apply]
  have eg : idx_main_v18 (idx_main_v19 (ix2 n j)) = ix1 j :=
    funext fun a => Fin.ext (by match a with | ⟨0, _⟩ => rfl)
  have eb : idx_main_v21 (idx_main_v22 (ix2 n j)) = ix1 j :=
    funext fun a => Fin.ext (by match a with | ⟨0, _⟩ => rfl)
  simp only [eg, eb, Ideal.addf_def, Ideal.mulf_def, Ideal.subf_def]
  rfl

/-! ## The scalar part of the node update -/

/-! ## The scalar part of the node update -/

/-- The dense layer of the gated part: the normalised row plus the scalar aggregate, against the transposed weight,
    plus the bias. -/
theorem node_glin (n : Fin 50000) (j : Fin 128) :
    val_main_v85 (F := Ideal) x0 x2 x3 x5 x6 x7 x8 x11 x12 (ix2 n j)
      = linRow (fun k => lnorm (row x0 n) x5 x6 k + row (val_main_v72 (F := Ideal) x2 x3 x7 x8 : Arr2 50000 128) n k)
          (val_main_v81 (F := Ideal) x11 : Arr2 128 128) x12 j := by
  rw [val_main_v85_apply, val_main_v82_apply, val_main_v84_apply, val_main_v83_apply]
  simp only [val_main_v79_apply]
  generalize val_main_v72 (F := Ideal) x2 x3 x7 x8 = ag
  have el : ∀ k : Fin 128, lidx_main_v82 (ix2 n j) k = ix2 n k := fun k =>
    funext fun a => Fin.ext (by match a with | ⟨0, _⟩ => rfl | ⟨1, _⟩ => rfl)
  have er : ∀ k : Fin 128, ridx_main_v82 (ix2 n j) k = ix2 k j := fun k =>
    funext fun a => Fin.ext (by match a with | ⟨0, _⟩ => rfl | ⟨1, _⟩ => rfl)
  have eb : idx_main_v83 (idx_main_v84 (ix2 n j)) = ix1 j :=
    funext fun a => Fin.ext (by match a with | ⟨0, _⟩ => rfl)
  simp only [el, er, eb, ln_row, Ideal.addf_def]
  refine congrArg (· + x12 (ix1 j)) ?_
  refine Finset.sum_congr rfl fun k _ => ?_
  refine congrArg (· * val_main_v81 (F := Ideal) x11 (ix2 k j)) ?_
  refine congrArg (lnorm (row x0 n) x5 x6 k + ·) ?_
  exact (row_apply (ag : Arr2 50000 128) n k).symm

/-- The gated scalar part: silu of that dense layer. -/
theorem node_g (n : Fin 50000) (j : Fin 128) :
    val_main_v86 (F := Ideal) x0 x2 x3 x5 x6 x7 x8 x11 x12 (ix2 n j)
      = nodeG (lnorm (row x0 n) x5 x6) (row (val_main_v72 (F := Ideal) x2 x3 x7 x8 : Arr2 50000 128) n)
          (val_main_v81 (F := Ideal) x11 : Arr2 128 128) x12 j := by
  rw [val_main_v86_apply, val_main_call1_v5_apply, val_main_call1_v4_apply, val_main_call1_cst_0_apply,
    val_main_call1_v3_apply, val_main_call1_v2_apply, val_main_call1_cst_apply, val_main_call1_v1_apply,
    val_main_call1_v0_apply, node_glin, nodeG_eq]
  generalize val_main_v72 (F := Ideal) x2 x3 x7 x8 = ag
  simp only [Ideal.mulf_def, Ideal.hostDivf_def, Ideal.addf_def, Ideal.hostUnary_exp_def, Ideal.hostNegf_def,
    Ideal.negf_def, Ideal.ofBits_def]
  exact silu_spelt _

/-- The residual dense layer of the normalised scalar row. -/
theorem node_sres (n : Fin 50000) (j : Fin 128) :
    val_main_v108 (F := Ideal) x0 x5 x6 x15 x16 (ix2 n j)
      = linRow (lnorm (row x0 n) x5 x6) (val_main_v104 (F := Ideal) x15 : Arr2 128 128) x16 j := by
  rw [val_main_v108_apply, val_main_v105_apply, val_main_v107_apply, val_main_v106_apply]
  have el : ∀ k : Fin 128, lidx_main_v105 (ix2 n j) k = ix2 n k := fun k =>
    funext fun a => Fin.ext (by match a with | ⟨0, _⟩ => rfl | ⟨1, _⟩ => rfl)
  have er : ∀ k : Fin 128, ridx_main_v105 (ix2 n j) k = ix2 k j := fun k =>
    funext fun a => Fin.ext (by match a with | ⟨0, _⟩ => rfl | ⟨1, _⟩ => rfl)
  have eb : idx_main_v106 (idx_main_v107 (ix2 n j)) = ix1 j :=
    funext fun a => Fin.ext (by match a with | ⟨0, _⟩ => rfl)
  simp only [el, er, eb, ln_row, Ideal.addf_def]
  rfl

/-- The scalar result at node `n`, channel `j`. -/
theorem node_s_at (n : Fin 50000) (j : Fin 128) :
    val_main_v116 (F := Ideal) x0 x2 x3 x5 x6 x7 x8 x11 x12 x15 x16 (ix2 n j)
      = nodeS (lnorm (row x0 n) x5 x6) (row (val_main_v72 (F := Ideal) x2 x3 x7 x8 : Arr2 50000 128) n)
          (val_main_v81 (F := Ideal) x11 : Arr2 128 128) x12 (val_main_v104 (F := Ideal) x15 : Arr2 128 128) x16 j := by
  rw [val_main_v116_apply, node_g, node_sres, Ideal.addf_def, nodeS_eq]

/-! ## The vector normalisation of a node row -/

/-- The channel and the coordinate of flattened position `j`. -/
def q3 (j : Fin 48) : Fin 16 := ⟨j.val / 3, by have := j.isLt; omega⟩
def r3 (j : Fin 48) : Fin 3 := ⟨j.val % 3, Nat.mod_lt _ (by decide)⟩

/-- Position `j` of a flattened row is entry `(j / 3, j % 3)`. -/
theorem flatRow_apply {m : ℕ} (x : Arr3 m 16 3) (r : Fin m) (j : Fin 48) :
    flatRow x r j = x (ix3 r (q3 j) (r3 j)) := rfl

/-- Entry `(a, d)` is flattened position `3 a + d`. -/
theorem flatRow_fl {m : ℕ} (x : Arr3 m 16 3) (r : Fin m) (a : Fin 16) (d : Fin 3) :
    flatRow x r (fl a d) = x (ix3 r a d) := by
  rw [flatRow_apply]
  have hd := d.isLt
  refine congrArg x (funext fun b => Fin.ext ?_)
  match b with
  | ⟨0, _⟩ => rfl
  | ⟨1, _⟩ => show (3 * a.val + d.val) / 3 = a.val; omega
  | ⟨2, _⟩ => show (3 * a.val + d.val) % 3 = d.val; omega

/-- Flattened position `3 (j / 3) + j % 3` is `j`. -/
theorem fl_q3_r3 (j : Fin 48) : fl (q3 j) (r3 j) = j :=
  Fin.ext (by show 3 * (j.val / 3) + j.val % 3 = j.val; omega)

theorem vnorm_eq (v : Fin 48 → EReal) : vnorm v
    = Ideal.sqrt ((∑ j : Fin 48, v j * v j) * Ideal.ofBits .f32 0x3D800000#32 + Ideal.ofBits .f32 0x322BCC77#32) := rfl

theorem vnormed_eq (v : Fin 48 → EReal) (j : Fin 48) : vnormed v j = Ideal.div (v j) (vnorm v) := rfl

/-- The word of 16 and the word of one sixteenth. -/
theorem ofBits_sixteen : Ideal.ofBits .f32 0x41800000#32 = ((16 : ℝ) : EReal) := by
  simp [Ideal.ofBits, Ideal.ieee, -EReal.coe_mul]; norm_num

theorem ofBits_sixteenth : Ideal.ofBits .f32 0x3D800000#32 = (((1 : ℝ) / 16 : ℝ) : EReal) := by
  simp [Ideal.ofBits, Ideal.ieee, -EReal.coe_mul]; norm_num

/-- Dividing by the word of 16 is multiplying by the word of one sixteenth, on every extended real. -/
theorem div_sixteen (x : EReal) :
    Ideal.div x (Ideal.ofBits .f32 0x41800000#32) = x * Ideal.ofBits .f32 0x3D800000#32 := by
  rw [ofBits_sixteen, ofBits_sixteenth]
  exact Ideal.div_coe (by norm_num) x

/-- The sum over the 16 channels of the sums over the 3 coordinates is the sum over the 48 flattened positions. -/
theorem sumsq_flat {m : ℕ} (x : Arr3 m 16 3) (r : Fin m) :
    (∑ a : Fin 16, ∑ d : Fin 3, x (ix3 r a d) * x (ix3 r a d)) = ∑ j : Fin 48, flatRow x r j * flatRow x r j := by
  rw [SumBlocks.sum_fin_blocks 16 3 rfl (fun j => flatRow x r j * flatRow x r j)]
  refine Finset.sum_congr rfl fun a _ => Finset.sum_congr rfl fun d _ => ?_
  have e : ∀ h, (⟨a.val * 3 + d.val, h⟩ : Fin 48) = fl a d := fun h =>
    Fin.ext (by show a.val * 3 + d.val = 3 * a.val + d.val; omega)
  show _ = flatRow x r ⟨a.val * 3 + d.val, _⟩ * flatRow x r ⟨a.val * 3 + d.val, _⟩
  rw [e, flatRow_fl]

/-- The norm of the vector row of node `n`, broadcast over its entries. -/
theorem vn_norm (n : Fin 50000) (a : Fin 16) (d : Fin 3) :
    val_main_v34 (F := Ideal) x1 (ix3 n a d) = vnorm (flatRow x1 n) := by
  rw [val_main_v34_apply, val_main_v33_apply, val_main_v32_apply, val_main_v30_apply, val_main_v28_apply,
    val_main_v27_apply, val_main_cst_5_apply, val_main_v29_apply, val_main_cst_6_apply, val_main_v31_apply,
    val_main_cst_7_apply]
  have e : ∀ (k : Fin 16) (c : Fin 3), idx_main_v25 (idx_main_v26
      (idx_main_v27 (idx_main_v28 (idx_main_v34 (ix3 n a d))) k)) c = ix3 n k c := fun k c =>
    funext fun b => Fin.ext (by match b with | ⟨0, _⟩ => rfl | ⟨1, _⟩ => rfl | ⟨2, _⟩ => rfl)
  simp only [val_main_v26_apply, val_main_v25_apply, val_main_cst_4_apply, val_main_v24_apply, e,
    Ideal.hostDivf_def, Ideal.ofBits_def, Ideal.ofBits_zero_f32, zero_add, Ideal.addf_def, Ideal.mulf_def,
    Ideal.hostUnary_sqrt_def, div_sixteen, sumsq_flat, vnorm_eq]

/-- The normalised vector row of node `n` at flattened position `k`. -/
theorem vn_flat (n : Fin 50000) (k : Fin 48) :
    val_main_v35 (F := Ideal) x1 (ix3 n (q3 k) (r3 k)) = vnormed (flatRow x1 n) k := by
  rw [val_main_v35_apply, vn_norm, Ideal.hostDivf_def, vnormed_eq, flatRow_apply]

/-! ## The vector part of the node update -/

/-- The residual dense layer of the normalised vector row, at flattened position `j`. -/
theorem node_vres (n : Fin 50000) (j : Fin 48) :
    val_main_v114 (F := Ideal) x1 x17 x18 (ix2 n j)
      = linRow (vnormed (flatRow x1 n)) (val_main_v110 (F := Ideal) x17 : Arr2 48 48) x18 j := by
  rw [val_main_v114_apply, val_main_v111_apply, val_main_v113_apply, val_main_v112_apply]
  have el : ∀ k : Fin 48, idx_main_v109 (lidx_main_v111 (ix2 n j) k) = ix3 n (q3 k) (r3 k) := fun k =>
    funext fun b => Fin.ext (by
      have hk := k.isLt
      match b with
      | ⟨0, _⟩ => show (n.val * 48 + k.val) / 48 = n.val; omega
      | ⟨1, _⟩ => show (n.val * 48 + k.val) / 3 % 16 = k.val / 3; omega
      | ⟨2, _⟩ => show (n.val * 48 + k.val) % 3 = k.val % 3; omega)
  have er : ∀ k : Fin 48, ridx_main_v111 (ix2 n j) k = ix2 k j := fun k =>
    funext fun b => Fin.ext (by match b with | ⟨0, _⟩ => rfl | ⟨1, _⟩ => rfl)
  have eb : idx_main_v112 (idx_main_v113 (ix2 n j)) = ix1 j :=
    funext fun b => Fin.ext (by match b with | ⟨0, _⟩ => rfl)
  simp only [val_main_v109_apply, el, er, eb, vn_flat, Ideal.addf_def]
  exact (linRow_eq _ _ _ _).symm

/-- The dense layer of the gated vector part: the normalised vector row plus the vector aggregate, flattened, against
    the transposed weight, plus the bias. -/
theorem node_vlin (n : Fin 50000) (j : Fin 48) :
    val_main_v92 (F := Ideal) x1 x2 x3 x4 x7 x8 x9 x10 x13 x14 (ix2 n j)
      = linRow (fun k => vnormed (flatRow x1 n) k
            + flatRow (val_main_v78 (F := Ideal) x2 x3 x4 x7 x8 x9 x10 : Arr3 50000 16 3) n k)
          (val_main_v88 (F := Ideal) x13 : Arr2 48 48) x14 j := by
  rw [val_main_v92_apply, val_main_v89_apply, val_main_v91_apply, val_main_v90_apply]
  simp only [val_main_v87_apply, val_main_v80_apply]
  generalize val_main_v78 (F := Ideal) x2 x3 x4 x7 x8 x9 x10 = ag
  have el : ∀ k : Fin 48, idx_main_v87 (lidx_main_v89 (ix2 n j) k) = ix3 n (q3 k) (r3 k) := fun k =>
    funext fun b => Fin.ext (by
      have hk := k.isLt
      match b with
      | ⟨0, _⟩ => show (n.val * 48 + k.val) / 48 = n.val; omega
      | ⟨1, _⟩ => show (n.val * 48 + k.val) / 3 % 16 = k.val / 3; omega
      | ⟨2, _⟩ => show (n.val * 48 + k.val) % 3 = k.val % 3; omega)
  have er : ∀ k : Fin 48, ridx_main_v89 (ix2 n j) k = ix2 k j := fun k =>
    funext fun b => Fin.ext (by match b with | ⟨0, _⟩ => rfl | ⟨1, _⟩ => rfl)
  have eb : idx_main_v90 (idx_main_v91 (ix2 n j)) = ix1 j :=
    funext fun b => Fin.ext (by match b with | ⟨0, _⟩ => rfl)
  simp only [el, er, eb, vn_flat, Ideal.addf_def]
  refine congrArg (· + x14 (ix1 j)) ?_
  refine Finset.sum_congr rfl fun k _ => ?_
  refine congrArg (· * val_main_v88 (F := Ideal) x13 (ix2 k j)) ?_
  refine congrArg (vnormed (flatRow x1 n) k + ·) ?_
  exact (flatRow_apply (ag : Arr3 50000 16 3) n k).symm

/-- The node gate: the logistic of the gated scalar part's channel `a`, one of the first sixteen. -/
theorem node_gate (n : Fin 50000) (a : Fin 16) :
    val_main_v100 (F := Ideal) x0 x2 x3 x5 x6 x7 x8 x11 x12 (ix2 n a)
      = Ideal.logistic (val_main_v86 (F := Ideal) x0 x2 x3 x5 x6 x7 x8 x11 x12
          (ix2 n (⟨a.val, by have := a.isLt; omega⟩ : Fin 128))) := by
  rw [val_main_v100_apply, val_main_v99_apply, val_main_cst_16_apply, val_main_v98_apply, val_main_v97_apply,
    val_main_cst_15_apply, val_main_v96_apply, val_main_v95_apply, val_main_v94_apply]
  have es : idx_main_v94 (ix2 n a) = ix2 n (⟨a.val, by have := a.isLt; omega⟩ : Fin 128) :=
    funext fun b => Fin.ext (by match b with | ⟨0, _⟩ => rfl | ⟨1, _⟩ => rfl)
  simp only [es, Ideal.hostDivf_def, Ideal.addf_def, Ideal.hostUnary_exp_def, Ideal.hostNegf_def, Ideal.negf_def,
    Ideal.ofBits_def]
  exact LibPlaneSum.logistic_spelt _

/-- The edges' scalar messages. -/
theorem edge_s : val_main_v41 (F := Ideal) x3 x7 x8 = fun i : S800000x128.Idx =>
    edgeS (row x3 (i 0)) (val_main_v36 (F := Ideal) x7 : Arr2 32 128) x8 (i 1) := by
  funext i
  rw [val_main_v41_apply, val_main_call0_v5_apply, val_main_call0_v4_apply, val_main_call0_cst_0_apply,
    val_main_call0_v3_apply, val_main_call0_v2_apply, val_main_call0_cst_apply, val_main_call0_v1_apply,
    val_main_call0_v0_apply, edge_lin]
  simp only [Ideal.mulf_def, Ideal.hostDivf_def, Ideal.addf_def, Ideal.hostUnary_exp_def, Ideal.hostNegf_def,
    Ideal.negf_def, Ideal.ofBits_def]
  exact silu_spelt _

/-- The edges' gated vector messages, entry `(a, d)` of row `e` at flattened position `3 a + d`. -/
theorem edge_v (e : Fin 800000) (a : Fin 16) (d : Fin 3) :
    val_main_v58 (F := Ideal) x3 x4 x7 x8 x9 x10 (ix3 e a d)
      = edgeV (edgeS (row x3 e) (val_main_v36 (F := Ideal) x7 : Arr2 32 128) x8) (row13 x4 e)
          (val_main_v43 (F := Ideal) x9 : Arr2 3 48) x10 (fl a d) := by
  rw [val_main_v58_apply, val_main_v48_apply, val_main_v57_apply, val_main_v56_apply]
  have ef : idx_main_v48 (ix3 e a d) = ix2 e (fl a d) :=
    funext fun b => Fin.ext (by
      have ha := a.isLt; have hd := d.isLt
      match b with
      | ⟨0, _⟩ => show ((e.val * 16 + a.val) * 3 + d.val) / 48 = e.val; omega
      | ⟨1, _⟩ => show ((e.val * 16 + a.val) * 3 + d.val) % 48 = 3 * a.val + d.val; omega)
  have eg : idx_main_v56 (idx_main_v57 (ix3 e a d)) = ix2 e a :=
    funext fun b => Fin.ext (by match b with | ⟨0, _⟩ => rfl | ⟨1, _⟩ => rfl)
  have ec : (⟨a.val, by have := a.isLt; omega⟩ : Fin 128) = gcol (fl a d) :=
    Fin.ext (by have hd := d.isLt; show a.val = (3 * a.val + d.val) / 3; omega)
  rw [ef, eg, edge_vlin, edge_gate, edge_s, ec, Ideal.mulf_def]
  rfl

/-- The scalar result, with the scalar aggregate as the reference computes it. -/
theorem node_s : val_main_v116 (F := Ideal) x0 x2 x3 x5 x6 x7 x8 x11 x12 x15 x16 = fun i : S50000x128.Idx =>
    nodeS (lnorm (row x0 (i 0)) x5 x6) (row (val_main_v72 (F := Ideal) x2 x3 x7 x8 : Arr2 50000 128) (i 0))
      (val_main_v81 (F := Ideal) x11 : Arr2 128 128) x12 (val_main_v104 (F := Ideal) x15 : Arr2 128 128) x16 (i 1) := by
  funext i
  obtain ⟨n, j, rfl⟩ : ∃ (n : Fin 50000) (j : Fin 128), i = ix2 n j := ⟨i 0, i 1, eq_ix2 i⟩
  exact node_s_at x0 x2 x3 x5 x6 x7 x8 x11 x12 x15 x16 n j

/-- The vector result, entry `(a, d)` of row `n` at flattened position `3 a + d`, with both aggregates as the reference
    computes them. -/
theorem node_v (n : Fin 50000) (a : Fin 16) (d : Fin 3) :
    val_main_v117 (F := Ideal) x0 x1 x2 x3 x4 x5 x6 x7 x8 x9 x10 x11 x12 x13 x14 x17 x18 (ix3 n a d)
      = nodeV (nodeG (lnorm (row x0 n) x5 x6) (row (val_main_v72 (F := Ideal) x2 x3 x7 x8 : Arr2 50000 128) n)
            (val_main_v81 (F := Ideal) x11 : Arr2 128 128) x12)
          (vnormed (flatRow x1 n)) (flatRow (val_main_v78 (F := Ideal) x2 x3 x4 x7 x8 x9 x10 : Arr3 50000 16 3) n)
          (val_main_v88 (F := Ideal) x13 : Arr2 48 48) x14 (val_main_v110 (F := Ideal) x17 : Arr2 48 48) x18 (fl a d) := by
  rw [val_main_v117_apply, val_main_v103_apply, val_main_v93_apply, val_main_v102_apply, val_main_v101_apply,
    val_main_v115_apply]
  have ef : idx_main_v93 (ix3 n a d) = ix2 n (fl a d) :=
    funext fun b => Fin.ext (by
      have ha := a.isLt; have hd := d.isLt
      match b with
      | ⟨0, _⟩ => show ((n.val * 16 + a.val) * 3 + d.val) / 48 = n.val; omega
      | ⟨1, _⟩ => show ((n.val * 16 + a.val) * 3 + d.val) % 48 = 3 * a.val + d.val; omega)
  have ef' : idx_main_v115 (ix3 n a d) = ix2 n (fl a d) :=
    funext fun b => Fin.ext (by
      have ha := a.isLt; have hd := d.isLt
      match b with
      | ⟨0, _⟩ => show ((n.val * 16 + a.val) * 3 + d.val) / 48 = n.val; omega
      | ⟨1, _⟩ => show ((n.val * 16 + a.val) * 3 + d.val) % 48 = 3 * a.val + d.val; omega)
  have eg : idx_main_v101 (idx_main_v102 (ix3 n a d)) = ix2 n a :=
    funext fun b => Fin.ext (by match b with | ⟨0, _⟩ => rfl | ⟨1, _⟩ => rfl)
  have ec : (⟨a.val, by have := a.isLt; omega⟩ : Fin 128) = gcol (fl a d) :=
    Fin.ext (by have hd := d.isLt; show a.val = (3 * a.val + d.val) / 3; omega)
  rw [ef, ef', eg, node_vlin, node_gate, ec, node_g, node_vres, Ideal.mulf_def, Ideal.addf_def, nodeV_eq]

end Cert.ReferenceIdeal.RefValue

end
-- ==== Proof.Table.lean ====
/-
  The 16 x 48 constant table of the program: entry (a, j) is one when flattened vector coordinate `j` belongs to
  channel `a` (`j / 3 = a`) and zero otherwise. A row of 16 gate values times this table repeats each gate three
  times, once per coordinate of its channel.
-/
import proofs.«150730_j75419625718340_1_alg».proof.KernelIdeal
import proofs.«150730_j75419625718340_1_alg».proof.Proof.LibPlaneSum
import Idealize.ShloMosaic.PureOps.Ideal.Laws
import Idealize.ShloMosaic.Lib.ValueIdx

noncomputable section

namespace Cert.KernelIdeal.Table

open Idealize.ShloMosaic Idealize.ShloMosaic.ValueIdx Cert.KernelIdeal

/-- The table's 768 words, row-major: the word of one at position `k` exactly when `(k % 48) / 3 = k / 48`. -/
theorem word_eq : ∀ k : Fin 768, lit0 k = if (k.val % 48) / 3 = k.val / 48 then 0x3F800000#32 else 0x00000000#32 := by
  decide +kernel

/-- Entry (a, j) of the table at the ideal values. -/
theorem entry (a : Fin 16) (j : Fin 48) :
    Ideal.ofBits .f32 (lit0 ((⟨2, ![16, 48]⟩ : Shape).rowMajor (ix2 a j))) = if j.val / 3 = a.val then (1 : EReal) else 0 := by
  have ha := a.isLt
  have hj := j.isLt
  obtain ⟨k, hk⟩ : ∃ k : Fin 768, k = (⟨2, ![16, 48]⟩ : Shape).rowMajor (ix2 a j) := ⟨_, rfl⟩
  have hv : k.val = a.val * 48 + j.val := by
    rw [hk]; exact Shape.rowMajor_val_two (d := ![16, 48]) (ix2 a j)
  rw [← hk, word_eq k, hv]
  have h1 : (a.val * 48 + j.val) % 48 / 3 = j.val / 3 := by
    rw [Nat.mul_comm, Nat.mul_add_mod, Nat.mod_eq_of_lt hj]
  have h2 : (a.val * 48 + j.val) / 48 = a.val := by omega
  rw [h1, h2]
  by_cases h : j.val / 3 = a.val
  · rw [if_pos h, if_pos h]; exact Cert.LibPlaneSum.ofBits_one_f32
  · rw [if_neg h, if_neg h]; exact Ideal.ofBits_zero_f32

end Cert.KernelIdeal.Table

end
-- ==== Proof.LibRowScatter.lean ====
/-
  Rows of a two-dimensional table read through an integer index column, and updates added into rows.

  A table `x : [R, C]` and an index array `idx : [n, 1]`.
  * GATHER OF ROWS (the gather operation with offset axis 1, collapsed slice axis 0, start index map `[0]`, index vector
    axis 1, slice sizes `[1, C]`): result element `(e, k)` is `x` at row `idx[e, 0]` — read as a signed integer, negative
    values truncated to 0, then clamped to at most `R − 1` — and column `k` (`gather_rows_apply`).
  * SCATTER-ADD INTO ROWS (the scatter operation with an `add` body, update window axis 1, inserted window axis 0,
    scatter-dims-to-operand-dims `[0]`, index vector axis 1): update element `(e, k)` lands at row `idx[e, 0]` read as a
    signed integer and column `k`, when that row is in `[0, R)`, and is dropped otherwise; so result element `(r, o)` is
    `x (r, o)` plus the sum over the `e` whose index is exactly `r` of the update `(e, o)` (`scatterAdd_rows_apply`).
  Both are generic in the sizes `R`, `C`, `n` and in the index width `w`; the dimension-number records take their
  well-formedness condition as a hypothesis, which is decided on literal sizes.
-/
import Idealize.ShloMosaic.PureOps.Ideal
import Idealize.ShloMosaic.Lib.ValueIdx

noncomputable section

open scoped BigOperators

namespace Cert.RowOps

open Idealize.ShloMosaic Idealize.ShloMosaic.ValueIdx

/-! ## Gather of rows -/

/-- The dimension numbers of a gather of whole rows: operand `[R, C]`, start indices `[n, 1]`, result `[n, C]`; the
    result's axis 1 is the offset axis, the operand's axis 0 is collapsed and is the one the start index names, the
    index vector lies along axis 1 of the start indices, and a slice is one row (`[1, C]`). -/
abbrev rowGather (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, k)`: the table at row `idx[e, 0]`, read signed, truncated at 0 and clamped to
    `R − 1`, and column `k`. -/
theorem gather_rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowGather R C n wf) x idx (ix2 e k)
      = x (ix2 ⟨min (idx (ix2 e 0)).toInt.toNat (R - 1), by omega⟩ k) := by
  unfold Host.gather
  congr 1
  funext a
  refine Fin.ext ?_
  match a with
  | ⟨0, _⟩ =>
    -- the row axis: the clamped start index; no batching coordinate, and no offset coordinate on a collapsed axis
    show (rowGather R C n wf).start (ix2 e k) idx 0 + (rowGather R C n wf).batchCoord (ix2 e k) 0
      + (rowGather R C n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C n wf).startIndexMap from List.mem_singleton.mpr rfl)]
    have hsi : (rowGather R C n wf).siIdx (ix2 e k) ⟨List.idxOf (0 : Fin 2) (rowGather R C n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not named by the start index map, so the start is 0 and the coordinate is the offset `k`
    show (rowGather R C n wf).start (ix2 e k) idx 1 + (rowGather R C n wf).batchCoord (ix2 e k) 1
      + (rowGather R C n wf).offCoord (ix2 e k) 1 = k.val
    rw [GatherDims.batchCoord_eq_zero _ _ _ List.not_mem_nil]
    have hst : (rowGather R C n wf).start (ix2 e k) idx 1 = 0 := by
      unfold GatherDims.start
      rw [dif_neg (show (1 : Fin 2) ∉ (rowGather R C n wf).startIndexMap from
        fun h => absurd (List.mem_singleton.mp h) (show (1 : Fin 2) ≠ 0 from by decide))]
    have hk : (1 : Fin 2) ∈ (rowGather R C n wf).sKept :=
      (GatherDims.mem_sKept _ _).mpr
        ⟨fun h => absurd (List.mem_singleton.mp h) (show (1 : Fin 2) ≠ 0 from by decide), List.not_mem_nil⟩
    rw [hst]
    unfold GatherDims.offCoord
    rw [dif_pos hk]
    simp only [Nat.zero_add, Nat.add_zero]
    rfl

/-! ## Scatter-add into rows -/

/-- The dimension numbers of a scatter of whole-row updates: operand `[R, C]`, scatter indices `[n, 1]`, updates
    `[n, C]`; the updates' axis 1 is the window axis, the operand's axis 0 is the inserted window axis and the one the
    scatter index names, and the index vector lies along axis 1 of the scatter indices. -/
abbrev rowScatter (R C n : Nat) (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

section
variable {R C n w : Nat} (wf : ScatterDims.WF ⟨2, ![R, C]⟩ ⟨2, ![n, 1]⟩ ⟨2, ![n, C]⟩ [1] [0] [0] 1)
  (idx : IVec ⟨2, ![n, 1]⟩ w) (e : Fin n) (k : Fin C)

/-- On the row axis the window of update `(e, k)` starts at `idx[e, 0]` read as a signed integer (not clamped). -/
theorem rowScatter_start0 :
    (rowScatter R C n wf).start (ix2 e k) idx 0 = (idx (ix2 e 0)).toInt := by
  unfold ScatterDims.start
  rw [dif_pos (show (0 : Fin 2) ∈ (rowScatter R C n wf).scatterDimsToOperandDims from List.mem_singleton.mpr rfl)]
  have hsi : (rowScatter R C n wf).siIdx (ix2 e k) ⟨List.idxOf (0 : Fin 2) (rowScatter R C n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the scatter index does not name, the window starts at 0. -/
theorem rowScatter_start1 : (rowScatter R C n wf).start (ix2 e k) idx 1 = 0 := by
  unfold ScatterDims.start
  rw [dif_neg (show (1 : Fin 2) ∉ (rowScatter R C n wf).scatterDimsToOperandDims from
    fun h => absurd (List.mem_singleton.mp h) (show (1 : Fin 2) ≠ 0 from by decide))]

/-- The row axis is an inserted window axis: the window coordinate there is 0. -/
theorem rowScatter_window0 : (rowScatter R C n wf).window (ix2 e k) 0 = 0 := by
  unfold ScatterDims.window
  rw [dif_neg]
  intro h
  simp [ScatterDims.sKept, Shape.kept] at h

/-- On the column axis the window coordinate of update `(e, k)` is `k`. -/
theorem rowScatter_window1 : (rowScatter R C n wf).window (ix2 e k) 1 = k.val := by
  have hk : (1 : Fin 2) ∈ (rowScatter R C n wf).sKept := by
    simp [ScatterDims.sKept, Shape.kept]
  unfold ScatterDims.window
  rw [dif_pos hk]
  rfl

/-- WHERE AN UPDATE LANDS: update `(e, k)` lands at `(r, o)` exactly when `idx[e, 0]`, read signed, is the row `r` and
    `k` is the column `o` (an index outside `[0, R)` is no row, so that update lands nowhere). -/
theorem rowScatter_resultIdx?_eq_some (r : Fin R) (o : Fin C) :
    (rowScatter R C n wf).resultIdx? (ix2 e k) idx = some (ix2 r o)
      ↔ (idx (ix2 e 0)).toInt = (r.val : Int) ∧ k = o := by
  have hs0 := rowScatter_start0 wf idx e k
  have hs1 := rowScatter_start1 wf idx e k
  have hw0 := rowScatter_window0 wf e k
  have hw1 := rowScatter_window1 wf e k
  unfold ScatterDims.resultIdx?
  constructor
  · intro h
    split at h
    · rename_i hall
      have h' := Option.some.inj h
      have h0 : ((rowScatter R C n wf).start (ix2 e k) idx 0
          + ((rowScatter R C n wf).window (ix2 e k) 0 : Nat)).toNat = r.val :=
        congrArg (fun f => (f 0).val) h'
      have h1 : ((rowScatter R C n wf).start (ix2 e k) idx 1
          + ((rowScatter R C n wf).window (ix2 e k) 1 : Nat)).toNat = o.val :=
        congrArg (fun f => (f 1).val) h'
      have ha := (hall 0).1
      rw [hs0, hw0] at h0 ha
      rw [hs1, hw1] at h1
      refine ⟨by omega, Fin.ext (by omega)⟩
    · exact absurd h (by simp)
  · rintro ⟨h0, rfl⟩
    have hr : r.val < R := r.isLt
    have hk : k.val < C := k.isLt
    have hall : ∀ a, 0 ≤ (rowScatter R C n wf).start (ix2 e k) idx a + ((rowScatter R C n wf).window (ix2 e k) a : Nat)
        ∧ (rowScatter R C n wf).start (ix2 e k) idx a + ((rowScatter R C n wf).window (ix2 e k) a : Nat)
          < ((⟨2, ![R, C]⟩ : Shape).size a : Nat) := by
      intro a
      match a with
      | ⟨0, _⟩ =>
        show 0 ≤ (rowScatter R C n wf).start (ix2 e k) idx 0 + ((rowScatter R C n wf).window (ix2 e k) 0 : Nat)
          ∧ (rowScatter R C n wf).start (ix2 e k) idx 0 + ((rowScatter R C n wf).window (ix2 e k) 0 : Nat) < (R : Int)
        rw [hs0, hw0, h0]; omega
      | ⟨1, _⟩ =>
        show 0 ≤ (rowScatter R C n wf).start (ix2 e k) idx 1 + ((rowScatter R C n wf).window (ix2 e k) 1 : Nat)
          ∧ (rowScatter R C n wf).start (ix2 e k) idx 1 + ((rowScatter R C n wf).window (ix2 e k) 1 : Nat) < (C : Int)
        rw [hs1, hw1]; omega
    rw [dif_pos hall]
    congr 1
    funext a
    refine Fin.ext ?_
    match a with
    | ⟨0, _⟩ =>
      show ((rowScatter R C n wf).start (ix2 e k) idx 0
        + ((rowScatter R C n wf).window (ix2 e k) 0 : Nat)).toNat = r.val
      rw [hs0, hw0, h0]; omega
    | ⟨1, _⟩ =>
      show ((rowScatter R C n wf).start (ix2 e k) idx 1
        + ((rowScatter R C n wf).window (ix2 e k) 1 : Nat)).toNat = k.val
      rw [hs1, hw1]; omega

end

/-- THE SCATTER-ADD INTO ROWS READ AT `(r, o)`: the operand's element plus the sum, over the updates `e` whose index
    `idx[e, 0]` read signed is exactly `r`, of the update's element in column `o`. -/
theorem scatterAdd_rows_apply {R C n w : Nat} (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (o : Fin C) :
    Ideal.hostScatterAdd (rowScatter R C n wf) x idx upd (ix2 r o)
      = x (ix2 r o) + ∑ e : Fin n, if (idx (ix2 e 0)).toInt = (r.val : Int) then upd (ix2 e o) else 0 := by
  unfold Ideal.hostScatterAdd
  congr 1
  -- the filtered sum as a sum of `if`s, over the two coordinates of the update index
  rw [Finset.sum_filter, sum_idx2]
  refine Finset.sum_congr rfl fun e _ => ?_
  simp only [rowScatter_resultIdx?_eq_some wf idx e _ r o]
  by_cases hA : (idx (ix2 e 0)).toInt = (r.val : Int)
  · -- the index is the row: of the columns only `o` contributes
    simp only [hA, true_and, if_true]
    rw [Finset.sum_ite_eq' Finset.univ o (fun k => upd (ix2 e k))]
    simp
  · simp [hA]

end Cert.RowOps

end
-- ==== Proof.LibPlaneScatter.lean ====
/-
  Updates added into the planes of a three-dimensional table through an integer index column.

  A table `x : [R, A, B]`, an index array `idx : [n, 1]` and updates `upd : [n, A, B]`. SCATTER-ADD INTO PLANES (the
  scatter operation with an `add` body, update window axes 1 and 2, inserted window axis 0,
  scatter-dims-to-operand-dims `[0]`, index vector axis 1): update element `(e, a, b)` lands at plane `idx[e, 0]` read
  as a signed integer and position `(a, b)`, when that plane is in `[0, R)`, and is dropped otherwise; so result
  element `(r, a, b)` is `x (r, a, b)` plus the sum over the `e` whose index is exactly `r` of the update `(e, a, b)`
  (`scatterAdd_planes_apply`). Generic in the sizes and in the index width; the dimension-number record takes its
  well-formedness condition as a hypothesis, which is decided on literal sizes. Also a sum over a rank-3 index set
  as the triple sum over its coordinates.
-/
import Idealize.ShloMosaic.PureOps.Ideal
import Idealize.ShloMosaic.Lib.ValueIdx

noncomputable section

open scoped BigOperators

namespace Cert.PlaneOps

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of a scatter of whole-plane updates: operand `[R, A, B]`, scatter indices `[n, 1]`, updates
    `[n, A, B]`; the updates' axes 1 and 2 are the window axes, the operand's axis 0 is the inserted window axis and
    the one the scatter index names, and the index vector lies along axis 1 of the scatter indices. -/
abbrev planeScatter (R A B n : Nat)
    (wf : ScatterDims.WF ⟨3, ![R, A, B]⟩ ⟨2, ![n, 1]⟩ ⟨3, ![n, A, B]⟩ [1, 2] [0] [0] 1) :
    ScatterDims ⟨3, ![R, A, B]⟩ ⟨2, ![n, 1]⟩ ⟨3, ![n, A, B]⟩ where
  updateWindowDims := [1, 2]
  insertedWindowDims := [0]
  scatterDimsToOperandDims := [0]
  indexVectorDim := 1
  wf := wf

section
variable {R A B n w : Nat} (wf : ScatterDims.WF ⟨3, ![R, A, B]⟩ ⟨2, ![n, 1]⟩ ⟨3, ![n, A, B]⟩ [1, 2] [0] [0] 1)
  (idx : IVec ⟨2, ![n, 1]⟩ w) (e : Fin n) (a : Fin A) (b : Fin B)

/-- On the plane axis the window of update `(e, a, b)` starts at `idx[e, 0]` read as a signed integer (not clamped). -/
theorem planeScatter_start0 :
    (planeScatter R A B n wf).start (ix3 e a b) idx 0 = (idx (ix2 e 0)).toInt := by
  unfold ScatterDims.start
  rw [dif_pos (show (0 : Fin 3) ∈ (planeScatter R A B n wf).scatterDimsToOperandDims from List.mem_singleton.mpr rfl)]
  have hsi : (planeScatter R A B n wf).siIdx (ix3 e a b) ⟨List.idxOf (0 : Fin 3) (planeScatter R A B n wf).scatterDimsToOperandDims,
      List.idxOf_lt_length_iff.2 (List.mem_singleton.mpr rfl)⟩ = ix2 e 0 := by
    funext q; refine Fin.ext ?_
    match q with
    | ⟨0, _⟩ => rfl
    | ⟨1, _⟩ => rfl
  rw [hsi]

/-- On the two axes the scatter index does not name the window starts at 0. -/
theorem planeScatter_start1 : (planeScatter R A B n wf).start (ix3 e a b) idx 1 = 0 := by
  unfold ScatterDims.start
  rw [dif_neg (show (1 : Fin 3) ∉ (planeScatter R A B n wf).scatterDimsToOperandDims from
    fun h => absurd (List.mem_singleton.mp h) (show (1 : Fin 3) ≠ 0 from by decide))]

theorem planeScatter_start2 : (planeScatter R A B n wf).start (ix3 e a b) idx 2 = 0 := by
  unfold ScatterDims.start
  rw [dif_neg (show (2 : Fin 3) ∉ (planeScatter R A B n wf).scatterDimsToOperandDims from
    fun h => absurd (List.mem_singleton.mp h) (show (2 : Fin 3) ≠ 0 from by decide))]

/-- The plane axis is an inserted window axis: the window coordinate there is 0. -/
theorem planeScatter_window0 : (planeScatter R A B n wf).window (ix3 e a b) 0 = 0 := by
  unfold ScatterDims.window
  rw [dif_neg]
  intro h
  simp [ScatterDims.sKept, Shape.kept] at h

/-- On the other two axes the window coordinate of update `(e, a, b)` is `a`, then `b`. -/
theorem planeScatter_window1 : (planeScatter R A B n wf).window (ix3 e a b) 1 = a.val := by
  have hk : (1 : Fin 3) ∈ (planeScatter R A B n wf).sKept := by
    simp [ScatterDims.sKept, Shape.kept]
  unfold ScatterDims.window
  rw [dif_pos hk]
  rfl

theorem planeScatter_window2 : (planeScatter R A B n wf).window (ix3 e a b) 2 = b.val := by
  have hk : (2 : Fin 3) ∈ (planeScatter R A B n wf).sKept := by
    simp [ScatterDims.sKept, Shape.kept]
  unfold ScatterDims.window
  rw [dif_pos hk]
  rfl

/-- WHERE AN UPDATE LANDS: update `(e, a, b)` lands at `(r, a', b')` exactly when `idx[e, 0]`, read signed, is the plane
    `r` and `(a, b) = (a', b')` (an index outside `[0, R)` is no plane, so that update lands nowhere). -/
theorem planeScatter_resultIdx?_eq_some (r : Fin R) (a' : Fin A) (b' : Fin B) :
    (planeScatter R A B n wf).resultIdx? (ix3 e a b) idx = some (ix3 r a' b')
      ↔ (idx (ix2 e 0)).toInt = (r.val : Int) ∧ a = a' ∧ b = b' := by
  have hs0 := planeScatter_start0 wf idx e a b
  have hs1 := planeScatter_start1 wf idx e a b
  have hs2 := planeScatter_start2 wf idx e a b
  have hw0 := planeScatter_window0 wf e a b
  have hw1 := planeScatter_window1 wf e a b
  have hw2 := planeScatter_window2 wf e a b
  unfold ScatterDims.resultIdx?
  constructor
  · intro h
    split at h
    · rename_i hall
      have h' := Option.some.inj h
      have h0 : ((planeScatter R A B n wf).start (ix3 e a b) idx 0
          + ((planeScatter R A B n wf).window (ix3 e a b) 0 : Nat)).toNat = r.val :=
        congrArg (fun f => (f 0).val) h'
      have h1 : ((planeScatter R A B n wf).start (ix3 e a b) idx 1
          + ((planeScatter R A B n wf).window (ix3 e a b) 1 : Nat)).toNat = a'.val :=
        congrArg (fun f => (f 1).val) h'
      have h2 : ((planeScatter R A B n wf).start (ix3 e a b) idx 2
          + ((planeScatter R A B n wf).window (ix3 e a b) 2 : Nat)).toNat = b'.val :=
        congrArg (fun f => (f 2).val) h'
      have ha := (hall 0).1
      rw [hs0, hw0] at h0 ha
      rw [hs1, hw1] at h1
      rw [hs2, hw2] at h2
      refine ⟨by omega, Fin.ext (by omega), Fin.ext (by omega)⟩
    · exact absurd h (by simp)
  · rintro ⟨h0, rfl, rfl⟩
    have hr : r.val < R := r.isLt
    have hka : a.val < A := a.isLt
    have hkb : b.val < B := b.isLt
    have hall : ∀ q, 0 ≤ (planeScatter R A B n wf).start (ix3 e a b) idx q + ((planeScatter R A B n wf).window (ix3 e a b) q : Nat)
        ∧ (planeScatter R A B n wf).start (ix3 e a b) idx q + ((planeScatter R A B n wf).window (ix3 e a b) q : Nat)
          < ((⟨3, ![R, A, B]⟩ : Shape).size q : Nat) := by
      intro q
      match q with
      | ⟨0, _⟩ =>
        show 0 ≤ (planeScatter R A B n wf).start (ix3 e a b) idx 0 + ((planeScatter R A B n wf).window (ix3 e a b) 0 : Nat)
          ∧ (planeScatter R A B n wf).start (ix3 e a b) idx 0 + ((planeScatter R A B n wf).window (ix3 e a b) 0 : Nat) < (R : Int)
        rw [hs0, hw0, h0]; omega
      | ⟨1, _⟩ =>
        show 0 ≤ (planeScatter R A B n wf).start (ix3 e a b) idx 1 + ((planeScatter R A B n wf).window (ix3 e a b) 1 : Nat)
          ∧ (planeScatter R A B n wf).start (ix3 e a b) idx 1 + ((planeScatter R A B n wf).window (ix3 e a b) 1 : Nat) < (A : Int)
        rw [hs1, hw1]; omega
      | ⟨2, _⟩ =>
        show 0 ≤ (planeScatter R A B n wf).start (ix3 e a b) idx 2 + ((planeScatter R A B n wf).window (ix3 e a b) 2 : Nat)
          ∧ (planeScatter R A B n wf).start (ix3 e a b) idx 2 + ((planeScatter R A B n wf).window (ix3 e a b) 2 : Nat) < (B : Int)
        rw [hs2, hw2]; omega
    rw [dif_pos hall]
    congr 1
    funext q
    refine Fin.ext ?_
    match q with
    | ⟨0, _⟩ =>
      show ((planeScatter R A B n wf).start (ix3 e a b) idx 0
        + ((planeScatter R A B n wf).window (ix3 e a b) 0 : Nat)).toNat = r.val
      rw [hs0, hw0, h0]; omega
    | ⟨1, _⟩ =>
      show ((planeScatter R A B n wf).start (ix3 e a b) idx 1
        + ((planeScatter R A B n wf).window (ix3 e a b) 1 : Nat)).toNat = a.val
      rw [hs1, hw1]; omega
    | ⟨2, _⟩ =>
      show ((planeScatter R A B n wf).start (ix3 e a b) idx 2
        + ((planeScatter R A B n wf).window (ix3 e a b) 2 : Nat)).toNat = b.val
      rw [hs2, hw2]; omega

end

/-- THE SCATTER-ADD INTO PLANES READ AT `(r, a, b)`: the operand's element plus the sum, over the updates `e` whose
    index `idx[e, 0]` read signed is exactly `r`, of the update's element at position `(a, b)`. -/
theorem scatterAdd_planes_apply {R A B n w : Nat}
    (wf : ScatterDims.WF ⟨3, ![R, A, B]⟩ ⟨2, ![n, 1]⟩ ⟨3, ![n, A, B]⟩ [1, 2] [0] [0] 1)
    (x : (⟨3, ![R, A, B]⟩ : Shape).Idx → EReal) (idx : IVec ⟨2, ![n, 1]⟩ w)
    (upd : (⟨3, ![n, A, B]⟩ : Shape).Idx → EReal) (r : Fin R) (a : Fin A) (b : Fin B) :
    Ideal.hostScatterAdd (planeScatter R A B n wf) x idx upd (ix3 r a b)
      = x (ix3 r a b) + ∑ e : Fin n, if (idx (ix2 e 0)).toInt = (r.val : Int) then upd (ix3 e a b) else 0 := by
  unfold Ideal.hostScatterAdd
  congr 1
  rw [Finset.sum_filter, sum_idx3]
  refine Finset.sum_congr rfl fun e _ => ?_
  simp only [planeScatter_resultIdx?_eq_some wf idx e _ _ r a b]
  by_cases hA : (idx (ix2 e 0)).toInt = (r.val : Int)
  · simp only [hA, true_and]
    rw [Finset.sum_eq_single a]
    · rw [Finset.sum_eq_single b]
      · simp
      · intro b' _ hb'; simp [hb']
      · intro h; exact absurd (Finset.mem_univ _) h
    · intro a' _ ha'
      refine Finset.sum_eq_zero fun b' _ => ?_
      simp [ha']
    · intro h; exact absurd (Finset.mem_univ _) h
  · simp [hA]

end Cert.PlaneOps

end
-- ==== Proof.Bridge.lean ====
/-
  The kernel program's two results are the reference program's two results, as functions of the arguments.

  Both programs compute one layer of a geometric vector perceptron network (Spec.lean). The edge-message launch
  leaves the reference's edge messages in its two output arrays (the vector one flattened: position `3 a + d` of a row
  is entry `(a, d)`); the host operations between the launches are the reference's own scatter-means of those arrays
  over the destination indices — for the scalar messages the very same operations, for the vector messages the
  scatter over rows of 48 flattened coordinates against the reference's scatter over 16 x 3 planes, which agree entry
  by entry because both sum, over the edges whose destination is the node, the same message entries —; and the
  node-update launch leaves the reference's results, the vector one flattened, which the final reshape unflattens.
-/
import proofs.«150730_j75419625718340_1_alg».proof.Proof.HostValue
import proofs.«150730_j75419625718340_1_alg».proof.Proof.EdgeValue
import proofs.«150730_j75419625718340_1_alg».proof.Proof.NodeValue
import proofs.«150730_j75419625718340_1_alg».proof.Proof.RefValue
import proofs.«150730_j75419625718340_1_alg».proof.Proof.Table
import proofs.«150730_j75419625718340_1_alg».proof.Proof.LibRowScatter
import proofs.«150730_j75419625718340_1_alg».proof.Proof.LibPlaneScatter
import proofs.«150730_j75419625718340_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.TcCoe Idealize.SL.Sem Idealize.ShloMosaic.ValueIdx
open Cert.KernelIdeal Cert.KernelIdeal.Gen Cert.KernelIdeal.HostValue Cert.Gvp

variable (m : (ℓ : Loc nD τ sig) → Buf (Elt Ideal) ℓ) (ρ : Dev nD → PrngReg)

/-- Argument `k` of the kernel program as launched on core `c`. -/
abbrev a0 (c : Dev nD) : Arr2 50000 128 := m ((c : Thread nD τ).loc main_arg0)
abbrev a1 (c : Dev nD) : Arr3 50000 16 3 := m ((c : Thread nD τ).loc main_arg1)
abbrev a3 (c : Dev nD) : Arr2 800000 32 := m ((c : Thread nD τ).loc main_arg3)
abbrev a4 (c : Dev nD) : Arr3 800000 1 3 := m ((c : Thread nD τ).loc main_arg4)
abbrev a5 (c : Dev nD) : Arr1 128 := m ((c : Thread nD τ).loc main_arg5)
abbrev a6 (c : Dev nD) : Arr1 128 := m ((c : Thread nD τ).loc main_arg6)
abbrev a7 (c : Dev nD) : Arr2 128 32 := m ((c : Thread nD τ).loc main_arg7)
abbrev a8 (c : Dev nD) : Arr1 128 := m ((c : Thread nD τ).loc main_arg8)
abbrev a9 (c : Dev nD) : Arr2 48 3 := m ((c : Thread nD τ).loc main_arg9)
abbrev a10 (c : Dev nD) : Arr1 48 := m ((c : Thread nD τ).loc main_arg10)
abbrev a11 (c : Dev nD) : Arr2 128 128 := m ((c : Thread nD τ).loc main_arg11)
abbrev a12 (c : Dev nD) : Arr1 128 := m ((c : Thread nD τ).loc main_arg12)
abbrev a13 (c : Dev nD) : Arr2 48 48 := m ((c : Thread nD τ).loc main_arg13)
abbrev a14 (c : Dev nD) : Arr1 48 := m ((c : Thread nD τ).loc main_arg14)
abbrev a15 (c : Dev nD) : Arr2 128 128 := m ((c : Thread nD τ).loc main_arg15)
abbrev a16 (c : Dev nD) : Arr1 128 := m ((c : Thread nD τ).loc main_arg16)
abbrev a17 (c : Dev nD) : Arr2 48 48 := m ((c : Thread nD τ).loc main_arg17)
abbrev a18 (c : Dev nD) : Arr1 48 := m ((c : Thread nD τ).loc main_arg18)
abbrev a2 (c : Dev nD) : (⟨S2x800000, .i32⟩ : BufTy).Contents (Elt Ideal) := m ((c : Thread nD τ).loc main_arg2)

/-! ## The edge messages -/

/-- The constant table, as the edge launch finds it. -/
theorem table1 (c : Dev nD) (a : Fin 16) (j : Fin 48) :
    (V1 m ρ c main_cst : Arr2 16 48) (ix2 a j) = if j.val / 3 = a.val then (1 : EReal) else 0 := by
  rw [V1_cst m ρ c]
  exact Cert.KernelIdeal.Table.entry a j

/-- The constant table, as the node launch finds it. -/
theorem table3 (c : Dev nD) (a : Fin 16) (j : Fin 48) :
    (V3 m ρ c main_cst : Arr2 16 48) (ix2 a j) = if j.val / 3 = a.val then (1 : EReal) else 0 := by
  rw [V3_cst m ρ c]
  exact Cert.KernelIdeal.Table.entry a j

/-- The destination index column is the reference's. -/
theorem dstCol_eq (c : Dev nD) : dstCol m c = Cert.ReferenceIdeal.Read.val_main_v68 (F := Ideal) (a2 m c) := rfl

/-- The clamped in-degree is the reference's. -/
theorem denom_eq (c : Dev nD) : denom m c = Cert.ReferenceIdeal.Read.val_main_v66 (F := Ideal) (a2 m c) := rfl

/-- The edge launch's scalar output is the reference's scalar edge messages. -/
theorem edge_s_eq (c : Dev nD) :
    (dat0 (F := Ideal) (V1 m ρ) c).arrAt 7 cfg0.N = Cert.ReferenceIdeal.Read.val_main_v41 (F := Ideal) (a3 m c) (a7 m c) (a8 m c) := by
  rw [Cert.KernelIdeal.EdgeValue.edge_s (V1 m ρ) c, Cert.ReferenceIdeal.RefValue.edge_s (a3 m c) (a7 m c) (a8 m c)]
  rw [V1_arg3 m ρ c, V1_v2 m ρ c, V1_arg8 m ρ c]
  rfl

/-- The scalar aggregate the node launch is entered with is the reference's. -/
theorem agg_s_eq (c : Dev nD) :
    V3 m ρ c main_v22 = Cert.ReferenceIdeal.Read.val_main_v72 (F := Ideal) (a2 m c) (a3 m c) (a7 m c) (a8 m c) := by
  rw [V3_v22 m ρ c, edge_s_eq m ρ c, dstCol_eq m c, denom_eq m c]
  unfold Cert.ReferenceIdeal.Read.val_main_v72 Cert.ReferenceIdeal.Read.val_main_v69 Cert.ReferenceIdeal.Read.val_main_v71 Cert.ReferenceIdeal.Read.val_main_v70
  rfl

/-- Row `e` of the flattened edge vectors is the three coordinates of edge `e`. -/
theorem edge_v_row (c : Dev nD) (e : Fin 800000) :
    row (V1 m ρ c main_v0 : Arr2 800000 3) e = row13 (a4 m c) e := by
  funext k
  show (V1 m ρ c main_v0 : Arr2 800000 3) (ix2 e k) = a4 m c (ix3 e 0 k)
  rw [V1_v0 m ρ c]
  exact shapeCast_apply _ shapeCasts_S800000x1x3_S800000x3 (ix2 e k) (ix3 e 0 k)
    (by rewrite [Shape.rowMajor_val_three, Shape.rowMajor_val_two]
        show (e.val * 1 + 0) * 3 + k.val = e.val * 3 + k.val
        omega)

/-- Row `n` of the flattened node vectors is row `n` of the node vectors, position `j` being entry `(j / 3, j % 3)`. -/
theorem node_v_row (c : Dev nD) (n : Fin 50000) :
    row (V3 m ρ c main_v1 : Arr2 50000 48) n = flatRow (a1 m c) n := by
  funext j
  have hj := j.isLt
  show (V3 m ρ c main_v1 : Arr2 50000 48) (ix2 n j)
    = a1 m c (ix3 n ⟨j.val / 3, by omega⟩ ⟨j.val % 3, Nat.mod_lt _ (by decide)⟩)
  rw [V3_v1 m ρ c]
  exact shapeCast_apply _ shapeCasts_S50000x16x3_S50000x48 (ix2 n j) (ix3 n ⟨j.val / 3, by omega⟩ ⟨j.val % 3, Nat.mod_lt _ (by decide)⟩)
    (by rewrite [Shape.rowMajor_val_three, Shape.rowMajor_val_two]
        show (n.val * 16 + j.val / 3) * 3 + j.val % 3 = n.val * 48 + j.val
        omega)

/-- The edge launch's vector output, at flattened position `3 a + d` of row `e`, is the reference's vector edge
    message `(e, a, d)`. -/
theorem edge_v_eq (c : Dev nD) (e : Fin 800000) (a : Fin 16) (d : Fin 3) :
    (dat0 (F := Ideal) (V1 m ρ) c).arrAt 8 cfg0.N (ix2 e (fl a d))
      = Cert.ReferenceIdeal.Read.val_main_v58 (F := Ideal) (a3 m c) (a4 m c) (a7 m c) (a8 m c) (a9 m c) (a10 m c) (ix3 e a d) := by
  rw [Cert.KernelIdeal.EdgeValue.edge_v (V1 m ρ) c (table1 m ρ c), Cert.ReferenceIdeal.RefValue.edge_v]
  show edgeV (edgeS (row (V1 m ρ c main_arg3 : Arr2 800000 32) e) (V1 m ρ c main_v2 : Arr2 32 128) (V1 m ρ c main_arg8 : Arr1 128))
      (row (V1 m ρ c main_v0 : Arr2 800000 3) e) (V1 m ρ c main_v3 : Arr2 3 48) (V1 m ρ c main_arg10 : Arr1 48) (fl a d) = _
  rw [edge_v_row m ρ c e, V1_arg3 m ρ c, V1_v2 m ρ c, V1_arg8 m ρ c, V1_v3 m ρ c, V1_arg10 m ρ c]
  rfl

/-! ## The aggregates -/

/-- The clamped in-degree column broadcast over 48 columns, at an entry of row `n`. -/
theorem denom_at (c : Dev nD) (n : Fin 50000) (j : Fin 48) :
    broadcastInDim S50000x48 ![0, 1] bcast_S50000x1_S50000x48_0_1
      (broadcastInDim S50000x1 ![0] bcast_S50000_S50000x1_0 (denom m c)) (ix2 n j) = denom m c (ix1 n) := by
  refine (broadcastInDim_apply _ bcast_S50000x1_S50000x48_0_1 _ (ix2 n j) (ix2 n 0) (fun a => ?_)).trans
    (broadcastInDim_apply _ bcast_S50000_S50000x1_0 _ (ix2 n 0) (ix1 n) (fun a => ?_))
  · match a with
    | ⟨0, _⟩ => show n.val = if (50000 : Nat) = 1 then 0 else n.val; rw [if_neg (by decide)]
    | ⟨1, _⟩ => show 0 = if (1 : Nat) = 1 then 0 else j.val; rw [if_pos rfl]
  · match a with
    | ⟨0, _⟩ => show n.val = if (50000 : Nat) = 1 then 0 else n.val; rw [if_neg (by decide)]

/-- A scatter-add of rows of 48 into an array of zeros, read at an entry: the sum of the updates of the edges whose
    destination is the row. -/
theorem rec48_eq : scatter_S50000x48_S800000x1_S800000x48_1_0_0_1
    = Cert.RowOps.rowScatter 50000 48 800000 (scatter_S50000x48_S800000x1_S800000x48_1_0_0_1).wf := rfl

theorem rec163_eq : Cert.ReferenceIdeal.scatter_S50000x16x3_S800000x1_S800000x16x3_12_0_0_1
    = Cert.PlaneOps.planeScatter 50000 16 3 800000 (Cert.ReferenceIdeal.scatter_S50000x16x3_S800000x1_S800000x16x3_12_0_0_1).wf := rfl

theorem scatter48_at (idx : (⟨S800000x1, .i32⟩ : BufTy).Contents (Elt Ideal)) (U : Arr2 800000 48) (n : Fin 50000) (j : Fin 48) :
    Ideal.hostScatterAdd scatter_S50000x48_S800000x1_S800000x48_1_0_0_1
        (broadcastInDim S50000x48 ![] bcast_S_S50000x48 (constant (F := Ideal) S_ .f32 0x00000000#32)) idx U (ix2 n j)
      = ∑ e : Fin 800000, if (idx (ix2 e 0)).toInt = (n.val : Int) then U (ix2 e j) else 0 := by
  rw [rec48_eq]
  refine (Cert.RowOps.scatterAdd_rows_apply
    (scatter_S50000x48_S800000x1_S800000x48_1_0_0_1).wf _ idx U n j).trans ?_
  have hz : broadcastInDim S50000x48 ![] bcast_S_S50000x48 (constant (F := Ideal) S_ .f32 0x00000000#32) (ix2 n j) = 0 :=
    (broadcastInDim_apply _ bcast_S_S50000x48 _ (ix2 n j) ix0 (fun a => a.elim0)).trans Ideal.ofBits_zero_f32
  rw [hz, zero_add]

/-- The reference's scatter-add of 16 x 3 planes into an array of zeros, read at an entry. -/
theorem scatter163_at (idx : (⟨Cert.ReferenceIdeal.S800000x1, .i32⟩ : BufTy).Contents (Elt Ideal)) (W : Arr3 800000 16 3)
    (n : Fin 50000) (a : Fin 16) (d : Fin 3) :
    Ideal.hostScatterAdd Cert.ReferenceIdeal.scatter_S50000x16x3_S800000x1_S800000x16x3_12_0_0_1
        (Cert.ReferenceIdeal.Read.val_main_v73 (F := Ideal)) idx W (ix3 n a d)
      = ∑ e : Fin 800000, if (idx (ix2 e 0)).toInt = (n.val : Int) then W (ix3 e a d) else 0 := by
  rw [rec163_eq]
  refine (Cert.PlaneOps.scatterAdd_planes_apply
    (Cert.ReferenceIdeal.scatter_S50000x16x3_S800000x1_S800000x16x3_12_0_0_1).wf _ idx W n a d).trans ?_
  have hz : Cert.ReferenceIdeal.Read.val_main_v73 (F := Ideal) (ix3 n a d) = 0 := by
    rw [Cert.ReferenceIdeal.Read.val_main_v73_apply]
    exact Ideal.ofBits_zero_f32
  rw [hz, zero_add]

/-- The host's accumulating scatter and its quotient at the ideal values. -/
theorem hostScatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl

theorem hostDivf_at {s : Shape} (x y : FVec Ideal s .f32) (i : s.Idx) : Host.divf x y i = Ideal.div (x i) (y i) := rfl

/-- The two scatter-adds agree at an entry when their updates agree entry by entry. -/
theorem agg_v_num (c : Dev nD) (U : Arr2 800000 48) (W : Arr3 800000 16 3) (n : Fin 50000) (j : Fin 48) (a : Fin 16) (d : Fin 3)
    (hE : ∀ e : Fin 800000, U (ix2 e j) = W (ix3 e a d)) :
    Ideal.hostScatterAdd scatter_S50000x48_S800000x1_S800000x48_1_0_0_1
        (broadcastInDim S50000x48 ![] bcast_S_S50000x48 (constant (F := Ideal) S_ .f32 0x00000000#32)) (dstCol m c) U (ix2 n j)
      = Ideal.hostScatterAdd Cert.ReferenceIdeal.scatter_S50000x16x3_S800000x1_S800000x16x3_12_0_0_1
        (Cert.ReferenceIdeal.Read.val_main_v73 (F := Ideal)) (Cert.ReferenceIdeal.Read.val_main_v74 (F := Ideal) (a2 m c)) W (ix3 n a d) := by
  refine (scatter48_at (dstCol m c) U n j).trans ?_
  refine Eq.trans ?_ (scatter163_at (Cert.ReferenceIdeal.Read.val_main_v74 (F := Ideal) (a2 m c)) W n a d).symm
  refine Finset.sum_congr rfl fun e _ => ?_
  rw [hE e]
  rfl

/-- The two denominators agree at an entry. -/
theorem agg_v_den (c : Dev nD) (n : Fin 50000) (j : Fin 48) (a : Fin 16) (d : Fin 3) :
    broadcastInDim S50000x48 ![0, 1] bcast_S50000x1_S50000x48_0_1
      (broadcastInDim S50000x1 ![0] bcast_S50000_S50000x1_0 (denom m c)) (ix2 n j)
      = Cert.ReferenceIdeal.Read.val_main_v77 (F := Ideal) (a2 m c) (ix3 n a d) := by
  refine (denom_at m c n j).trans ?_
  rw [Cert.ReferenceIdeal.Read.val_main_v77_apply, Cert.ReferenceIdeal.Read.val_main_v76_apply, denom_eq m c]
  exact congrArg _ (funext fun q => Fin.ext (by match q with | ⟨0, _⟩ => rfl))

/-- The two scatter-means agree at an entry when their updates agree entry by entry. -/
theorem agg_v_core (c : Dev nD) (U : Arr2 800000 48) (W : Arr3 800000 16 3) (n : Fin 50000) (j : Fin 48) (a : Fin 16) (d : Fin 3)
    (hE : ∀ e : Fin 800000, U (ix2 e j) = W (ix3 e a d)) :
    Host.divf (F := Ideal) (φ := .f32)
        (Host.scatterAdd (F := Ideal) (φ := .f32) scatter_S50000x48_S800000x1_S800000x48_1_0_0_1
          (broadcastInDim S50000x48 ![] bcast_S_S50000x48 (constant (F := Ideal) S_ .f32 0x00000000#32)) (dstCol m c) U)
        (broadcastInDim S50000x48 ![0, 1] bcast_S50000x1_S50000x48_0_1
          (broadcastInDim S50000x1 ![0] bcast_S50000_S50000x1_0 (denom m c))) (ix2 n j)
      = Host.divf (F := Ideal) (φ := .f32)
        (Host.scatterAdd (F := Ideal) (φ := .f32) Cert.ReferenceIdeal.scatter_S50000x16x3_S800000x1_S800000x16x3_12_0_0_1
          (Cert.ReferenceIdeal.Read.val_main_v73 (F := Ideal)) (Cert.ReferenceIdeal.Read.val_main_v74 (F := Ideal) (a2 m c)) W)
        (Cert.ReferenceIdeal.Read.val_main_v77 (F := Ideal) (a2 m c)) (ix3 n a d) := by
  rw [hostDivf_at, hostDivf_at, hostScatterAdd_eq, hostScatterAdd_eq]
  exact congrArg₂ Ideal.div (agg_v_num m c U W n j a d hE) (agg_v_den m c n j a d)

/-- The vector aggregate the node launch is entered with, at flattened position `3 a + d` of row `n`, is the
    reference's vector aggregate at `(n, a, d)`: both are the sum, over the edges whose destination is `n`, of the same
    message entries, divided by the clamped in-degree of `n`. -/
theorem agg_v_entry (c : Dev nD) (n : Fin 50000) (a : Fin 16) (d : Fin 3) :
    V3 m ρ c main_v28 (ix2 n (fl a d)) = Cert.ReferenceIdeal.Read.val_main_v78 (F := Ideal) (a2 m c) (a3 m c) (a4 m c) (a7 m c) (a8 m c) (a9 m c) (a10 m c) (ix3 n a d) := by
  rw [V3_v28 m ρ c]
  unfold Cert.ReferenceIdeal.Read.val_main_v78 Cert.ReferenceIdeal.Read.val_main_v75
  exact agg_v_core m c _ _ n (fl a d) a d (fun e => edge_v_eq m ρ c e a d)

/-- An entry of a row, and of a flattened row. -/
theorem row_at {n K : ℕ} (x : Arr2 n K) (r : Fin n) (k : Fin K) : row x r k = x (ix2 r k) := rfl

theorem flatRow_at {n : ℕ} (x : Arr3 n 16 3) (r : Fin n) (j : Fin 48) (ha : j.val / 3 < 16) (hd : j.val % 3 < 3) :
    flatRow x r j = x (ix3 r ⟨j.val / 3, ha⟩ ⟨j.val % 3, hd⟩) := rfl

/-- The same, row by row. -/
theorem agg_v_eq (c : Dev nD) (n : Fin 50000) :
    row (V3 m ρ c main_v28 : Arr2 50000 48) n
      = flatRow (Cert.ReferenceIdeal.Read.val_main_v78 (F := Ideal) (a2 m c) (a3 m c) (a4 m c) (a7 m c) (a8 m c) (a9 m c) (a10 m c) : Arr3 50000 16 3) n := by
  funext j
  have hj := j.isLt
  have ha : j.val / 3 < 16 := by omega
  have hd : j.val % 3 < 3 := Nat.mod_lt _ (by decide)
  have hfl : fl ⟨j.val / 3, ha⟩ ⟨j.val % 3, hd⟩ = j := Fin.ext (by show 3 * (j.val / 3) + j.val % 3 = j.val; omega)
  have h := agg_v_entry m ρ c n ⟨j.val / 3, ha⟩ ⟨j.val % 3, hd⟩
  rw [hfl] at h
  exact (row_at (V3 m ρ c main_v28 : Arr2 50000 48) n j).trans (h.trans (flatRow_at _ n j ha hd).symm)

/-! ## The results -/

/-- The kernel program's scalar result is the reference's. -/
theorem result_s (c : Dev nD) :
    W5 m ρ c (Proc.devRef .tc main_v29_0) = Cert.ReferenceIdeal.Read.val_main_v116 (F := Ideal) (a0 m c) (a2 m c) (a3 m c) (a5 m c) (a6 m c) (a7 m c) (a8 m c) (a11 m c) (a12 m c) (a15 m c) (a16 m c) := by
  rw [W5_v29_0 m ρ c, Cert.KernelIdeal.NodeValue.node_s (V3 m ρ) c, Cert.ReferenceIdeal.RefValue.node_s]
  rw [agg_s_eq m ρ c, V3_arg0 m ρ c, V3_arg5 m ρ c, V3_arg6 m ρ c, V3_v4 m ρ c, V3_arg12 m ρ c, V3_v6 m ρ c, V3_arg16 m ρ c]
  rfl

/-- The kernel program's vector result is the reference's. -/
theorem result_v (c : Dev nD) :
    W5 m ρ c (Proc.devRef .tc main_v30) = Cert.ReferenceIdeal.Read.val_main_v117 (F := Ideal) (a0 m c) (a1 m c) (a2 m c) (a3 m c) (a4 m c) (a5 m c) (a6 m c) (a7 m c) (a8 m c) (a9 m c) (a10 m c) (a11 m c) (a12 m c) (a13 m c) (a14 m c) (a17 m c) (a18 m c) := by
  funext i
  obtain ⟨n, a, d, rfl⟩ : ∃ (n : Fin 50000) (a : Fin 16) (d : Fin 3), i = ix3 n a d := ⟨i 0, i 1, i 2, eq_ix3 i⟩
  rw [W5_v30 m ρ c, Cert.ReferenceIdeal.RefValue.node_v]
  refine (shapeCast_apply _ shapeCasts_S50000x48_S50000x16x3 (ix3 n a d) (ix2 n (fl a d))
    (by rewrite [Shape.rowMajor_val_three, Shape.rowMajor_val_two]
        show n.val * 48 + (3 * a.val + d.val) = (n.val * 16 + a.val) * 3 + d.val
        omega)).trans ?_
  rw [Cert.KernelIdeal.NodeValue.node_v (V3 m ρ) c (table3 m ρ c)]
  show nodeV (nodeG (lnorm (row (V3 m ρ c main_arg0 : Arr2 50000 128) n) (V3 m ρ c main_arg5 : Arr1 128) (V3 m ρ c main_arg6 : Arr1 128))
        (row (V3 m ρ c main_v22 : Arr2 50000 128) n) (V3 m ρ c main_v4 : Arr2 128 128) (V3 m ρ c main_arg12 : Arr1 128))
      (vnormed (row (V3 m ρ c main_v1 : Arr2 50000 48) n)) (row (V3 m ρ c main_v28 : Arr2 50000 48) n)
      (V3 m ρ c main_v5 : Arr2 48 48) (V3 m ρ c main_arg14 : Arr1 48) (V3 m ρ c main_v7 : Arr2 48 48) (V3 m ρ c main_arg18 : Arr1 48) (fl a d) = _
  rw [node_v_row m ρ c n, agg_v_eq m ρ c n, agg_s_eq m ρ c, V3_arg0 m ρ c, V3_arg5 m ρ c, V3_arg6 m ρ c, V3_v4 m ρ c, V3_arg12 m ρ c,
    V3_v5 m ρ c, V3_arg14 m ρ c, V3_v7 m ρ c, V3_arg18 m ρ c]
  rfl

end Cert.Bridge

end
-- ==== Proof.lean ====
/-
  The certificate: the kernel program and the reference compute the same layer of a geometric vector perceptron
  network at the ideal values.

  The three frames: the kernel program's two are the generated frame certificates (two launches among host
  operations, every argument read but never written); the reference's is its generated run with the results dropped.
  No operation of the kernel program was rewritten for the ideal reading, so nothing is owed for it. The value claim:
  the kernel program's run leaves every buffer at the contents its five stretches compose (RunValue.lean), its two
  results among them; those contents are the reference's two results as functions of the arguments (Bridge.lean: the
  edge messages, their scatter-means over destination nodes, the node update), and the reference's run leaves its
  results at those functions of arguments that agree with the kernel program's.
-/
import proofs.«150730_j75419625718340_1_alg».proof.Defs
import proofs.«150730_j75419625718340_1_alg».proof.Proof.Gen.Kernel
import proofs.«150730_j75419625718340_1_alg».proof.Proof.Gen.Kernel.Skeleton
import proofs.«150730_j75419625718340_1_alg».proof.Proof.Gen.Kernel.Launch
import proofs.«150730_j75419625718340_1_alg».proof.Proof.Gen.Kernel.Points
import proofs.«150730_j75419625718340_1_alg».proof.Proof.Gen.Kernel.Frame
import proofs.«150730_j75419625718340_1_alg».proof.Proof.Gen.KernelIdeal
import proofs.«150730_j75419625718340_1_alg».proof.Proof.Gen.KernelIdeal.Skeleton
import proofs.«150730_j75419625718340_1_alg».proof.Proof.Gen.KernelIdeal.Launch
import proofs.«150730_j75419625718340_1_alg».proof.Proof.Gen.KernelIdeal.Points
import proofs.«150730_j75419625718340_1_alg».proof.Proof.Gen.KernelIdeal.Frame
import proofs.«150730_j75419625718340_1_alg».proof.Proof.Gen.ReferenceIdeal
import proofs.«150730_j75419625718340_1_alg».proof.Proof.Gen.Pre_finite_inputs
import proofs.«150730_j75419625718340_1_alg».proof.Proof.Gen.ReferenceIdeal.Run
import proofs.«150730_j75419625718340_1_alg».proof.Proof.Gen.ReferenceIdeal.Read
import proofs.«150730_j75419625718340_1_alg».proof.Proof.RunValue
import proofs.«150730_j75419625718340_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The kernel program's run with both results named and the arguments kept. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v29_0)
            = Cert.KernelIdeal.Gen.W5 m ρ c (Proc.devRef .tc Cert.KernelIdeal.main_v29_0)
        ∧ r.2.mem ((c.tc : Thread Cert.KernelIdeal.nD Cert.KernelIdeal.τ).loc Cert.KernelIdeal.main_v30)
            = Cert.KernelIdeal.Gen.W5 m ρ c (Proc.devRef .tc Cert.KernelIdeal.main_v30)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  (θ_run Cert.KernelIdeal.defs _ _).mono (fun r h c =>
    ⟨h c _ (Cert.KernelIdeal.Gen.mem_uc Cert.KernelIdeal.main_v29_0 (by decide)),
     h c _ (Cert.KernelIdeal.Gen.mem_uc Cert.KernelIdeal.main_v30 (by decide)),
     (h c _ (Cert.KernelIdeal.Gen.mem_uc Cert.KernelIdeal.main_arg0 (by decide))).trans (Cert.KernelIdeal.Gen.W5_main_arg0 m ρ c),
     (h c _ (Cert.KernelIdeal.Gen.mem_uc Cert.KernelIdeal.main_arg1 (by decide))).trans (Cert.KernelIdeal.Gen.W5_main_arg1 m ρ c),
     (h c _ (Cert.KernelIdeal.Gen.mem_uc Cert.KernelIdeal.main_arg2 (by decide))).trans (Cert.KernelIdeal.Gen.W5_main_arg2 m ρ c),
     (h c _ (Cert.KernelIdeal.Gen.mem_uc Cert.KernelIdeal.main_arg3 (by decide))).trans (Cert.KernelIdeal.Gen.W5_main_arg3 m ρ c),
     (h c _ (Cert.KernelIdeal.Gen.mem_uc Cert.KernelIdeal.main_arg4 (by decide))).trans (Cert.KernelIdeal.Gen.W5_main_arg4 m ρ c),
     (h c _ (Cert.KernelIdeal.Gen.mem_uc Cert.KernelIdeal.main_arg5 (by decide))).trans (Cert.KernelIdeal.Gen.W5_main_arg5 m ρ c),
     (h c _ (Cert.KernelIdeal.Gen.mem_uc Cert.KernelIdeal.main_arg6 (by decide))).trans (Cert.KernelIdeal.Gen.W5_main_arg6 m ρ c),
     (h c _ (Cert.KernelIdeal.Gen.mem_uc Cert.KernelIdeal.main_arg7 (by decide))).trans (Cert.KernelIdeal.Gen.W5_main_arg7 m ρ c),
     (h c _ (Cert.KernelIdeal.Gen.mem_uc Cert.KernelIdeal.main_arg8 (by decide))).trans (Cert.KernelIdeal.Gen.W5_main_arg8 m ρ c),
     (h c _ (Cert.KernelIdeal.Gen.mem_uc Cert.KernelIdeal.main_arg9 (by decide))).trans (Cert.KernelIdeal.Gen.W5_main_arg9 m ρ c),
     (h c _ (Cert.KernelIdeal.Gen.mem_uc Cert.KernelIdeal.main_arg10 (by decide))).trans (Cert.KernelIdeal.Gen.W5_main_arg10 m ρ c),
     (h c _ (Cert.KernelIdeal.Gen.mem_uc Cert.KernelIdeal.main_arg11 (by decide))).trans (Cert.KernelIdeal.Gen.W5_main_arg11 m ρ c),
     (h c _ (Cert.KernelIdeal.Gen.mem_uc Cert.KernelIdeal.main_arg12 (by decide))).trans (Cert.KernelIdeal.Gen.W5_main_arg12 m ρ c),
     (h c _ (Cert.KernelIdeal.Gen.mem_uc Cert.KernelIdeal.main_arg13 (by decide))).trans (Cert.KernelIdeal.Gen.W5_main_arg13 m ρ c),
     (h c _ (Cert.KernelIdeal.Gen.mem_uc Cert.KernelIdeal.main_arg14 (by decide))).trans (Cert.KernelIdeal.Gen.W5_main_arg14 m ρ c),
     (h c _ (Cert.KernelIdeal.Gen.mem_uc Cert.KernelIdeal.main_arg15 (by decide))).trans (Cert.KernelIdeal.Gen.W5_main_arg15 m ρ c),
     (h c _ (Cert.KernelIdeal.Gen.mem_uc Cert.KernelIdeal.main_arg16 (by decide))).trans (Cert.KernelIdeal.Gen.W5_main_arg16 m ρ c),
     (h c _ (Cert.KernelIdeal.Gen.mem_uc Cert.KernelIdeal.main_arg17 (by decide))).trans (Cert.KernelIdeal.Gen.W5_main_arg17 m ρ c),
     (h c _ (Cert.KernelIdeal.Gen.mem_uc Cert.KernelIdeal.main_arg18 (by decide))).trans (Cert.KernelIdeal.Gen.W5_main_arg18 m ρ c)⟩)
    (Cert.KernelIdeal.RunValue.run_all (F := Ideal) m ρ)

/-- Both programs, run from memories agreeing on the arguments, end with the same two results. -/
theorem algebraic : Cert.algebraic_KernelIdeal_ReferenceIdeal := by
  intro m ρ m' ρ' _ hagree
  refine ⟨fun c => Cert.KernelIdeal.Gen.W5 m ρ c (Proc.devRef .tc Cert.KernelIdeal.main_v29_0),
    fun c => Cert.KernelIdeal.Gen.W5 m ρ c (Proc.devRef .tc Cert.KernelIdeal.main_v30), kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v116_eq, h0, h2, h3, h5, h6, h7, h8, h11, h12, h15, h16]
    exact (Cert.Bridge.result_s m ρ c).symm
  · obtain ⟨h0, h1, h2, h3, h4, h5, h6, h7, h8, h9, h10, h11, h12, h13, h14, h15, h16, h17, h18⟩ := hagree c
    rw [Cert.ReferenceIdeal.Read.val_main_v117_eq, h0, h1, h2, h3, h4, h5, h6, h7, h8, h9, h10, h11, h12, h13, h14, h17, h18]
    exact (Cert.Bridge.result_v m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
